-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256x512 : Shape := ⟨2, ![256, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S8x2048x256 .f32) (main_arg1 : FVec F S256x512 .f32) (main_arg2 : FVec F S512 .f32) (main_arg3 : FVec F S512x256 .f32) (main_arg4 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_v13 main_v16
-- ==== Kernel.lean ====
abbrev S8x2048x256 : Shape := ⟨3, ![8, 2048, 256]⟩
abbrev S256x512 : Shape := ⟨2, ![256, 512]⟩
abbrev S512 : Shape := ⟨1, ![512]⟩
abbrev S512x256 : Shape := ⟨2, ![512, 256]⟩
abbrev S256 : Shape := ⟨1, ![256]⟩
abbrev S16384x256 : Shape := ⟨2, ![16384, 256]⟩
abbrev S16384x512 : Shape := ⟨2, ![16384, 512]⟩
abbrev S1024x256 : Shape := ⟨2, ![1024, 256]⟩
abbrev S1024x512 : Shape := ⟨2, ![1024, 512]⟩
abbrev S1x512 : Shape := ⟨2, ![1, 512]⟩
abbrev S8x2048x512 : Shape := ⟨3, ![8, 2048, 512]⟩
abbrev S1x512x512 : Shape := ⟨3, ![1, 512, 512]⟩
abbrev S1x2048x512 : Shape := ⟨3, ![1, 2048, 512]⟩
abbrev S1x512x256 : Shape := ⟨3, ![1, 512, 256]⟩
abbrev S512x1 : Shape := ⟨2, ![512, 1]⟩
abbrev S512x512 : Shape := ⟨2, ![512, 512]⟩
abbrev S1x256 : Shape := ⟨2, ![1, 256]⟩

abbrev nBuf : Space → Nat
  | .hbm => 9
  | .vmem => 17
  | .smem => 0
  | _ => 0

abbrev bufTy : (tb : Table) → Fin (tcTables nBuf tb) → BufTy
  | .hbm, ⟨0, _⟩ => ⟨S8x2048x256, .f32⟩
  | .hbm, ⟨1, _⟩ => ⟨S256x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S16384x256, .f32⟩
  | .hbm, ⟨6, _⟩ => ⟨S16384x512, .bf16⟩
  | .hbm, ⟨7, _⟩ => ⟨S8x2048x512, .bf16⟩
  | .hbm, ⟨8, _⟩ => ⟨S8x2048x256, .f32⟩
  | .local _ .vmem, ⟨0, _⟩ => ⟨S1024x256, .f32⟩
  | .local _ .vmem, ⟨1, _⟩ => ⟨S1024x256, .f32⟩
  | .local _ .vmem, ⟨2, _⟩ => ⟨S256x512, .f32⟩
  | .local _ .vmem, ⟨3, _⟩ => ⟨S512, .f32⟩
  | .local _ .vmem, ⟨4, _⟩ => ⟨S1024x512, .bf16⟩
  | .local _ .vmem, ⟨5, _⟩ => ⟨S1024x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S512x256, .f32⟩
  | .local _ .vmem, ⟨11, _⟩ => ⟨S256, .f32⟩
  | .local _ .vmem, ⟨12, _⟩ => ⟨S1x512x256, .f32⟩
  | .local _ .vmem, ⟨13, _⟩ => ⟨S1x512x256, .f32⟩
  | .local _ .vmem, ⟨14, _⟩ => ⟨S512x1, .f32⟩
  | .local _ .vmem, ⟨15, _⟩ => ⟨S512x1, .f32⟩
  | .local _ .vmem, ⟨16, _⟩ => ⟨S512x512, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 4, 4], ![false, false, false]⟩

def k1_mult1 (i : grid1.Coords) : BitVec 32 :=
  let arg2 : BitVec 32 := BitVec.ofNat 32 (i 2).val
  let c512_i32 : BitVec 32 := 512#32
  let v5 : BitVec 32 := Scalar.muli arg2 c512_i32
  v5
def k1_off1 (i : grid1.Coords) : Fin 3 → Nat :=
  let c0_3 : Index := 0#32
  let arg2 : BitVec 32 := BitVec.ofNat 32 (i 2).val
  let c512_i32 : BitVec 32 := 512#32
  let v5 : BitVec 32 := Scalar.muli arg2 c512_i32
  let v6 : BitVec 32 := v5
  let v7 : Index := Scalar.indexCast v6
  let c0_4 : Index := 0#32
  ![0, v7.toNat, 0]
def k1_cond2 (i : grid1.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_22 : BitVec 32 := 0#32
  let v44 : BitVec 1 := Scalar.cmpi .ne v43 c0_i32_22
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S8x2048x256_S16384x256 : S8x2048x256.ShapeCasts S16384x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  shapeCasts_S16384x512_S8x2048x512 : S16384x512.ShapeCasts S8x2048x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  transposes_S512x512_p1_0_S512x512 : S512x512.Transposes [1, 0] S512x512
  reduces_S512x512_S512 : S512x512.Reduces [1] S512
  shapeCasts_S512_S512x1 : S512.ShapeCasts S512x1
  broadcasts_S512x1_S512x512 : S512x1.Broadcasts S512x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  dot_S1024x256_S256x512_S1024x512_1_0_0_1_n_n_wf : DotDims.WF S1024x256 S256x512 S1024x512 [1] [0] [0] [1] [] []
  dot_S512x512_S512x512_S512x512_1_0_0_1_n_n_wf : DotDims.WF S512x512 S512x512 S512x512 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .bf16 = 32 ∨ (Rect.block (s := S16384x512) S1024x512.size (cc0_transform_3 i) (hinb0_3 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S1x512x512.size a ≤ S1x2048x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S8x2048x512.size a
  hwx1_0 : ∀ i : grid1.Coords, EltTy.bits .bf16 = 32 ∨ (Rect.block (s := S8x2048x512) S1x512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x512.size a ≤ S8x2048x512.size a
  hwx1_1 : ∀ i : grid1.Coords, EltTy.bits .bf16 = 32 ∨ (Rect.block (s := S8x2048x512) S1x2048x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .f32 = 32 ∨ (Rect.block (s := S512x256) S512x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x256.size a ≤ S8x2048x256.size a
  hwx1_4 : ∀ i : grid1.Coords, EltTy.bits .f32 = 32 ∨ (Rect.block (s := S8x2048x256) S1x512x256.size (cc1_transform_4 i) (hinb1_4 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8x2048x256 : Shape := ⟨3, ![8, 2048, 256]⟩
abbrev S256x512 : Shape := ⟨2, ![256, 512]⟩
abbrev S512 : Shape := ⟨1, ![512]⟩
abbrev S512x256 : Shape := ⟨2, ![512, 256]⟩
abbrev S256 : Shape := ⟨1, ![256]⟩
abbrev S8x2048x512 : Shape := ⟨3, ![8, 2048, 512]⟩
abbrev S1x1x512 : Shape := ⟨3, ![1, 1, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x256 : Shape := ⟨3, ![1, 1, 256]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S256x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S8x2048x512, .f32⟩
  | .hbm, ⟨6, _⟩ => ⟨S1x1x512, .f32⟩
  | .hbm, ⟨7, _⟩ => ⟨S8x2048x512, .f32⟩
  | .hbm, ⟨8, _⟩ => ⟨S8x2048x512, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S_, .f32⟩
  | .hbm, ⟨13, _⟩ => ⟨S8x2048, .f32⟩
  | .hbm, ⟨14, _⟩ => ⟨S8x2048, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S8x2048x512, .f32⟩
  | .hbm, ⟨25, _⟩ => ⟨S8x2048x256, .f32⟩
  | .hbm, ⟨26, _⟩ => ⟨S1x1x256, .f32⟩
  | .hbm, ⟨27, _⟩ => ⟨S8x2048x256, .f32⟩
  | .hbm, ⟨28, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  dot_S8x2048x256_S256x512_S8x2048x512_2_0_01_1_n_n_wf : DotDims.WF S8x2048x256 S256x512 S8x2048x512 [2] [0] [0, 1] [1] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]
  dot_S8x2048x512_S512x256_S8x2048x256_2_0_01_1_n_n_wf : DotDims.WF S8x2048x512 S512x256 S8x2048x256 [2] [0] [0, 1] [1] [] []

variable [Facts₀]

def dot_S8x2048x256_S256x512_S8x2048x512_2_0_01_1_n_n : DotDims S8x2048x256 S256x512 S8x2048x512 where
  lhsContracting := [2]
  rhsContracting := [0]
  lhsNonContracting := [0, 1]
  rhsNonContracting := [1]
  lhsBatch := []
  rhsBatch := []
  wf := dot_S8x2048x256_S256x512_S8x2048x512_2_0_01_1_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf
def dot_S8x2048x512_S512x256_S8x2048x256_2_0_01_1_n_n : DotDims S8x2048x512 S512x256 S8x2048x256 where
  lhsContracting := [2]
  rhsContracting := [0]
  lhsNonContracting := [0, 1]
  rhsNonContracting := [1]
  lhsBatch := []
  rhsBatch := []
  wf := dot_S8x2048x512_S512x256_S8x2048x256_2_0_01_1_n_n_wf

class Facts : Prop extends Facts₀ where

variable [Facts]
-- ==== Proof.EncodeStageBits.lean ====
/-
  The encode stage, one grid point at a time.  The first pallas_call tiles the 16384 rows of the flattened input into
  16 blocks of 1024 rows; at a point it reads the block's rows x (1024 x 256), the whole weight matrix W (256 x 512)
  and the whole bias b (512), and stores x . W + b (1024 x 512) into the output block.  This module states what the
  output block's staging buffer holds after the body (one store covering the whole block, its value the body's
  arithmetic as one pure term of the three loads), proves the body's triple, and packages the proof data of the
  pipeline: every input buffer holds its block of the array as the region finds it, the output buffer holds the
  stored value.  Everything is generic in the float instance.
-/
import proofs.«180303_j2181843387116_2_alg».proof.Proof.Gen.Kernel.Launch
import proofs.«180303_j2181843387116_2_alg».proof.Proof.Gen.Kernel.Skeleton
import proofs.«180303_j2181843387116_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Encode

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffers' contents when the region is entered
variable (V : (c : Dev nD) → (b : Ref sig .tc) → Buf (Elt F) ((c : Thread nD τ).loc b))

/-- Window `w`'s block of its array at grid point `t`, the array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block in place holds that block at every point, whether the pipeline
    fetched it there or its block index did not move since the last fetch (one statement per window: the block's
    index type is the window's own). -/
theorem holds_block0 {c : Dev nD} (dat : Dat τ (Elt F) Unit ℕ (Pipeline.UD sig nD τ) ℕ cfg0 c)
    (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem holds_block1 {c : Dev nD} (dat : Dat τ (Elt F) Unit ℕ (Pipeline.UD sig nD τ) ℕ cfg0 c)
    (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem holds_block2 {c : Dev nD} (dat : Dat τ (Elt F) Unit ℕ (Pipeline.UD sig nD τ) ℕ cfg0 c)
    (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The rectangle of the one store: the whole output block. -/
abbrev whole : Rect S1024x512 := Rect.unit (s := S1024x512) ![0, 0] S1024x512.size inb_S1024x512_S1024x512_0_0
abbrev wholeX : Rect S1024x256 := Rect.unit (s := S1024x256) ![0, 0] S1024x256.size inb_S1024x256_S1024x256_0_0
abbrev wholeW : Rect S256x512 := Rect.unit (s := S256x512) ![0, 0] S256x512.size inb_S256x512_S256x512_0_0
abbrev wholeB : Rect S512 := Rect.unit (s := S512) ![0] S512.size inb_S512_S512_0

/-- What the output block's buffer holds after the body: the one store's value over the three loads. -/
def stored (x : Vec F S1024x256 .f32) (w : Vec F S256x512 .f32) (b : Vec F S512 .f32) : Vec F S1024x512 .bf16 :=
  View.canon [⟨whole, k0_pay1 (View.ld x wholeX) (View.ld w wholeW) (View.ld b wholeB)⟩]

/-- The store's rectangle is the whole block, so it covers it. -/
theorem stored_cover (p0 : Vec F S1024x512 .bf16) (y : S1024x512.Idx) :
    ∃ pc ∈ ([⟨whole, p0⟩] : List (View.Piece (Elt F) S1024x512 .bf16)), y ∈ pc.1.set :=
  View.cover_of_tiled [⟨whole, p0⟩] S1024x512.size (by rfl) y

set_option maxHeartbeats 1600000 in
/-- The body on whole staging memrefs: the inputs at read contents, the output at anything, runs to the inputs
    unchanged and the output at `stored`. -/
theorem body_triple (c : Dev nD) (E : Set ℕ) (i : grid0.Coords)
    (arg1 : Memref sig .tc .vmem S1024x256 .f32) (harg1 : arg1.IsWhole) (arg2 : Memref sig .tc .vmem S256x512 .f32) (harg2 : arg2.IsWhole)
    (arg3 : Memref sig .tc .vmem S512 .f32) (harg3 : arg3.IsWhole) (arg4 : Memref sig .tc .vmem S1024x512 .bf16) (harg4 : arg4.IsWhole)
    (x : Vec F S1024x256 .f32) (w : Vec F S256x512 .f32) (b : Vec F S512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (stored x w b)) -∗ K ⟨⟩))
      ⊢ wp frame (wpE (defs₀ (F := F)) Variants.none c none) E (cc0__encode_kernel i arg1 harg1 arg2 harg2 arg3 harg3 arg4 harg4) K := by
  simp only [cc0__encode_kernel_eq_skeleton]; unfold cc0__encode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-- The pipeline's proof data on core `c`: the arrays as the region finds them; after the body each input buffer at
    its block and the output buffer at `stored` of the three input blocks; the invariant is the scoped rest and the
    generator register, untouched; nothing owed; full shares. -/
def dat (c : Dev nD) : Dat τ (Elt F) Unit ℕ (Pipeline.UD sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => stored (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = stored (blk V c 0 t) (blk V c 1 t) (blk V c 2 t) := by dsimp only [dat]

theorem before_0 (c : Dev nD) (t : Fin cfg0.N) (d) : (dat V c).before 0 t d = blk V c 0 t :=
  holds_block0 V (dat V c) (dat_A V c 0) (after_0 V c) t d
theorem before_1 (c : Dev nD) (t : Fin cfg0.N) (d) : (dat V c).before 1 t d = blk V c 1 t :=
  holds_block1 V (dat V c) (dat_A V c 1) (after_1 V c) t d
theorem before_2 (c : Dev nD) (t : Fin cfg0.N) (d) : (dat V c).before 2 t d = blk V c 2 t :=
  holds_block2 V (dat V c) (dat_A V c 2) (after_2 V c) t d

/-- What the body is called with at point `t`, the windows one by one, -/
def pre_at (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def post_at (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the input buffers hold their blocks, so the triple applies; the invariant and the core's
    debts pass through unread. -/
theorem body_at (c : Dev nD) (t : Fin cfg0.N) :
    pre_at V c t ⊢ wp frame (wpE (defs₀ (F := F)) Variants.none c none) Set.univ (bodyAt0 t) (fun _ => post_at V c t) := by
  unfold pre_at post_at bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (body_triple c Set.univ (grid0.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem obligation (c : Dev nD) : BodyObligation (dat (F := F) V c) (defs₀ (F := F)) Variants.none () Set.univ := fun t => by
  rw [bigSep_W0, bigSep_W0]
  exact body_at V c t

end Cert.Kernel.Encode

end
-- ==== Proof.AttnCondsBits.lean ====
/-
  The attention kernel's two branches, as conditions on the grid point.  The grid is (batch, query tile, key tile) =
  8 x 4 x 4, the key tile the fastest axis.  The first branch (reset the running maximum, the running denominator and
  the running numerator) is taken exactly when the key-tile coordinate is 0; the second (normalise, decode, store the
  output tile) exactly when it is 3, the last.  Over the 128 linearised points these are the residues 0 and 3 mod 4.
  Also: where the output window is idle, and the key slab's row offset at a point.
-/
import proofs.«180303_j2181843387116_2_alg».proof.Proof.Gen.Kernel.Launch
import proofs.«180303_j2181843387116_2_alg».proof.Proof.Gen.Kernel.Skeleton
import proofs.«180303_j2181843387116_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The first branch's condition: the key-tile coordinate is 0 (the printed comparison chain). -/
abbrev isFirst (i : grid1.Coords) : Prop := (Scalar.cmpi .ne (Scalar.extui (Scalar.cmpi .eq (BitVec.ofNat 32 (i 2).val) 0#32)) 0#32) = 1#1
theorem isFirst_iff : ∀ t : Fin cfg1.N, isFirst (grid1.coords t) ↔ t.val % 4 = 0 :=
  (by decide +kernel : ∀ t : Fin grid1.N, isFirst (grid1.coords t) ↔ t.val % 4 = 0)

/-- The second branch's condition: the key-tile coordinate is 3, the last. -/
abbrev isLast (i : grid1.Coords) : Prop := k1_cond2 i = 1#1
theorem isLast_iff : ∀ t : Fin cfg1.N, isLast (grid1.coords t) ↔ t.val % 4 = 3 :=
  (by decide +kernel : ∀ t : Fin grid1.N, isLast (grid1.coords t) ↔ t.val % 4 = 3)

/-- The output window is idle exactly off the last key tile, and is written back exactly on it. -/
theorem idle_out : ∀ t : Fin cfg1.N, cfg1.idle 4 (grid1.coords t) = !decide (t.val % 4 = 3) := by decide +kernel
theorem live_in0 : ∀ t : Fin cfg1.N, cfg1.idle 0 (grid1.coords t) = false := by decide +kernel
theorem live_in1 : ∀ t : Fin cfg1.N, cfg1.idle 1 (grid1.coords t) = false := by decide +kernel
theorem live_in2 : ∀ t : Fin cfg1.N, cfg1.idle 2 (grid1.coords t) = false := by decide +kernel
theorem live_in3 : ∀ t : Fin cfg1.N, cfg1.idle 3 (grid1.coords t) = false := by decide +kernel

/-- The key block's row offset inside the resident slab: 512 times the key-tile coordinate. -/
theorem key_offset : ∀ t : Fin cfg1.N, k1_off1 (grid1.coords t) = ![0, 512 * (t.val % 4), 0] := by decide +kernel

end Cert.Kernel.Attn

end
-- ==== Proof.AttnRunFirstBits.lean ====
/-
  The attention kernel's body run symbolically in one of its three control cases (the first key tile: the running statistics are reset, then updated).
-/
import proofs.«180303_j2181843387116_2_alg».proof.Proof.AttnCondsBits

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's run First: on whole staging memrefs, the inputs at their contents, it reaches the continuation with
    the inputs as they were and each buffer it stored into holding its stores, as a list of pieces (last store first)
    that the symbolic run finds. -/
noncomputable def runFirst (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : isFirst i) (hc1 : ¬isLast i)
    (x0 : Vec F S1x512x512 .bf16) (x1 : Vec F S1x2048x512 .bf16) (x2 : Vec F S512x256 .f32) (x3 : Vec F S256 .f32) :
    Σ' (L4 : List (View.Piece (Elt F) S1x512x256 .f32)) (LS0 : List (View.Piece (Elt F) S512x1 .f32)) (LS1 : List (View.Piece (Elt F) S512x1 .f32)), { LS2 : List (View.Piece (Elt F) S512x512 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__kernel_eq_skeleton]; unfold cc1__kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    obtain rfl := harg7.eq_unread hf4

    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Attn

end
-- ==== Proof.AttnRunMidBits.lean ====
/-
  The attention kernel's body run symbolically in one of its three control cases (a middle key tile: the running statistics are updated).
-/
import proofs.«180303_j2181843387116_2_alg».proof.Proof.AttnCondsBits

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's run Mid: on whole staging memrefs, the inputs at their contents, it reaches the continuation with
    the inputs as they were and each buffer it stored into holding its stores, as a list of pieces (last store first)
    that the symbolic run finds. -/
noncomputable def runMid (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : ¬isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) :
    Σ' (L4 : List (View.Piece (Elt F) S1x512x256 .f32)) (LS0 : List (View.Piece (Elt F) S512x1 .f32)) (LS1 : List (View.Piece (Elt F) S512x1 .f32)), { LS2 : List (View.Piece (Elt F) S512x512 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__kernel_eq_skeleton]; unfold cc1__kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Attn

end
-- ==== Proof.AttnRunLastBits.lean ====
/-
  The attention kernel's body run symbolically in one of its three control cases (the last key tile: the running statistics are updated, then the tile is normalised, decoded and stored).
-/
import proofs.«180303_j2181843387116_2_alg».proof.Proof.AttnCondsBits

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's run Last: on whole staging memrefs, the inputs at their contents, it reaches the continuation with
    the inputs as they were and each buffer it stored into holding its stores, as a list of pieces (last store first)
    that the symbolic run finds. -/
noncomputable def runLast (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) :
    Σ' (L4 : List (View.Piece (Elt F) S1x512x256 .f32)) (LS0 : List (View.Piece (Elt F) S512x1 .f32)) (LS1 : List (View.Piece (Elt F) S512x1 .f32)), { LS2 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__kernel i arg3 harg3 arg4 harg4 arg5 harg5 arg6 harg6 arg7 harg7 arg8 harg8 arg9 harg9 arg10 harg10) K } := by
  refine ⟨?_, ?_, ?_, ?_, fun E K => ?run⟩
  case run =>
    simp only [cc1__kernel_eq_skeleton]; unfold cc1__kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3

    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.Kernel.Attn

end
-- ==== Proof.AttnDataBits.lean ====
/-
  The attention stage as a pipeline: what every buffer holds after every grid point.  The grid's 128 points are
  (batch, query tile, key tile), the key tile fastest.  Within a run of four points the kernel carries three running
  statistics in scratch buffers; at a run's first point it resets them, at its last it also writes the output tile.
  So what the scratch buffers (and, at a last point, the output tile's buffer) hold after point n is defined by
  recursion on n: the point's control case, run at the point's blocks, over what the point before left.  The pipeline's
  invariant between points is the scoped rest with the three scratch buffers at those contents.  The input windows
  (query tile, key slab, decode weights, decode bias) hold their blocks of the arrays as the region finds them; the
  query tile and the key slab are windows onto one array.  Generic in the float instance.
-/
import proofs.«180303_j2181843387116_2_alg».proof.Proof.AttnRunFirstBits
import proofs.«180303_j2181843387116_2_alg».proof.Proof.AttnRunMidBits
import proofs.«180303_j2181843387116_2_alg».proof.Proof.AttnRunLastBits

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Output tile, running maximum, running denominator, running numerator. -/
abbrev Left (F : FTy → Type) : Type := Vec F S1x512x256 .f32 × Vec F S512x1 .f32 × Vec F S512x1 .f32 × Vec F S512x512 .f32

/-- Each window's current staging memref at a point, and its wholeness. -/
abbrev ms_0 (t : Fin cfg1.N) : Memref sig .tc .vmem S1x512x512 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x2048x512 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S512x256 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S256 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1x512x256 .f32 := win1_4.stage (cfg1.slots t 4)
abbrev hs_4 (t : Fin cfg1.N) : (ms_4 t).IsWhole := hstage1_4 ((cfg1.slots t 4).cast nbuf1_4)
/-- The three scratch operands. -/
abbrev scM : Memref sig .tc .vmem S512x1 .f32 := Memref.whole cc1_scratch0
abbrev scL : Memref sig .tc .vmem S512x1 .f32 := Memref.whole cc1_scratch1
abbrev scA : Memref sig .tc .vmem S512x512 .f32 := Memref.whole cc1_scratch2
abbrev VSm : View sig .tc .vmem S512x1 .f32 := scM.view
abbrev VSl : View sig .tc .vmem S512x1 .f32 := scL.view
abbrev VSa : View sig .tc .vmem S512x512 .f32 := scA.view
/-- One staging buffer of the output window, through which its contents are stated (the choice does not matter). -/
abbrev VO : View sig .tc .vmem S1x512x256 .f32 := (Memref.whole cc1_stg4_0 : Memref sig .tc .vmem S1x512x256 .f32).view

/-- The stores of case First into the three statistics buffers each tile their buffer, so they cover it. -/
theorem coverFirst_m (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : isFirst i) (hc1 : ¬isLast i)
    (x0 : Vec F S1x512x512 .bf16) (x1 : Vec F S1x2048x512 .bf16) (x2 : Vec F S512x256 .f32) (x3 : Vec F S256 .f32) (y : S512x1.Idx) : ∃ pc ∈ (runFirst c i arg3 harg3 arg4 harg4 arg5 harg5 arg6 harg6 arg7 harg7 arg8 harg8 arg9 harg9 arg10 harg10 hc0 hc1 x0 x1 x2 x3).2.1, y ∈ pc.1.set :=
  View.cover_of_tiledL (runFirst c i arg3 harg3 arg4 harg4 arg5 harg5 arg6 harg6 arg7 harg7 arg8 harg8 arg9 harg9 arg10 harg10 hc0 hc1 x0 x1 x2 x3).2.1 S512x1.size (by sl_kernel_rfl) y
theorem coverFirst_l (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : isFirst i) (hc1 : ¬isLast i)
    (x0 : Vec F S1x512x512 .bf16) (x1 : Vec F S1x2048x512 .bf16) (x2 : Vec F S512x256 .f32) (x3 : Vec F S256 .f32) (y : S512x1.Idx) : ∃ pc ∈ (runFirst c i arg3 harg3 arg4 harg4 arg5 harg5 arg6 harg6 arg7 harg7 arg8 harg8 arg9 harg9 arg10 harg10 hc0 hc1 x0 x1 x2 x3).2.2.1, y ∈ pc.1.set :=
  View.cover_of_tiledL (runFirst c i arg3 harg3 arg4 harg4 arg5 harg5 arg6 harg6 arg7 harg7 arg8 harg8 arg9 harg9 arg10 harg10 hc0 hc1 x0 x1 x2 x3).2.2.1 S512x1.size (by sl_kernel_rfl) y
theorem coverFirst_a (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : isFirst i) (hc1 : ¬isLast i)
    (x0 : Vec F S1x512x512 .bf16) (x1 : Vec F S1x2048x512 .bf16) (x2 : Vec F S512x256 .f32) (x3 : Vec F S256 .f32) (y : S512x512.Idx) : ∃ pc ∈ (runFirst c i arg3 harg3 arg4 harg4 arg5 harg5 arg6 harg6 arg7 harg7 arg8 harg8 arg9 harg9 arg10 harg10 hc0 hc1 x0 x1 x2 x3).2.2.2.1, y ∈ pc.1.set :=
  View.cover_of_tiledL (runFirst c i arg3 harg3 arg4 harg4 arg5 harg5 arg6 harg6 arg7 harg7 arg8 harg8 arg9 harg9 arg10 harg10 hc0 hc1 x0 x1 x2 x3).2.2.2.1 S512x512.size (by sl_kernel_rfl) y
/-- What case First leaves: the output tile's buffer (nothing stored: a placeholder nobody reads), then the running maximum, denominator and
    numerator — each the case's stores read back. -/
def leftFirst (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : isFirst i) (hc1 : ¬isLast i)
    (x0 : Vec F S1x512x512 .bf16) (x1 : Vec F S1x2048x512 .bf16) (x2 : Vec F S512x256 .f32) (x3 : Vec F S256 .f32) : Left F :=
  (VO.read (Elt F) (VO.writes (Elt F) VO.junk (runFirst c i arg3 harg3 arg4 harg4 arg5 harg5 arg6 harg6 arg7 harg7 arg8 harg8 arg9 harg9 arg10 harg10 hc0 hc1 x0 x1 x2 x3).1),
   VSm.read (Elt F) (VSm.writes (Elt F) VSm.junk (runFirst c i arg3 harg3 arg4 harg4 arg5 harg5 arg6 harg6 arg7 harg7 arg8 harg8 arg9 harg9 arg10 harg10 hc0 hc1 x0 x1 x2 x3).2.1),
   VSl.read (Elt F) (VSl.writes (Elt F) VSl.junk (runFirst c i arg3 harg3 arg4 harg4 arg5 harg5 arg6 harg6 arg7 harg7 arg8 harg8 arg9 harg9 arg10 harg10 hc0 hc1 x0 x1 x2 x3).2.2.1),
   VSa.read (Elt F) (VSa.writes (Elt F) VSa.junk (runFirst c i arg3 harg3 arg4 harg4 arg5 harg5 arg6 harg6 arg7 harg7 arg8 harg8 arg9 harg9 arg10 harg10 hc0 hc1 x0 x1 x2 x3).2.2.2.1))

/-- The stores of case Mid into the three statistics buffers each tile their buffer, so they cover it. -/
theorem coverMid_m (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : ¬isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) (y : S512x1.Idx) : ∃ pc ∈ (runMid c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (runMid c i arg3 harg3 arg4 harg4 arg5 harg5 arg6 harg6 arg7 harg7 arg8 harg8 arg9 harg9 arg10 harg10 hc0 hc1 x0 x1 x2 x3 xs0 xs1 xs2).2.1 S512x1.size (by sl_kernel_rfl) y
theorem coverMid_l (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : ¬isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) (y : S512x1.Idx) : ∃ pc ∈ (runMid c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (runMid c i arg3 harg3 arg4 harg4 arg5 harg5 arg6 harg6 arg7 harg7 arg8 harg8 arg9 harg9 arg10 harg10 hc0 hc1 x0 x1 x2 x3 xs0 xs1 xs2).2.2.1 S512x1.size (by sl_kernel_rfl) y
theorem coverMid_a (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : ¬isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) (y : S512x512.Idx) : ∃ pc ∈ (runMid c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (runMid c i arg3 harg3 arg4 harg4 arg5 harg5 arg6 harg6 arg7 harg7 arg8 harg8 arg9 harg9 arg10 harg10 hc0 hc1 x0 x1 x2 x3 xs0 xs1 xs2).2.2.2.1 S512x512.size (by sl_kernel_rfl) y
/-- What case Mid leaves: the output tile's buffer (nothing stored: a placeholder nobody reads), then the running maximum, denominator and
    numerator — each the case's stores read back. -/
def leftMid (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : ¬isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) : Left F :=
  (VO.read (Elt F) (VO.writes (Elt F) VO.junk (runMid c i arg3 harg3 arg4 harg4 arg5 harg5 arg6 harg6 arg7 harg7 arg8 harg8 arg9 harg9 arg10 harg10 hc0 hc1 x0 x1 x2 x3 xs0 xs1 xs2).1),
   VSm.read (Elt F) (VSm.writes (Elt F) VSm.junk (runMid c i arg3 harg3 arg4 harg4 arg5 harg5 arg6 harg6 arg7 harg7 arg8 harg8 arg9 harg9 arg10 harg10 hc0 hc1 x0 x1 x2 x3 xs0 xs1 xs2).2.1),
   VSl.read (Elt F) (VSl.writes (Elt F) VSl.junk (runMid c i arg3 harg3 arg4 harg4 arg5 harg5 arg6 harg6 arg7 harg7 arg8 harg8 arg9 harg9 arg10 harg10 hc0 hc1 x0 x1 x2 x3 xs0 xs1 xs2).2.2.1),
   VSa.read (Elt F) (VSa.writes (Elt F) VSa.junk (runMid c i arg3 harg3 arg4 harg4 arg5 harg5 arg6 harg6 arg7 harg7 arg8 harg8 arg9 harg9 arg10 harg10 hc0 hc1 x0 x1 x2 x3 xs0 xs1 xs2).2.2.2.1))

/-- The stores of case Last into the three statistics buffers each tile their buffer, so they cover it. -/
theorem coverLast_m (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) (y : S512x1.Idx) : ∃ pc ∈ (runLast c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (runLast c i arg3 harg3 arg4 harg4 arg5 harg5 arg6 harg6 arg7 harg7 arg8 harg8 arg9 harg9 arg10 harg10 hc0 hc1 x0 x1 x2 x3 xs0 xs1 xs2).2.1 S512x1.size (by sl_kernel_rfl) y
theorem coverLast_l (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) (y : S512x1.Idx) : ∃ pc ∈ (runLast c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (runLast c i arg3 harg3 arg4 harg4 arg5 harg5 arg6 harg6 arg7 harg7 arg8 harg8 arg9 harg9 arg10 harg10 hc0 hc1 x0 x1 x2 x3 xs0 xs1 xs2).2.2.1 S512x1.size (by sl_kernel_rfl) y
theorem coverLast_a (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) (y : S512x512.Idx) : ∃ pc ∈ (runLast c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (runLast c i arg3 harg3 arg4 harg4 arg5 harg5 arg6 harg6 arg7 harg7 arg8 harg8 arg9 harg9 arg10 harg10 hc0 hc1 x0 x1 x2 x3 xs0 xs1 xs2).2.2.2.1 S512x512.size (by sl_kernel_rfl) y
/-- and its one store into the output tile's buffer covers that. -/
theorem coverLast_o (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) (y : S1x512x256.Idx) : ∃ pc ∈ (runLast c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (runLast c i arg3 harg3 arg4 harg4 arg5 harg5 arg6 harg6 arg7 harg7 arg8 harg8 arg9 harg9 arg10 harg10 hc0 hc1 x0 x1 x2 x3 xs0 xs1 xs2).1 S1x512x256.size (by sl_kernel_rfl) y
/-- What case Last leaves: the output tile's buffer, then the running maximum, denominator and
    numerator — each the case's stores read back. -/
def leftLast (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) : Left F :=
  (VO.read (Elt F) (VO.writes (Elt F) VO.junk (runLast c i arg3 harg3 arg4 harg4 arg5 harg5 arg6 harg6 arg7 harg7 arg8 harg8 arg9 harg9 arg10 harg10 hc0 hc1 x0 x1 x2 x3 xs0 xs1 xs2).1),
   VSm.read (Elt F) (VSm.writes (Elt F) VSm.junk (runLast c i arg3 harg3 arg4 harg4 arg5 harg5 arg6 harg6 arg7 harg7 arg8 harg8 arg9 harg9 arg10 harg10 hc0 hc1 x0 x1 x2 x3 xs0 xs1 xs2).2.1),
   VSl.read (Elt F) (VSl.writes (Elt F) VSl.junk (runLast c i arg3 harg3 arg4 harg4 arg5 harg5 arg6 harg6 arg7 harg7 arg8 harg8 arg9 harg9 arg10 harg10 hc0 hc1 x0 x1 x2 x3 xs0 xs1 xs2).2.2.1),
   VSa.read (Elt F) (VSa.writes (Elt F) VSa.junk (runLast c i arg3 harg3 arg4 harg4 arg5 harg5 arg6 harg6 arg7 harg7 arg8 harg8 arg9 harg9 arg10 harg10 hc0 hc1 x0 x1 x2 x3 xs0 xs1 xs2).2.2.2.1))

-- the buffers' contents when the region is entered
variable (V : (c : Dev nD) → (b : Ref sig .tc) → Buf (Elt F) ((c : Thread nD τ).loc b))

/-- Window `w`'s block of its array at grid point `t`, the array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem holds_block0 {c : Dev nD} (dat : Dat τ (Elt F) Unit ℕ (Pipeline.UD sig nD τ) ℕ cfg1 c)
    (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem holds_block1 {c : Dev nD} (dat : Dat τ (Elt F) Unit ℕ (Pipeline.UD sig nD τ) ℕ cfg1 c)
    (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem holds_block2 {c : Dev nD} (dat : Dat τ (Elt F) Unit ℕ (Pipeline.UD sig nD τ) ℕ cfg1 c)
    (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem holds_block3 {c : Dev nD} (dat : Dat τ (Elt F) Unit ℕ (Pipeline.UD sig nD τ) ℕ cfg1 c)
    (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- THE ACCUMULATION: what the output tile's buffer and the three statistics hold after the body at point `n`. -/
def leftAt (c : Dev nD) : (n : ℕ) → n < cfg1.N → Left F
  | 0, hn => leftFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) scL (Memref.isWhole_whole _) scA (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩) (blk V c 3 ⟨0, hn⟩)
  | n + 1, hn =>
    if h0 : (n + 1) % 4 = 0 then
      if h1 : (n + 1) % 4 = 3 then False.elim (by omega)
      else leftFirst c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) scL (Memref.isWhole_whole _) scA (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩)
    else
      if h1 : (n + 1) % 4 = 3 then
        leftLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) scL (Memref.isWhole_whole _) scA (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (blk V c 3 ⟨n + 1, hn⟩) (leftAt c n (Nat.lt_of_succ_lt hn)).2.1 (leftAt c n (Nat.lt_of_succ_lt hn)).2.2.1 (leftAt c n (Nat.lt_of_succ_lt hn)).2.2.2
      else
        leftMid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) scL (Memref.isWhole_whole _) scA (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (leftAt c n (Nat.lt_of_succ_lt hn)).2.1 (leftAt c n (Nat.lt_of_succ_lt hn)).2.2.1 (leftAt c n (Nat.lt_of_succ_lt hn)).2.2.2

/-- The point before `t` (used only off a run's first point). -/
abbrev prevLt (t : Fin cfg1.N) : t.val - 1 < cfg1.N := Nat.lt_of_le_of_lt (Nat.sub_le _ _) t.isLt

theorem leftAt_first (c : Dev nD) (t : Fin cfg1.N) (h0 : t.val % 4 = 0) (h1 : ¬t.val % 4 = 3) :
    leftAt V c t.val t.isLt = leftFirst c (grid1.coords t) (ms_0 t) (hs_0 t) (ms_1 t) (hs_1 t) (ms_2 t) (hs_2 t) (ms_3 t) (hs_3 t) (ms_4 t) (hs_4 t) scM (Memref.isWhole_whole _) scL (Memref.isWhole_whole _) scA (Memref.isWhole_whole _) ((isFirst_iff t).mpr h0) (fun h => h1 ((isLast_iff t).mp h)) (blk V c 0 t) (blk V c 1 t) (blk V c 2 t) (blk V c 3 t) := by
  obtain ⟨n, hn⟩ := t
  cases n with
  | zero => exact rfl
  | succ n => exact (dif_pos h0).trans ((dif_neg h1).trans rfl)

theorem leftAt_mid (c : Dev nD) (t : Fin cfg1.N) (h0 : ¬t.val % 4 = 0) (h1 : ¬t.val % 4 = 3) :
    leftAt V c t.val t.isLt = leftMid c (grid1.coords t) (ms_0 t) (hs_0 t) (ms_1 t) (hs_1 t) (ms_2 t) (hs_2 t) (ms_3 t) (hs_3 t) (ms_4 t) (hs_4 t) scM (Memref.isWhole_whole _) scL (Memref.isWhole_whole _) scA (Memref.isWhole_whole _) (fun h => h0 ((isFirst_iff t).mp h)) (fun h => h1 ((isLast_iff t).mp h)) (blk V c 0 t) (blk V c 1 t) (blk V c 2 t) (blk V c 3 t) (leftAt V c (t.val - 1) (prevLt t)).2.1 (leftAt V c (t.val - 1) (prevLt t)).2.2.1 (leftAt V c (t.val - 1) (prevLt t)).2.2.2 := by
  obtain ⟨n, hn⟩ := t
  cases n with
  | zero => exact (by exfalso; (try dsimp only at h0); exact absurd (Nat.zero_mod _) h0)
  | succ n => exact (dif_neg h0).trans ((dif_neg h1).trans rfl)

theorem leftAt_last (c : Dev nD) (t : Fin cfg1.N) (h0 : ¬t.val % 4 = 0) (h1 : t.val % 4 = 3) :
    leftAt V c t.val t.isLt = leftLast c (grid1.coords t) (ms_0 t) (hs_0 t) (ms_1 t) (hs_1 t) (ms_2 t) (hs_2 t) (ms_3 t) (hs_3 t) (ms_4 t) (hs_4 t) scM (Memref.isWhole_whole _) scL (Memref.isWhole_whole _) scA (Memref.isWhole_whole _) (fun h => h0 ((isFirst_iff t).mp h)) ((isLast_iff t).mpr h1) (blk V c 0 t) (blk V c 1 t) (blk V c 2 t) (blk V c 3 t) (leftAt V c (t.val - 1) (prevLt t)).2.1 (leftAt V c (t.val - 1) (prevLt t)).2.2.1 (leftAt V c (t.val - 1) (prevLt t)).2.2.2 := by
  obtain ⟨n, hn⟩ := t
  cases n with
  | zero => exact (by exfalso; (try dsimp only at h0); exact absurd (Nat.zero_mod _) h0)
  | succ n => exact (dif_neg h0).trans ((dif_pos h1).trans rfl)

/-- The class invariant with the scratch operands as memrefs owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

/-- The region's invariant before position `n`: before the first point the class's; afterwards the scoped rest with
    the three statistics buffers at what the point before left, and the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM fullShare (leftAt V c n hn).2.1 ∗ owns (c : Thread nD τ) scL fullShare (leftAt V c n hn).2.2.1 ∗ owns (c : Thread nD τ) scA fullShare (leftAt V c n hn).2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM fullShare (leftAt V c n hn).2.1 ∗ owns (c : Thread nD τ) scL fullShare (leftAt V c n hn).2.2.1 ∗ owns (c : Thread nD τ) scA fullShare (leftAt V c n hn).2.2.2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM fullShare (leftAt V c (n - 1) (by omega)).2.1 ∗ owns (c : Thread nD τ) scL fullShare (leftAt V c (n - 1) (by omega)).2.2.1 ∗ owns (c : Thread nD τ) scA fullShare (leftAt V c (n - 1) (by omega)).2.2.2) ∗ (∃ r, prngReg c r)) := by
  cases n with
  | zero => exact absurd rfl hz
  | succ n => rfl

/-- The pipeline's proof data on core `c`. The two windows onto the encoded array each hold half of it. -/
def dat (c : Dev nD) : Dat τ (Elt F) Unit ℕ (Pipeline.UD sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => (leftAt V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem dat_A (c : Dev nD) (w : Fin cfg1.W) : (dat V c).A w = V c (Pipeline.arrRef spec1 w) := by dsimp only [dat]
theorem PhiS_castSucc (c : Dev nD) (t : Fin cfg1.N) : (dat V c).Φ t.castSucc = PhiS V c t.val (Nat.le_of_lt t.isLt) := by
  dsimp only [dat]; simp only [Fin.coe_castSucc]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = (leftAt V c t.val t.isLt).1 := by dsimp only [dat]
theorem before_0 (c : Dev nD) (t : Fin cfg1.N) (d) : (dat V c).before 0 t d = blk V c 0 t :=
  holds_block0 V (dat V c) (dat_A V c 0) (after_0 V c) t d
theorem before_1 (c : Dev nD) (t : Fin cfg1.N) (d) : (dat V c).before 1 t d = blk V c 1 t :=
  holds_block1 V (dat V c) (dat_A V c 1) (after_1 V c) t d
theorem before_2 (c : Dev nD) (t : Fin cfg1.N) (d) : (dat V c).before 2 t d = blk V c 2 t :=
  holds_block2 V (dat V c) (dat_A V c 2) (after_2 V c) t d
theorem before_3 (c : Dev nD) (t : Fin cfg1.N) (d) : (dat V c).before 3 t d = blk V c 3 t :=
  holds_block3 V (dat V c) (dat_A V c 3) (after_3 V c) t d

end Cert.Kernel.Attn

end
-- ==== Proof.AttnBodyBits.lean ====
/-
  The attention stage's body obligation.  At a grid point the pipeline hands the body every window's current staging
  buffer and the invariant; the point's residue mod 4 (its key-tile coordinate) says which control case the body is
  in; that case's symbolic run applies; and what it leaves is, by definition, the accumulation's value at the point.
  At a run's first point the statistics buffers may hold anything (they are reset); at the others they hold what the
  point before left.  The output tile's buffer is stored, and written back, at a run's last point only; elsewhere it
  is handed back untouched.
-/
import proofs.«180303_j2181843387116_2_alg».proof.Proof.AttnDataBits

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem out_idle (t : Fin cfg1.N) (h : ¬t.val % 4 = 3) : cfg1.idle 4 (grid1.coords t) = true := by
  rw [idle_out]; simp only [h, decide_false, Bool.not_false]
theorem out_live (t : Fin cfg1.N) (h : t.val % 4 = 3) : cfg1.idle 4 (grid1.coords t) = false := by
  rw [idle_out]; simp only [h, decide_true, Bool.not_true]
theorem out_kept (t : Fin cfg1.N) (h : ¬t.val % 4 = 3) : (cfg1.win 4).flush t = false := by
  cases hf : (cfg1.win 4).flush t with
  | false => rfl
  | true => exact absurd ((flush1_4 t).mp hf) h

/-- What the body is called with at point `t`, the windows one by one, -/
def pre_at (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

/-- and what it returns. -/
def post_at (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 4800000 in
theorem body_at (c : Dev nD) (t : Fin cfg1.N) :
    pre_at V c t ⊢ wp frame (wpE (defs₀ (F := F)) Variants.none c none) Set.univ (bodyAt1 t) (fun _ => post_at V c t) := by
  unfold pre_at post_at bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg1.N = 128 from N_1)
  by_cases h0 : t.val % 4 = 0
  · by_cases h1 : t.val % 4 = 3
    · exfalso; omega
    · -- a run's first point: the statistics are reset
      rw [show (dat V c).leavesExact 0 t = owns (c : Thread nD τ) (ms_0 t) fullShare ((dat V c).after 0 t) from by
        unfold Dat.leavesExact; rw [live_in0 t], after_0]
      rw [show (dat V c).leavesExact 1 t = owns (c : Thread nD τ) (ms_1 t) fullShare ((dat V c).after 1 t) from by
        unfold Dat.leavesExact; rw [live_in1 t], after_1]
      rw [show (dat V c).leavesExact 2 t = owns (c : Thread nD τ) (ms_2 t) fullShare ((dat V c).after 2 t) from by
        unfold Dat.leavesExact; rw [live_in2 t], after_2]
      rw [show (dat V c).leavesExact 3 t = owns (c : Thread nD τ) (ms_3 t) fullShare ((dat V c).after 3 t) from by
        unfold Dat.leavesExact; rw [live_in3 t], after_3]
      rw [Dat.leavesExact_idle (dat V c) 4 t (out_idle t h1) (out_kept t h1)]
      rw [leftAt_first V c t h0 h1]
      unfold leftFirst; (try dsimp only)
      by_cases hz : t.val = 0
      · rw [PhiS_castSucc V c t, PhiS_zero V c _ _ hz, PhiA_eq]
        iintro ⟨⟨⟨A0, A1, A2, A3, A4, A5, HS0, HS1, HS2⟩, Hg⟩, Ho, ⟨%d0, H0⟩, ⟨%d1, H1⟩, ⟨%d2, H2⟩, ⟨%d3, H3⟩, ⟨%d4, H4⟩⟩
        iapply ((runFirst c (grid1.coords t) (ms_0 t) (hs_0 t) (ms_1 t) (hs_1 t) (ms_2 t) (hs_2 t) (ms_3 t) (hs_3 t) (ms_4 t) (hs_4 t) scM (Memref.isWhole_whole _) scL (Memref.isWhole_whole _) scA (Memref.isWhole_whole _) ((isFirst_iff t).mpr h0) (fun h => h1 ((isLast_iff t).mp h)) (blk V c 0 t) (blk V c 1 t) (blk V c 2 t) (blk V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%e0, HS0⟩, ⟨%e1, HS1⟩, ⟨%e2, HS2⟩⟩
        isplitl [A0 A1 A2 A3 A4 A5 HS0 HS1 HS2 Hg]
        · isplitr [Hg]
          · isplitl [A0]; · iexact A0
            isplitl [A1]; · iexact A1
            isplitl [A2]; · iexact A2
            isplitl [A3]; · iexact A3
            isplitl [A4]; · iexact A4
            isplitl [A5]; · iexact A5
            isplitl [HS0]
            · unfold owns; iexists _; isplitr
              swap; · iexact HS0
              ipureintro; exact View.read_writes_of_cover _ _ _ _ _ (coverFirst_m c _ _ _ _ _ _ _ _ _ _ _ _ _ _ _ _ _ _ _ _ _ _ _)
            isplitl [HS1]
            · unfold owns; iexists _; isplitr
              swap; · iexact HS1
              ipureintro; exact View.read_writes_of_cover _ _ _ _ _ (coverFirst_l c _ _ _ _ _ _ _ _ _ _ _ _ _ _ _ _ _ _ _ _ _ _ _)
            unfold owns; iexists _; isplitr
            swap; · iexact HS2
            ipureintro; exact View.read_writes_of_cover _ _ _ _ _ (coverFirst_a c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨A0, A1, A2, A3, A4, A5, HS0, HS1, HS2⟩, Hg⟩, Ho, ⟨%d0, H0⟩, ⟨%d1, H1⟩, ⟨%d2, H2⟩, ⟨%d3, H3⟩, ⟨%d4, H4⟩⟩
        iapply ((runFirst c (grid1.coords t) (ms_0 t) (hs_0 t) (ms_1 t) (hs_1 t) (ms_2 t) (hs_2 t) (ms_3 t) (hs_3 t) (ms_4 t) (hs_4 t) scM (Memref.isWhole_whole _) scL (Memref.isWhole_whole _) scA (Memref.isWhole_whole _) ((isFirst_iff t).mpr h0) (fun h => h1 ((isLast_iff t).mp h)) (blk V c 0 t) (blk V c 1 t) (blk V c 2 t) (blk V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%e0, HS0⟩, ⟨%e1, HS1⟩, ⟨%e2, HS2⟩⟩
        isplitl [A0 A1 A2 A3 A4 A5 HS0 HS1 HS2 Hg]
        · isplitr [Hg]
          · isplitl [A0]; · iexact A0
            isplitl [A1]; · iexact A1
            isplitl [A2]; · iexact A2
            isplitl [A3]; · iexact A3
            isplitl [A4]; · iexact A4
            isplitl [A5]; · iexact A5
            isplitl [HS0]
            · unfold owns; iexists _; isplitr
              swap; · iexact HS0
              ipureintro; exact View.read_writes_of_cover _ _ _ _ _ (coverFirst_m c _ _ _ _ _ _ _ _ _ _ _ _ _ _ _ _ _ _ _ _ _ _ _)
            isplitl [HS1]
            · unfold owns; iexists _; isplitr
              swap; · iexact HS1
              ipureintro; exact View.read_writes_of_cover _ _ _ _ _ (coverFirst_l c _ _ _ _ _ _ _ _ _ _ _ _ _ _ _ _ _ _ _ _ _ _ _)
            unfold owns; iexists _; isplitr
            swap; · iexact HS2
            ipureintro; exact View.read_writes_of_cover _ _ _ _ _ (coverFirst_a c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 4 = 3
    · -- a run's last point: the output tile is stored
      rw [show (dat V c).leavesExact 0 t = owns (c : Thread nD τ) (ms_0 t) fullShare ((dat V c).after 0 t) from by
        unfold Dat.leavesExact; rw [live_in0 t], after_0]
      rw [show (dat V c).leavesExact 1 t = owns (c : Thread nD τ) (ms_1 t) fullShare ((dat V c).after 1 t) from by
        unfold Dat.leavesExact; rw [live_in1 t], after_1]
      rw [show (dat V c).leavesExact 2 t = owns (c : Thread nD τ) (ms_2 t) fullShare ((dat V c).after 2 t) from by
        unfold Dat.leavesExact; rw [live_in2 t], after_2]
      rw [show (dat V c).leavesExact 3 t = owns (c : Thread nD τ) (ms_3 t) fullShare ((dat V c).after 3 t) from by
        unfold Dat.leavesExact; rw [live_in3 t], after_3]
      rw [show (dat V c).leavesExact 4 t = owns (c : Thread nD τ) (ms_4 t) fullShare ((dat V c).after 4 t) from by
        unfold Dat.leavesExact; rw [out_live t h1], after_4]
      rw [leftAt_last V c t h0 h1]
      unfold leftLast; (try dsimp only)
      rw [PhiS_castSucc V c t, PhiS_pos V c _ _ hz]
      iintro ⟨⟨⟨A0, A1, A2, A3, A4, A5, HS0, HS1, HS2⟩, Hg⟩, Ho, ⟨%d0, H0⟩, ⟨%d1, H1⟩, ⟨%d2, H2⟩, ⟨%d3, H3⟩, ⟨%d4, H4⟩⟩
      iapply ((runLast c (grid1.coords t) (ms_0 t) (hs_0 t) (ms_1 t) (hs_1 t) (ms_2 t) (hs_2 t) (ms_3 t) (hs_3 t) (ms_4 t) (hs_4 t) scM (Memref.isWhole_whole _) scL (Memref.isWhole_whole _) scA (Memref.isWhole_whole _) (fun h => h0 ((isFirst_iff t).mp h)) ((isLast_iff t).mpr h1) (blk V c 0 t) (blk V c 1 t) (blk V c 2 t) (blk V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%e0, HS0⟩, ⟨%e1, HS1⟩, ⟨%e2, HS2⟩⟩
      isplitl [A0 A1 A2 A3 A4 A5 HS0 HS1 HS2 Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [HS0]
          · unfold owns; iexists _; isplitr
            swap; · iexact HS0
            ipureintro; exact View.read_writes_of_cover _ _ _ _ _ (coverLast_m c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverLast_l c _ _ _ _ _ _ _ _ _ _ _ _ _ _ _ _ _ _ _ _ _ _ _ _ _ _)
          unfold owns; iexists _; isplitr
          swap; · iexact HS2
          ipureintro; exact View.read_writes_of_cover _ _ _ _ _ (coverLast_a c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast_o c _ _ _ _ _ _ _ _ _ _ _ _ _ _ _ _ _ _ _ _ _ _ _ _ _ _)
    · -- a middle point
      rw [show (dat V c).leavesExact 0 t = owns (c : Thread nD τ) (ms_0 t) fullShare ((dat V c).after 0 t) from by
        unfold Dat.leavesExact; rw [live_in0 t], after_0]
      rw [show (dat V c).leavesExact 1 t = owns (c : Thread nD τ) (ms_1 t) fullShare ((dat V c).after 1 t) from by
        unfold Dat.leavesExact; rw [live_in1 t], after_1]
      rw [show (dat V c).leavesExact 2 t = owns (c : Thread nD τ) (ms_2 t) fullShare ((dat V c).after 2 t) from by
        unfold Dat.leavesExact; rw [live_in2 t], after_2]
      rw [show (dat V c).leavesExact 3 t = owns (c : Thread nD τ) (ms_3 t) fullShare ((dat V c).after 3 t) from by
        unfold Dat.leavesExact; rw [live_in3 t], after_3]
      rw [Dat.leavesExact_idle (dat V c) 4 t (out_idle t h1) (out_kept t h1)]
      rw [leftAt_mid V c t h0 h1]
      unfold leftMid; (try dsimp only)
      rw [PhiS_castSucc V c t, PhiS_pos V c _ _ hz]
      iintro ⟨⟨⟨A0, A1, A2, A3, A4, A5, HS0, HS1, HS2⟩, Hg⟩, Ho, ⟨%d0, H0⟩, ⟨%d1, H1⟩, ⟨%d2, H2⟩, ⟨%d3, H3⟩, ⟨%d4, H4⟩⟩
      iapply ((runMid c (grid1.coords t) (ms_0 t) (hs_0 t) (ms_1 t) (hs_1 t) (ms_2 t) (hs_2 t) (ms_3 t) (hs_3 t) (ms_4 t) (hs_4 t) scM (Memref.isWhole_whole _) scL (Memref.isWhole_whole _) scA (Memref.isWhole_whole _) (fun h => h0 ((isFirst_iff t).mp h)) (fun h => h1 ((isLast_iff t).mp h)) (blk V c 0 t) (blk V c 1 t) (blk V c 2 t) (blk V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [A0 A1 A2 A3 A4 A5 HS0 HS1 HS2 Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [HS0]
          · unfold owns; iexists _; isplitr
            swap; · iexact HS0
            ipureintro; exact View.read_writes_of_cover _ _ _ _ _ (coverMid_m c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverMid_l c _ _ _ _ _ _ _ _ _ _ _ _ _ _ _ _ _ _ _ _ _ _ _ _ _ _)
          unfold owns; iexists _; isplitr
          swap; · iexact HS2
          ipureintro; exact View.read_writes_of_cover _ _ _ _ _ (coverMid_a c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The body obligation of the pipeline, at every point. -/
theorem obligation (c : Dev nD) : BodyObligation (dat (F := F) V c) (defs₀ (F := F)) Variants.none () Set.univ := fun t => by
  rw [bigSep_W1, bigSep_W1]
  exact body_at V c t

/-- What the launch hands the region is the invariant before the first point. -/
theorem phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the statistics' contents are forgotten. -/
theorem phi_out (c : Dev nD) : (dat V c).Φ (Fin.last cfg1.N) ⊢ Pipeline.ΦA spec1 c := by
  have hne : (Fin.last cfg1.N).val ≠ 0 := by rw [Fin.val_last]; have : cfg1.N = 128 := N_1; omega
  rw [show (dat V c).Φ (Fin.last cfg1.N) = PhiS V c (Fin.last cfg1.N).val (Nat.le_of_lt_succ (Fin.last cfg1.N).isLt) from rfl, PhiS_pos V c _ _ hne, PhiA_eq]
  iintro ⟨⟨A0, A1, A2, A3, A4, A5, HS0, HS1, HS2⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [HS0]; · iexists _; iexact HS0
    isplitl [HS1]; · iexists _; iexact HS1
    iexists _; iexact HS2
  iexact Hg

end Cert.Kernel.Attn

end
-- ==== Proof.AttnArraysBits.lean ====
/-
  The attention region's arrays at its entry and exit.  The region has five windows but four arrays: the query tile
  and the key slab are both windows onto the encoded array.  At entry that array, held whole, is split into two
  half shares, one per window; the decode weights, the decode bias and the result array are held whole.  At exit the
  two halves — both still at the entry contents, since neither window is written back — rejoin, and the result array
  holds what the write-backs left.  Every other unscoped buffer passes by.
-/
import proofs.«180303_j2181843387116_2_alg».proof.Proof.AttnDataBits

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The buffers behind the windows' arrays, listed: the encoded array once. -/
theorem arrBufs_list (c : Dev nD) (X : (b : Ref sig .tc) → Buf (Elt F) ((c : Thread nD τ).loc b)) :
    (Pipeline.arrBufs (Ix := Unit) (Name := ℕ) (U := Pipeline.UD sig nD τ) (Lvl := ℕ) spec1 c X : sProp 𝕄)
      = iprop((((c : Thread nD τ).loc main_v2) ↦{fullShare} X main_v2) ∗ (((c : Thread nD τ).loc main_arg3) ↦{fullShare} X main_arg3)
          ∗ (((c : Thread nD τ).loc main_arg4) ↦{fullShare} X main_arg4) ∗ (((c : Thread nD τ).loc main_v3) ↦{fullShare} X main_v3)) := by
  unfold Pipeline.arrBufs
  exact bigSep_eq_bigSepL_of_eq [main_v2, main_arg3, main_arg4, main_v3] (by decide) (by decide) _

/-- The pipeline's arrays, window by window, each at its share. -/
theorem arrays_list (c : Dev nD) (Fa : (w : Fin cfg1.W) → Buf (Elt F) ((cfg1.win w).arr.view.loc (c : Thread nD τ))) :
    ((dat V c).arrays Fa : sProp 𝕄)
      = iprop((((c : Thread nD τ).loc main_v2) ↦{fullShare.left} Fa 0) ∗ (((c : Thread nD τ).loc main_v2) ↦{fullShare.right} Fa 1)
          ∗ (((c : Thread nD τ).loc main_arg3) ↦{fullShare} Fa 2) ∗ (((c : Thread nD τ).loc main_arg4) ↦{fullShare} Fa 3)
          ∗ (((c : Thread nD τ).loc main_v3) ↦{fullShare} Fa 4)) := by
  unfold Dat.arrays
  rw [bigSep_W1]
  rw [show (cfg1.win 0).arr.view.set = Finset.univ from (arr_whole1 0).set_eq_univ, show (cfg1.win 2).arr.view.set = Finset.univ from (arr_whole1 2).set_eq_univ,
    show (cfg1.win 3).arr.view.set = Finset.univ from (arr_whole1 3).set_eq_univ, show (cfg1.win 4).arr.view.set = Finset.univ from (arr_whole1 4).set_eq_univ]
  rfl

/-- ENTRY: the core's unscoped buffers at the entry contents are the pipeline's arrays at their entry contents, the
    encoded array halved between its two windows, and the unscoped rest. -/
theorem arrays_in (c : Dev nD) :
    (unscopedBufs c (V c) : sProp 𝕄)
      ⊢ iprop((dat V c).arrays ((dat V c).arrAt · 0) ∗ Pipeline.unscopedRest (Ix := Unit) (Name := ℕ) (U := Pipeline.UD sig nD τ) (Lvl := ℕ) spec1 c (V c)) := by
  rw [Pipeline.unscopedBufs_split₀ cfgs 1 winFacts₀1.arr_unscoped c (V c)]
  show iprop(Pipeline.arrBufs spec1 c (V c) ∗ Pipeline.unscopedRest spec1 c (V c)) ⊢ _
  rw [arrBufs_list, arrays_list]
  iintro ⟨⟨Hv2, Ha3, Ha4, Hv3⟩, Hrest⟩
  ihave Hs := (pointsTo_share (PosShare.mem_left_op_right fullShare)).1 $$ Hv2
  icases Hs with ⟨Hl, Hr⟩
  isplitr [Hrest]
  · isplitl [Hl]; · iexact Hl
    isplitl [Hr]; · iexact Hr
    isplitl [Ha3]; · iexact Ha3
    isplitl [Ha4]; · iexact Ha4
    iexact Hv3
  iexact Hrest

/-- EXIT: the arrays at what the pipeline leaves and the unscoped rest are the core's unscoped buffers at any
    contents that have the result array at what the write-backs left and agree with the entry contents elsewhere. -/
theorem arrays_out (c : Dev nD) (X' : (b : Ref sig .tc) → Buf (Elt F) ((c : Thread nD τ).loc b))
    (h3 : X' main_v3 = (dat V c).arrAt 4 cfg1.N) (hrest : ∀ b, b ≠ main_v3 → X' b = V c b) :
    iprop((dat V c).arrays ((dat V c).arrAt · cfg1.N) ∗ Pipeline.unscopedRest (Ix := Unit) (Name := ℕ) (U := Pipeline.UD sig nD τ) (Lvl := ℕ) spec1 c (V c))
      ⊢ (unscopedBufs c X' : sProp 𝕄) := by
  rw [Pipeline.unscopedBufs_split₀ cfgs 1 winFacts₀1.arr_unscoped c X']
  show _ ⊢ iprop(Pipeline.arrBufs spec1 c X' ∗ Pipeline.unscopedRest spec1 c X')
  rw [arrBufs_list, arrays_list]
  rw [(dat V c).arrAt_in 0 rfl _, (dat V c).arrAt_in 1 rfl _, (dat V c).arrAt_in 2 rfl _, (dat V c).arrAt_in 3 rfl _]
  rw [hrest main_v2 (by decide), hrest main_arg3 (by decide), hrest main_arg4 (by decide), h3]
  iintro ⟨⟨Hl, Hr, Ha3, Ha4, Hv3⟩, Hrest⟩
  isplitr [Hrest]
  · isplitl [Hl Hr]
    · iapply (pointsTo_share (PosShare.mem_left_op_right fullShare)).2
      isplitl [Hl]; · iexact Hl
      iexact Hr
    isplitl [Ha3]; · iexact Ha3
    isplitl [Ha4]; · iexact Ha4
    iexact Hv3
  · unfold Pipeline.unscopedRest
    iapply (Entails.of_eq (bigSep_congr fun b hb => by
      rw [hrest b (fun e => (Finset.mem_sdiff.mp hb).2 (e ▸ Finset.mem_image.mpr ⟨4, Finset.mem_univ _, rfl⟩))]))
    iexact Hrest

end Cert.Kernel.Attn

end
-- ==== Proof.MainRunBits.lean ====
/-
  The run of @main.  @main is: flatten the input to 16384 rows (a host reshape); the encode pallas_call; regroup the
  encoded rows by batch (a host reshape); the attention pallas_call.  The buffers' contents are followed through the
  four items: after a host stretch the stretch's operations applied; after the encode region its output array at what
  the write-backs left; after the attention region the result array at what its write-backs left, everything else
  as before.  Each region is a segment with its body obligation; the launch theorem for a list of segments gives the
  run, and the last contents are read against the final state: the result array at the attention region's final
  array, every argument as launched.  Generic in the float instance.
-/
import proofs.«180303_j2181843387116_2_alg».proof.Proof.EncodeStageBits
import proofs.«180303_j2181843387116_2_alg».proof.Proof.AttnBodyBits
import proofs.«180303_j2181843387116_2_alg».proof.Proof.AttnArraysBits
import proofs.«180303_j2181843387116_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first reshape (the encode region's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the encode region: its arrays at what the pipeline leaves, every other buffer as entered. -/
def W2 (c : Dev nD) : Valuation τ sig (Elt F) :=
  Pipeline.withArrays spec0 c (W1 m c) fun w => (Encode.dat (V1 m) c).arrAt w cfg0.N
theorem W2_arr (c : Dev nD) (w : Fin cfg0.W) :
    W2 m c (Proc.devRef .tc (Pipeline.arrRef spec0 w)) = (Encode.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Encode.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second reshape (the attention region's entry). -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
theorem W3_of (c : Dev nD) (r : Ref sig .tc) (h : r ∉ hostOps1_W) : W3 m c r = W2 m c r :=
  StableHlo.after_of_writes_sub hostOps1 _ hostOps1_writes h
/-- After the attention region: the result array at what the write-backs left, every other buffer as entered. -/
def W4 (c : Dev nD) : Valuation τ sig (Elt F) :=
  Function.update (W3 m c) main_v3 ((Attn.dat (V3 m) c).arrAt 4 cfg1.N : Buf (Elt F) ((c : Thread nD τ).loc main_v3))
abbrev V4 : (c : Dev nD) → (b : Ref sig .tc) → Buf (Elt F) ((c : Thread nD τ).loc b) := fun c b => W4 m c b
theorem W4_result (c : Dev nD) : W4 m c (Proc.devRef .tc main_v3) = (Attn.dat (V3 m) c).arrAt 4 cfg1.N := by
  unfold W4; exact Function.update_self ..
theorem W4_of_ne (c : Dev nD) (b : Ref sig .tc) (hb : b ≠ main_v3) : W4 m c (Proc.devRef .tc b) = W3 m c (Proc.devRef .tc b) := by
  unfold W4; exact Function.update_of_ne (StableHlo.devRef_ne_of_ne hb) ..

/-! ## The arguments end as launched -/

theorem W4_main_arg0 (c : Dev nD) : W4 m c (Proc.devRef .tc main_arg0) = m ((c : Thread nD τ).loc main_arg0) :=
  (W4_of_ne m c main_arg0 (by decide)).trans <| (W3_of m c main_arg0 (by decide)).trans <| (W2_of_ne m c main_arg0 (by decide)).trans <| (Gen.V1_of m c main_arg0 (by decide)).trans rfl
theorem W4_main_arg1 (c : Dev nD) : W4 m c (Proc.devRef .tc main_arg1) = m ((c : Thread nD τ).loc main_arg1) :=
  (W4_of_ne m c main_arg1 (by decide)).trans <| (W3_of m c main_arg1 (by decide)).trans <| ((W2_arr m c 1).trans (((Encode.dat (V1 m) c).arrAt_in 1 rfl _).trans (Encode.dat_A (V1 m) c 1))).trans <| (Gen.V1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <| ((W2_arr m c 2).trans (((Encode.dat (V1 m) c).arrAt_in 2 rfl _).trans (Encode.dat_A (V1 m) c 2))).trans <| (Gen.V1_of m c main_arg2 (by decide)).trans rfl
theorem W4_main_arg3 (c : Dev nD) : W4 m c (Proc.devRef .tc main_arg3) = m ((c : Thread nD τ).loc main_arg3) :=
  (W4_of_ne m c main_arg3 (by decide)).trans <| (W3_of m c main_arg3 (by decide)).trans <| (W2_of_ne m c main_arg3 (by decide)).trans <| (Gen.V1_of m c main_arg3 (by decide)).trans rfl
theorem W4_main_arg4 (c : Dev nD) : W4 m c (Proc.devRef .tc main_arg4) = m ((c : Thread nD τ).loc main_arg4) :=
  (W4_of_ne m c main_arg4 (by decide)).trans <| (W3_of m c main_arg4 (by decide)).trans <| (W2_of_ne m c main_arg4 (by decide)).trans <| (Gen.V1_of m c main_arg4 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => Encode.dat (V1 m) c
  | ⟨1, _⟩ => fun c => Attn.dat (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The encode region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Encode.obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`.  Its two windows onto the
    encoded array each take half of it at entry and give it back at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Attn.obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V3 m c)
  hentry c := by
    rw [Pipeline.ownSems0_none]
    have hsplit := Attn.arrays_in (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Attn.phi_out (V3 m) c).trans ?_
    unfold Pipeline.ΦA
    iintro ⟨Hr, Hp⟩
    isplitl [Hp]; · iexact Hp
    isplitr; · iempintro
    iexact Hr
  hexit c := by
    have hjoin := Attn.arrays_out (V3 m) c (V4 m c) (W4_result m c) (fun b hb => W4_of_ne m c b hb)
    rw [Pipeline.unscopedBufs_held] at hjoin
    iintro ⟨Ha, HO, HY, Hrest⟩
    imodintro
    isplitr [HO]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state has the result array at what the attention region's write-backs left and every argument
    array as launched. -/
theorem run : θ_run defs (onTc (τ := τ) (main (F := F))) ⟨m, fun _ => 0, ρ⟩ (fun r => ∀ c : Dev nD,
      r.2.mem ((c.tc : Thread nD τ).loc main_v3) = (Attn.dat (V3 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v3 (by decide))).trans (W4_result m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)

end Cert.Kernel.Run

end
-- ==== Proof.EncodeStageIdeal.lean ====
/-
  The encode stage, one grid point at a time.  The first pallas_call tiles the 16384 rows of the flattened input into
  16 blocks of 1024 rows; at a point it reads the block's rows x (1024 x 256), the whole weight matrix W (256 x 512)
  and the whole bias b (512), and stores x . W + b (1024 x 512) into the output block.  This module states what the
  output block's staging buffer holds after the body (one store covering the whole block, its value the body's
  arithmetic as one pure term of the three loads), proves the body's triple, and packages the proof data of the
  pipeline: every input buffer holds its block of the array as the region finds it, the output buffer holds the
  stored value.  Everything is generic in the float instance.
-/
import proofs.«180303_j2181843387116_2_alg».proof.Proof.Gen.KernelIdeal.Launch
import proofs.«180303_j2181843387116_2_alg».proof.Proof.Gen.KernelIdeal.Skeleton
import proofs.«180303_j2181843387116_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Encode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffers' contents when the region is entered
variable (V : (c : Dev nD) → (b : Ref sig .tc) → Buf (Elt F) ((c : Thread nD τ).loc b))

/-- Window `w`'s block of its array at grid point `t`, the array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block in place holds that block at every point, whether the pipeline
    fetched it there or its block index did not move since the last fetch (one statement per window: the block's
    index type is the window's own). -/
theorem holds_block0 {c : Dev nD} (dat : Dat τ (Elt F) Unit ℕ (Pipeline.UD sig nD τ) ℕ cfg0 c)
    (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem holds_block1 {c : Dev nD} (dat : Dat τ (Elt F) Unit ℕ (Pipeline.UD sig nD τ) ℕ cfg0 c)
    (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem holds_block2 {c : Dev nD} (dat : Dat τ (Elt F) Unit ℕ (Pipeline.UD sig nD τ) ℕ cfg0 c)
    (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The rectangle of the one store: the whole output block. -/
abbrev whole : Rect S1024x512 := Rect.unit (s := S1024x512) ![0, 0] S1024x512.size inb_S1024x512_S1024x512_0_0
abbrev wholeX : Rect S1024x256 := Rect.unit (s := S1024x256) ![0, 0] S1024x256.size inb_S1024x256_S1024x256_0_0
abbrev wholeW : Rect S256x512 := Rect.unit (s := S256x512) ![0, 0] S256x512.size inb_S256x512_S256x512_0_0
abbrev wholeB : Rect S512 := Rect.unit (s := S512) ![0] S512.size inb_S512_S512_0

/-- What the output block's buffer holds after the body: the one store's value over the three loads. -/
def stored (x : Vec F S1024x256 .f32) (w : Vec F S256x512 .f32) (b : Vec F S512 .f32) : Vec F S1024x512 .bf16 :=
  View.canon [⟨whole, k0_pay1 (View.ld x wholeX) (View.ld w wholeW) (View.ld b wholeB)⟩]

/-- The store's rectangle is the whole block, so it covers it. -/
theorem stored_cover (p0 : Vec F S1024x512 .bf16) (y : S1024x512.Idx) :
    ∃ pc ∈ ([⟨whole, p0⟩] : List (View.Piece (Elt F) S1024x512 .bf16)), y ∈ pc.1.set :=
  View.cover_of_tiled [⟨whole, p0⟩] S1024x512.size (by rfl) y

set_option maxHeartbeats 1600000 in
/-- The body on whole staging memrefs: the inputs at read contents, the output at anything, runs to the inputs
    unchanged and the output at `stored`. -/
theorem body_triple (c : Dev nD) (E : Set ℕ) (i : grid0.Coords)
    (arg1 : Memref sig .tc .vmem S1024x256 .f32) (harg1 : arg1.IsWhole) (arg2 : Memref sig .tc .vmem S256x512 .f32) (harg2 : arg2.IsWhole)
    (arg3 : Memref sig .tc .vmem S512 .f32) (harg3 : arg3.IsWhole) (arg4 : Memref sig .tc .vmem S1024x512 .bf16) (harg4 : arg4.IsWhole)
    (x : Vec F S1024x256 .f32) (w : Vec F S256x512 .f32) (b : Vec F S512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (stored x w b)) -∗ K ⟨⟩))
      ⊢ wp frame (wpE (defs₀ (F := F)) Variants.none c none) E (cc0__encode_kernel i arg1 harg1 arg2 harg2 arg3 harg3 arg4 harg4) K := by
  simp only [cc0__encode_kernel_eq_skeleton]; unfold cc0__encode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-- The pipeline's proof data on core `c`: the arrays as the region finds them; after the body each input buffer at
    its block and the output buffer at `stored` of the three input blocks; the invariant is the scoped rest and the
    generator register, untouched; nothing owed; full shares. -/
def dat (c : Dev nD) : Dat τ (Elt F) Unit ℕ (Pipeline.UD sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => stored (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = stored (blk V c 0 t) (blk V c 1 t) (blk V c 2 t) := by dsimp only [dat]

theorem before_0 (c : Dev nD) (t : Fin cfg0.N) (d) : (dat V c).before 0 t d = blk V c 0 t :=
  holds_block0 V (dat V c) (dat_A V c 0) (after_0 V c) t d
theorem before_1 (c : Dev nD) (t : Fin cfg0.N) (d) : (dat V c).before 1 t d = blk V c 1 t :=
  holds_block1 V (dat V c) (dat_A V c 1) (after_1 V c) t d
theorem before_2 (c : Dev nD) (t : Fin cfg0.N) (d) : (dat V c).before 2 t d = blk V c 2 t :=
  holds_block2 V (dat V c) (dat_A V c 2) (after_2 V c) t d

/-- What the body is called with at point `t`, the windows one by one, -/
def pre_at (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def post_at (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the input buffers hold their blocks, so the triple applies; the invariant and the core's
    debts pass through unread. -/
theorem body_at (c : Dev nD) (t : Fin cfg0.N) :
    pre_at V c t ⊢ wp frame (wpE (defs₀ (F := F)) Variants.none c none) Set.univ (bodyAt0 t) (fun _ => post_at V c t) := by
  unfold pre_at post_at bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (body_triple c Set.univ (grid0.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem obligation (c : Dev nD) : BodyObligation (dat (F := F) V c) (defs₀ (F := F)) Variants.none () Set.univ := fun t => by
  rw [bigSep_W0, bigSep_W0]
  exact body_at V c t

end Cert.KernelIdeal.Encode

end
-- ==== Proof.AttnCondsIdeal.lean ====
/-
  The attention kernel's two branches, as conditions on the grid point.  The grid is (batch, query tile, key tile) =
  8 x 4 x 4, the key tile the fastest axis.  The first branch (reset the running maximum, the running denominator and
  the running numerator) is taken exactly when the key-tile coordinate is 0; the second (normalise, decode, store the
  output tile) exactly when it is 3, the last.  Over the 128 linearised points these are the residues 0 and 3 mod 4.
  Also: where the output window is idle, and the key slab's row offset at a point.
-/
import proofs.«180303_j2181843387116_2_alg».proof.Proof.Gen.KernelIdeal.Launch
import proofs.«180303_j2181843387116_2_alg».proof.Proof.Gen.KernelIdeal.Skeleton
import proofs.«180303_j2181843387116_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The first branch's condition: the key-tile coordinate is 0 (the printed comparison chain). -/
abbrev isFirst (i : grid1.Coords) : Prop := (Scalar.cmpi .ne (Scalar.extui (Scalar.cmpi .eq (BitVec.ofNat 32 (i 2).val) 0#32)) 0#32) = 1#1
theorem isFirst_iff : ∀ t : Fin cfg1.N, isFirst (grid1.coords t) ↔ t.val % 4 = 0 :=
  (by decide +kernel : ∀ t : Fin grid1.N, isFirst (grid1.coords t) ↔ t.val % 4 = 0)

/-- The second branch's condition: the key-tile coordinate is 3, the last. -/
abbrev isLast (i : grid1.Coords) : Prop := k1_cond2 i = 1#1
theorem isLast_iff : ∀ t : Fin cfg1.N, isLast (grid1.coords t) ↔ t.val % 4 = 3 :=
  (by decide +kernel : ∀ t : Fin grid1.N, isLast (grid1.coords t) ↔ t.val % 4 = 3)

/-- The output window is idle exactly off the last key tile, and is written back exactly on it. -/
theorem idle_out : ∀ t : Fin cfg1.N, cfg1.idle 4 (grid1.coords t) = !decide (t.val % 4 = 3) := by decide +kernel
theorem live_in0 : ∀ t : Fin cfg1.N, cfg1.idle 0 (grid1.coords t) = false := by decide +kernel
theorem live_in1 : ∀ t : Fin cfg1.N, cfg1.idle 1 (grid1.coords t) = false := by decide +kernel
theorem live_in2 : ∀ t : Fin cfg1.N, cfg1.idle 2 (grid1.coords t) = false := by decide +kernel
theorem live_in3 : ∀ t : Fin cfg1.N, cfg1.idle 3 (grid1.coords t) = false := by decide +kernel

/-- The key block's row offset inside the resident slab: 512 times the key-tile coordinate. -/
theorem key_offset : ∀ t : Fin cfg1.N, k1_off1 (grid1.coords t) = ![0, 512 * (t.val % 4), 0] := by decide +kernel

end Cert.KernelIdeal.Attn

end
-- ==== Proof.AttnRunFirstIdeal.lean ====
/-
  The attention kernel's body run symbolically in one of its three control cases (the first key tile: the running statistics are reset, then updated).
-/
import proofs.«180303_j2181843387116_2_alg».proof.Proof.AttnCondsIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's run First: on whole staging memrefs, the inputs at their contents, it reaches the continuation with
    the inputs as they were and each buffer it stored into holding its stores, as a list of pieces (last store first)
    that the symbolic run finds. -/
noncomputable def runFirst (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : isFirst i) (hc1 : ¬isLast i)
    (x0 : Vec F S1x512x512 .bf16) (x1 : Vec F S1x2048x512 .bf16) (x2 : Vec F S512x256 .f32) (x3 : Vec F S256 .f32) :
    Σ' (L4 : List (View.Piece (Elt F) S1x512x256 .f32)) (LS0 : List (View.Piece (Elt F) S512x1 .f32)) (LS1 : List (View.Piece (Elt F) S512x1 .f32)), { LS2 : List (View.Piece (Elt F) S512x512 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__kernel_eq_skeleton]; unfold cc1__kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    obtain rfl := harg7.eq_unread hf4

    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Attn

end
-- ==== Proof.AttnRunMidIdeal.lean ====
/-
  The attention kernel's body run symbolically in one of its three control cases (a middle key tile: the running statistics are updated).
-/
import proofs.«180303_j2181843387116_2_alg».proof.Proof.AttnCondsIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's run Mid: on whole staging memrefs, the inputs at their contents, it reaches the continuation with
    the inputs as they were and each buffer it stored into holding its stores, as a list of pieces (last store first)
    that the symbolic run finds. -/
noncomputable def runMid (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : ¬isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) :
    Σ' (L4 : List (View.Piece (Elt F) S1x512x256 .f32)) (LS0 : List (View.Piece (Elt F) S512x1 .f32)) (LS1 : List (View.Piece (Elt F) S512x1 .f32)), { LS2 : List (View.Piece (Elt F) S512x512 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__kernel_eq_skeleton]; unfold cc1__kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Attn

end
-- ==== Proof.AttnRunLastIdeal.lean ====
/-
  The attention kernel's body run symbolically in one of its three control cases (the last key tile: the running statistics are updated, then the tile is normalised, decoded and stored).
-/
import proofs.«180303_j2181843387116_2_alg».proof.Proof.AttnCondsIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's run Last: on whole staging memrefs, the inputs at their contents, it reaches the continuation with
    the inputs as they were and each buffer it stored into holding its stores, as a list of pieces (last store first)
    that the symbolic run finds. -/
noncomputable def runLast (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) :
    Σ' (L4 : List (View.Piece (Elt F) S1x512x256 .f32)) (LS0 : List (View.Piece (Elt F) S512x1 .f32)) (LS1 : List (View.Piece (Elt F) S512x1 .f32)), { LS2 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__kernel i arg3 harg3 arg4 harg4 arg5 harg5 arg6 harg6 arg7 harg7 arg8 harg8 arg9 harg9 arg10 harg10) K } := by
  refine ⟨?_, ?_, ?_, ?_, fun E K => ?run⟩
  case run =>
    simp only [cc1__kernel_eq_skeleton]; unfold cc1__kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3

    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.KernelIdeal.Attn

end
-- ==== Proof.AttnDataIdeal.lean ====
/-
  The attention stage as a pipeline: what every buffer holds after every grid point.  The grid's 128 points are
  (batch, query tile, key tile), the key tile fastest.  Within a run of four points the kernel carries three running
  statistics in scratch buffers; at a run's first point it resets them, at its last it also writes the output tile.
  So what the scratch buffers (and, at a last point, the output tile's buffer) hold after point n is defined by
  recursion on n: the point's control case, run at the point's blocks, over what the point before left.  The pipeline's
  invariant between points is the scoped rest with the three scratch buffers at those contents.  The input windows
  (query tile, key slab, decode weights, decode bias) hold their blocks of the arrays as the region finds them; the
  query tile and the key slab are windows onto one array.  Generic in the float instance.
-/
import proofs.«180303_j2181843387116_2_alg».proof.Proof.AttnRunFirstIdeal
import proofs.«180303_j2181843387116_2_alg».proof.Proof.AttnRunMidIdeal
import proofs.«180303_j2181843387116_2_alg».proof.Proof.AttnRunLastIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Output tile, running maximum, running denominator, running numerator. -/
abbrev Left (F : FTy → Type) : Type := Vec F S1x512x256 .f32 × Vec F S512x1 .f32 × Vec F S512x1 .f32 × Vec F S512x512 .f32

/-- Each window's current staging memref at a point, and its wholeness. -/
abbrev ms_0 (t : Fin cfg1.N) : Memref sig .tc .vmem S1x512x512 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x2048x512 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S512x256 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S256 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1x512x256 .f32 := win1_4.stage (cfg1.slots t 4)
abbrev hs_4 (t : Fin cfg1.N) : (ms_4 t).IsWhole := hstage1_4 ((cfg1.slots t 4).cast nbuf1_4)
/-- The three scratch operands. -/
abbrev scM : Memref sig .tc .vmem S512x1 .f32 := Memref.whole cc1_scratch0
abbrev scL : Memref sig .tc .vmem S512x1 .f32 := Memref.whole cc1_scratch1
abbrev scA : Memref sig .tc .vmem S512x512 .f32 := Memref.whole cc1_scratch2
abbrev VSm : View sig .tc .vmem S512x1 .f32 := scM.view
abbrev VSl : View sig .tc .vmem S512x1 .f32 := scL.view
abbrev VSa : View sig .tc .vmem S512x512 .f32 := scA.view
/-- One staging buffer of the output window, through which its contents are stated (the choice does not matter). -/
abbrev VO : View sig .tc .vmem S1x512x256 .f32 := (Memref.whole cc1_stg4_0 : Memref sig .tc .vmem S1x512x256 .f32).view

/-- The stores of case First into the three statistics buffers each tile their buffer, so they cover it. -/
theorem coverFirst_m (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : isFirst i) (hc1 : ¬isLast i)
    (x0 : Vec F S1x512x512 .bf16) (x1 : Vec F S1x2048x512 .bf16) (x2 : Vec F S512x256 .f32) (x3 : Vec F S256 .f32) (y : S512x1.Idx) : ∃ pc ∈ (runFirst c i arg3 harg3 arg4 harg4 arg5 harg5 arg6 harg6 arg7 harg7 arg8 harg8 arg9 harg9 arg10 harg10 hc0 hc1 x0 x1 x2 x3).2.1, y ∈ pc.1.set :=
  View.cover_of_tiledL (runFirst c i arg3 harg3 arg4 harg4 arg5 harg5 arg6 harg6 arg7 harg7 arg8 harg8 arg9 harg9 arg10 harg10 hc0 hc1 x0 x1 x2 x3).2.1 S512x1.size (by sl_kernel_rfl) y
theorem coverFirst_l (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : isFirst i) (hc1 : ¬isLast i)
    (x0 : Vec F S1x512x512 .bf16) (x1 : Vec F S1x2048x512 .bf16) (x2 : Vec F S512x256 .f32) (x3 : Vec F S256 .f32) (y : S512x1.Idx) : ∃ pc ∈ (runFirst c i arg3 harg3 arg4 harg4 arg5 harg5 arg6 harg6 arg7 harg7 arg8 harg8 arg9 harg9 arg10 harg10 hc0 hc1 x0 x1 x2 x3).2.2.1, y ∈ pc.1.set :=
  View.cover_of_tiledL (runFirst c i arg3 harg3 arg4 harg4 arg5 harg5 arg6 harg6 arg7 harg7 arg8 harg8 arg9 harg9 arg10 harg10 hc0 hc1 x0 x1 x2 x3).2.2.1 S512x1.size (by sl_kernel_rfl) y
theorem coverFirst_a (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : isFirst i) (hc1 : ¬isLast i)
    (x0 : Vec F S1x512x512 .bf16) (x1 : Vec F S1x2048x512 .bf16) (x2 : Vec F S512x256 .f32) (x3 : Vec F S256 .f32) (y : S512x512.Idx) : ∃ pc ∈ (runFirst c i arg3 harg3 arg4 harg4 arg5 harg5 arg6 harg6 arg7 harg7 arg8 harg8 arg9 harg9 arg10 harg10 hc0 hc1 x0 x1 x2 x3).2.2.2.1, y ∈ pc.1.set :=
  View.cover_of_tiledL (runFirst c i arg3 harg3 arg4 harg4 arg5 harg5 arg6 harg6 arg7 harg7 arg8 harg8 arg9 harg9 arg10 harg10 hc0 hc1 x0 x1 x2 x3).2.2.2.1 S512x512.size (by sl_kernel_rfl) y
/-- What case First leaves: the output tile's buffer (nothing stored: a placeholder nobody reads), then the running maximum, denominator and
    numerator — each the case's stores read back. -/
def leftFirst (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : isFirst i) (hc1 : ¬isLast i)
    (x0 : Vec F S1x512x512 .bf16) (x1 : Vec F S1x2048x512 .bf16) (x2 : Vec F S512x256 .f32) (x3 : Vec F S256 .f32) : Left F :=
  (VO.read (Elt F) (VO.writes (Elt F) VO.junk (runFirst c i arg3 harg3 arg4 harg4 arg5 harg5 arg6 harg6 arg7 harg7 arg8 harg8 arg9 harg9 arg10 harg10 hc0 hc1 x0 x1 x2 x3).1),
   VSm.read (Elt F) (VSm.writes (Elt F) VSm.junk (runFirst c i arg3 harg3 arg4 harg4 arg5 harg5 arg6 harg6 arg7 harg7 arg8 harg8 arg9 harg9 arg10 harg10 hc0 hc1 x0 x1 x2 x3).2.1),
   VSl.read (Elt F) (VSl.writes (Elt F) VSl.junk (runFirst c i arg3 harg3 arg4 harg4 arg5 harg5 arg6 harg6 arg7 harg7 arg8 harg8 arg9 harg9 arg10 harg10 hc0 hc1 x0 x1 x2 x3).2.2.1),
   VSa.read (Elt F) (VSa.writes (Elt F) VSa.junk (runFirst c i arg3 harg3 arg4 harg4 arg5 harg5 arg6 harg6 arg7 harg7 arg8 harg8 arg9 harg9 arg10 harg10 hc0 hc1 x0 x1 x2 x3).2.2.2.1))

/-- The stores of case Mid into the three statistics buffers each tile their buffer, so they cover it. -/
theorem coverMid_m (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : ¬isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) (y : S512x1.Idx) : ∃ pc ∈ (runMid c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (runMid c i arg3 harg3 arg4 harg4 arg5 harg5 arg6 harg6 arg7 harg7 arg8 harg8 arg9 harg9 arg10 harg10 hc0 hc1 x0 x1 x2 x3 xs0 xs1 xs2).2.1 S512x1.size (by sl_kernel_rfl) y
theorem coverMid_l (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : ¬isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) (y : S512x1.Idx) : ∃ pc ∈ (runMid c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (runMid c i arg3 harg3 arg4 harg4 arg5 harg5 arg6 harg6 arg7 harg7 arg8 harg8 arg9 harg9 arg10 harg10 hc0 hc1 x0 x1 x2 x3 xs0 xs1 xs2).2.2.1 S512x1.size (by sl_kernel_rfl) y
theorem coverMid_a (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : ¬isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) (y : S512x512.Idx) : ∃ pc ∈ (runMid c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (runMid c i arg3 harg3 arg4 harg4 arg5 harg5 arg6 harg6 arg7 harg7 arg8 harg8 arg9 harg9 arg10 harg10 hc0 hc1 x0 x1 x2 x3 xs0 xs1 xs2).2.2.2.1 S512x512.size (by sl_kernel_rfl) y
/-- What case Mid leaves: the output tile's buffer (nothing stored: a placeholder nobody reads), then the running maximum, denominator and
    numerator — each the case's stores read back. -/
def leftMid (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : ¬isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) : Left F :=
  (VO.read (Elt F) (VO.writes (Elt F) VO.junk (runMid c i arg3 harg3 arg4 harg4 arg5 harg5 arg6 harg6 arg7 harg7 arg8 harg8 arg9 harg9 arg10 harg10 hc0 hc1 x0 x1 x2 x3 xs0 xs1 xs2).1),
   VSm.read (Elt F) (VSm.writes (Elt F) VSm.junk (runMid c i arg3 harg3 arg4 harg4 arg5 harg5 arg6 harg6 arg7 harg7 arg8 harg8 arg9 harg9 arg10 harg10 hc0 hc1 x0 x1 x2 x3 xs0 xs1 xs2).2.1),
   VSl.read (Elt F) (VSl.writes (Elt F) VSl.junk (runMid c i arg3 harg3 arg4 harg4 arg5 harg5 arg6 harg6 arg7 harg7 arg8 harg8 arg9 harg9 arg10 harg10 hc0 hc1 x0 x1 x2 x3 xs0 xs1 xs2).2.2.1),
   VSa.read (Elt F) (VSa.writes (Elt F) VSa.junk (runMid c i arg3 harg3 arg4 harg4 arg5 harg5 arg6 harg6 arg7 harg7 arg8 harg8 arg9 harg9 arg10 harg10 hc0 hc1 x0 x1 x2 x3 xs0 xs1 xs2).2.2.2.1))

/-- The stores of case Last into the three statistics buffers each tile their buffer, so they cover it. -/
theorem coverLast_m (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) (y : S512x1.Idx) : ∃ pc ∈ (runLast c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (runLast c i arg3 harg3 arg4 harg4 arg5 harg5 arg6 harg6 arg7 harg7 arg8 harg8 arg9 harg9 arg10 harg10 hc0 hc1 x0 x1 x2 x3 xs0 xs1 xs2).2.1 S512x1.size (by sl_kernel_rfl) y
theorem coverLast_l (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) (y : S512x1.Idx) : ∃ pc ∈ (runLast c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (runLast c i arg3 harg3 arg4 harg4 arg5 harg5 arg6 harg6 arg7 harg7 arg8 harg8 arg9 harg9 arg10 harg10 hc0 hc1 x0 x1 x2 x3 xs0 xs1 xs2).2.2.1 S512x1.size (by sl_kernel_rfl) y
theorem coverLast_a (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) (y : S512x512.Idx) : ∃ pc ∈ (runLast c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (runLast c i arg3 harg3 arg4 harg4 arg5 harg5 arg6 harg6 arg7 harg7 arg8 harg8 arg9 harg9 arg10 harg10 hc0 hc1 x0 x1 x2 x3 xs0 xs1 xs2).2.2.2.1 S512x512.size (by sl_kernel_rfl) y
/-- and its one store into the output tile's buffer covers that. -/
theorem coverLast_o (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) (y : S1x512x256.Idx) : ∃ pc ∈ (runLast c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (runLast c i arg3 harg3 arg4 harg4 arg5 harg5 arg6 harg6 arg7 harg7 arg8 harg8 arg9 harg9 arg10 harg10 hc0 hc1 x0 x1 x2 x3 xs0 xs1 xs2).1 S1x512x256.size (by sl_kernel_rfl) y
/-- What case Last leaves: the output tile's buffer, then the running maximum, denominator and
    numerator — each the case's stores read back. -/
def leftLast (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) : Left F :=
  (VO.read (Elt F) (VO.writes (Elt F) VO.junk (runLast c i arg3 harg3 arg4 harg4 arg5 harg5 arg6 harg6 arg7 harg7 arg8 harg8 arg9 harg9 arg10 harg10 hc0 hc1 x0 x1 x2 x3 xs0 xs1 xs2).1),
   VSm.read (Elt F) (VSm.writes (Elt F) VSm.junk (runLast c i arg3 harg3 arg4 harg4 arg5 harg5 arg6 harg6 arg7 harg7 arg8 harg8 arg9 harg9 arg10 harg10 hc0 hc1 x0 x1 x2 x3 xs0 xs1 xs2).2.1),
   VSl.read (Elt F) (VSl.writes (Elt F) VSl.junk (runLast c i arg3 harg3 arg4 harg4 arg5 harg5 arg6 harg6 arg7 harg7 arg8 harg8 arg9 harg9 arg10 harg10 hc0 hc1 x0 x1 x2 x3 xs0 xs1 xs2).2.2.1),
   VSa.read (Elt F) (VSa.writes (Elt F) VSa.junk (runLast c i arg3 harg3 arg4 harg4 arg5 harg5 arg6 harg6 arg7 harg7 arg8 harg8 arg9 harg9 arg10 harg10 hc0 hc1 x0 x1 x2 x3 xs0 xs1 xs2).2.2.2.1))

-- the buffers' contents when the region is entered
variable (V : (c : Dev nD) → (b : Ref sig .tc) → Buf (Elt F) ((c : Thread nD τ).loc b))

/-- Window `w`'s block of its array at grid point `t`, the array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem holds_block0 {c : Dev nD} (dat : Dat τ (Elt F) Unit ℕ (Pipeline.UD sig nD τ) ℕ cfg1 c)
    (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem holds_block1 {c : Dev nD} (dat : Dat τ (Elt F) Unit ℕ (Pipeline.UD sig nD τ) ℕ cfg1 c)
    (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem holds_block2 {c : Dev nD} (dat : Dat τ (Elt F) Unit ℕ (Pipeline.UD sig nD τ) ℕ cfg1 c)
    (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem holds_block3 {c : Dev nD} (dat : Dat τ (Elt F) Unit ℕ (Pipeline.UD sig nD τ) ℕ cfg1 c)
    (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- THE ACCUMULATION: what the output tile's buffer and the three statistics hold after the body at point `n`. -/
def leftAt (c : Dev nD) : (n : ℕ) → n < cfg1.N → Left F
  | 0, hn => leftFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) scL (Memref.isWhole_whole _) scA (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩) (blk V c 3 ⟨0, hn⟩)
  | n + 1, hn =>
    if h0 : (n + 1) % 4 = 0 then
      if h1 : (n + 1) % 4 = 3 then False.elim (by omega)
      else leftFirst c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) scL (Memref.isWhole_whole _) scA (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩)
    else
      if h1 : (n + 1) % 4 = 3 then
        leftLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) scL (Memref.isWhole_whole _) scA (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (blk V c 3 ⟨n + 1, hn⟩) (leftAt c n (Nat.lt_of_succ_lt hn)).2.1 (leftAt c n (Nat.lt_of_succ_lt hn)).2.2.1 (leftAt c n (Nat.lt_of_succ_lt hn)).2.2.2
      else
        leftMid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) scL (Memref.isWhole_whole _) scA (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (leftAt c n (Nat.lt_of_succ_lt hn)).2.1 (leftAt c n (Nat.lt_of_succ_lt hn)).2.2.1 (leftAt c n (Nat.lt_of_succ_lt hn)).2.2.2

/-- The point before `t` (used only off a run's first point). -/
abbrev prevLt (t : Fin cfg1.N) : t.val - 1 < cfg1.N := Nat.lt_of_le_of_lt (Nat.sub_le _ _) t.isLt

theorem leftAt_first (c : Dev nD) (t : Fin cfg1.N) (h0 : t.val % 4 = 0) (h1 : ¬t.val % 4 = 3) :
    leftAt V c t.val t.isLt = leftFirst c (grid1.coords t) (ms_0 t) (hs_0 t) (ms_1 t) (hs_1 t) (ms_2 t) (hs_2 t) (ms_3 t) (hs_3 t) (ms_4 t) (hs_4 t) scM (Memref.isWhole_whole _) scL (Memref.isWhole_whole _) scA (Memref.isWhole_whole _) ((isFirst_iff t).mpr h0) (fun h => h1 ((isLast_iff t).mp h)) (blk V c 0 t) (blk V c 1 t) (blk V c 2 t) (blk V c 3 t) := by
  obtain ⟨n, hn⟩ := t
  cases n with
  | zero => exact rfl
  | succ n => exact (dif_pos h0).trans ((dif_neg h1).trans rfl)

theorem leftAt_mid (c : Dev nD) (t : Fin cfg1.N) (h0 : ¬t.val % 4 = 0) (h1 : ¬t.val % 4 = 3) :
    leftAt V c t.val t.isLt = leftMid c (grid1.coords t) (ms_0 t) (hs_0 t) (ms_1 t) (hs_1 t) (ms_2 t) (hs_2 t) (ms_3 t) (hs_3 t) (ms_4 t) (hs_4 t) scM (Memref.isWhole_whole _) scL (Memref.isWhole_whole _) scA (Memref.isWhole_whole _) (fun h => h0 ((isFirst_iff t).mp h)) (fun h => h1 ((isLast_iff t).mp h)) (blk V c 0 t) (blk V c 1 t) (blk V c 2 t) (blk V c 3 t) (leftAt V c (t.val - 1) (prevLt t)).2.1 (leftAt V c (t.val - 1) (prevLt t)).2.2.1 (leftAt V c (t.val - 1) (prevLt t)).2.2.2 := by
  obtain ⟨n, hn⟩ := t
  cases n with
  | zero => exact (by exfalso; (try dsimp only at h0); exact absurd (Nat.zero_mod _) h0)
  | succ n => exact (dif_neg h0).trans ((dif_neg h1).trans rfl)

theorem leftAt_last (c : Dev nD) (t : Fin cfg1.N) (h0 : ¬t.val % 4 = 0) (h1 : t.val % 4 = 3) :
    leftAt V c t.val t.isLt = leftLast c (grid1.coords t) (ms_0 t) (hs_0 t) (ms_1 t) (hs_1 t) (ms_2 t) (hs_2 t) (ms_3 t) (hs_3 t) (ms_4 t) (hs_4 t) scM (Memref.isWhole_whole _) scL (Memref.isWhole_whole _) scA (Memref.isWhole_whole _) (fun h => h0 ((isFirst_iff t).mp h)) ((isLast_iff t).mpr h1) (blk V c 0 t) (blk V c 1 t) (blk V c 2 t) (blk V c 3 t) (leftAt V c (t.val - 1) (prevLt t)).2.1 (leftAt V c (t.val - 1) (prevLt t)).2.2.1 (leftAt V c (t.val - 1) (prevLt t)).2.2.2 := by
  obtain ⟨n, hn⟩ := t
  cases n with
  | zero => exact (by exfalso; (try dsimp only at h0); exact absurd (Nat.zero_mod _) h0)
  | succ n => exact (dif_neg h0).trans ((dif_pos h1).trans rfl)

/-- The class invariant with the scratch operands as memrefs owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

/-- The region's invariant before position `n`: before the first point the class's; afterwards the scoped rest with
    the three statistics buffers at what the point before left, and the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM fullShare (leftAt V c n hn).2.1 ∗ owns (c : Thread nD τ) scL fullShare (leftAt V c n hn).2.2.1 ∗ owns (c : Thread nD τ) scA fullShare (leftAt V c n hn).2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM fullShare (leftAt V c n hn).2.1 ∗ owns (c : Thread nD τ) scL fullShare (leftAt V c n hn).2.2.1 ∗ owns (c : Thread nD τ) scA fullShare (leftAt V c n hn).2.2.2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM fullShare (leftAt V c (n - 1) (by omega)).2.1 ∗ owns (c : Thread nD τ) scL fullShare (leftAt V c (n - 1) (by omega)).2.2.1 ∗ owns (c : Thread nD τ) scA fullShare (leftAt V c (n - 1) (by omega)).2.2.2) ∗ (∃ r, prngReg c r)) := by
  cases n with
  | zero => exact absurd rfl hz
  | succ n => rfl

/-- The pipeline's proof data on core `c`. The two windows onto the encoded array each hold half of it. -/
def dat (c : Dev nD) : Dat τ (Elt F) Unit ℕ (Pipeline.UD sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => (leftAt V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem dat_A (c : Dev nD) (w : Fin cfg1.W) : (dat V c).A w = V c (Pipeline.arrRef spec1 w) := by dsimp only [dat]
theorem PhiS_castSucc (c : Dev nD) (t : Fin cfg1.N) : (dat V c).Φ t.castSucc = PhiS V c t.val (Nat.le_of_lt t.isLt) := by
  dsimp only [dat]; simp only [Fin.coe_castSucc]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = (leftAt V c t.val t.isLt).1 := by dsimp only [dat]
theorem before_0 (c : Dev nD) (t : Fin cfg1.N) (d) : (dat V c).before 0 t d = blk V c 0 t :=
  holds_block0 V (dat V c) (dat_A V c 0) (after_0 V c) t d
theorem before_1 (c : Dev nD) (t : Fin cfg1.N) (d) : (dat V c).before 1 t d = blk V c 1 t :=
  holds_block1 V (dat V c) (dat_A V c 1) (after_1 V c) t d
theorem before_2 (c : Dev nD) (t : Fin cfg1.N) (d) : (dat V c).before 2 t d = blk V c 2 t :=
  holds_block2 V (dat V c) (dat_A V c 2) (after_2 V c) t d
theorem before_3 (c : Dev nD) (t : Fin cfg1.N) (d) : (dat V c).before 3 t d = blk V c 3 t :=
  holds_block3 V (dat V c) (dat_A V c 3) (after_3 V c) t d

end Cert.KernelIdeal.Attn

end
-- ==== Proof.AttnBodyIdeal.lean ====
/-
  The attention stage's body obligation.  At a grid point the pipeline hands the body every window's current staging
  buffer and the invariant; the point's residue mod 4 (its key-tile coordinate) says which control case the body is
  in; that case's symbolic run applies; and what it leaves is, by definition, the accumulation's value at the point.
  At a run's first point the statistics buffers may hold anything (they are reset); at the others they hold what the
  point before left.  The output tile's buffer is stored, and written back, at a run's last point only; elsewhere it
  is handed back untouched.
-/
import proofs.«180303_j2181843387116_2_alg».proof.Proof.AttnDataIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem out_idle (t : Fin cfg1.N) (h : ¬t.val % 4 = 3) : cfg1.idle 4 (grid1.coords t) = true := by
  rw [idle_out]; simp only [h, decide_false, Bool.not_false]
theorem out_live (t : Fin cfg1.N) (h : t.val % 4 = 3) : cfg1.idle 4 (grid1.coords t) = false := by
  rw [idle_out]; simp only [h, decide_true, Bool.not_true]
theorem out_kept (t : Fin cfg1.N) (h : ¬t.val % 4 = 3) : (cfg1.win 4).flush t = false := by
  cases hf : (cfg1.win 4).flush t with
  | false => rfl
  | true => exact absurd ((flush1_4 t).mp hf) h

/-- What the body is called with at point `t`, the windows one by one, -/
def pre_at (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

/-- and what it returns. -/
def post_at (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 4800000 in
theorem body_at (c : Dev nD) (t : Fin cfg1.N) :
    pre_at V c t ⊢ wp frame (wpE (defs₀ (F := F)) Variants.none c none) Set.univ (bodyAt1 t) (fun _ => post_at V c t) := by
  unfold pre_at post_at bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg1.N = 128 from N_1)
  by_cases h0 : t.val % 4 = 0
  · by_cases h1 : t.val % 4 = 3
    · exfalso; omega
    · -- a run's first point: the statistics are reset
      rw [show (dat V c).leavesExact 0 t = owns (c : Thread nD τ) (ms_0 t) fullShare ((dat V c).after 0 t) from by
        unfold Dat.leavesExact; rw [live_in0 t], after_0]
      rw [show (dat V c).leavesExact 1 t = owns (c : Thread nD τ) (ms_1 t) fullShare ((dat V c).after 1 t) from by
        unfold Dat.leavesExact; rw [live_in1 t], after_1]
      rw [show (dat V c).leavesExact 2 t = owns (c : Thread nD τ) (ms_2 t) fullShare ((dat V c).after 2 t) from by
        unfold Dat.leavesExact; rw [live_in2 t], after_2]
      rw [show (dat V c).leavesExact 3 t = owns (c : Thread nD τ) (ms_3 t) fullShare ((dat V c).after 3 t) from by
        unfold Dat.leavesExact; rw [live_in3 t], after_3]
      rw [Dat.leavesExact_idle (dat V c) 4 t (out_idle t h1) (out_kept t h1)]
      rw [leftAt_first V c t h0 h1]
      unfold leftFirst; (try dsimp only)
      by_cases hz : t.val = 0
      · rw [PhiS_castSucc V c t, PhiS_zero V c _ _ hz, PhiA_eq]
        iintro ⟨⟨⟨A0, A1, A2, A3, A4, A5, HS0, HS1, HS2⟩, Hg⟩, Ho, ⟨%d0, H0⟩, ⟨%d1, H1⟩, ⟨%d2, H2⟩, ⟨%d3, H3⟩, ⟨%d4, H4⟩⟩
        iapply ((runFirst c (grid1.coords t) (ms_0 t) (hs_0 t) (ms_1 t) (hs_1 t) (ms_2 t) (hs_2 t) (ms_3 t) (hs_3 t) (ms_4 t) (hs_4 t) scM (Memref.isWhole_whole _) scL (Memref.isWhole_whole _) scA (Memref.isWhole_whole _) ((isFirst_iff t).mpr h0) (fun h => h1 ((isLast_iff t).mp h)) (blk V c 0 t) (blk V c 1 t) (blk V c 2 t) (blk V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%e0, HS0⟩, ⟨%e1, HS1⟩, ⟨%e2, HS2⟩⟩
        isplitl [A0 A1 A2 A3 A4 A5 HS0 HS1 HS2 Hg]
        · isplitr [Hg]
          · isplitl [A0]; · iexact A0
            isplitl [A1]; · iexact A1
            isplitl [A2]; · iexact A2
            isplitl [A3]; · iexact A3
            isplitl [A4]; · iexact A4
            isplitl [A5]; · iexact A5
            isplitl [HS0]
            · unfold owns; iexists _; isplitr
              swap; · iexact HS0
              ipureintro; exact View.read_writes_of_cover _ _ _ _ _ (coverFirst_m c _ _ _ _ _ _ _ _ _ _ _ _ _ _ _ _ _ _ _ _ _ _ _)
            isplitl [HS1]
            · unfold owns; iexists _; isplitr
              swap; · iexact HS1
              ipureintro; exact View.read_writes_of_cover _ _ _ _ _ (coverFirst_l c _ _ _ _ _ _ _ _ _ _ _ _ _ _ _ _ _ _ _ _ _ _ _)
            unfold owns; iexists _; isplitr
            swap; · iexact HS2
            ipureintro; exact View.read_writes_of_cover _ _ _ _ _ (coverFirst_a c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨A0, A1, A2, A3, A4, A5, HS0, HS1, HS2⟩, Hg⟩, Ho, ⟨%d0, H0⟩, ⟨%d1, H1⟩, ⟨%d2, H2⟩, ⟨%d3, H3⟩, ⟨%d4, H4⟩⟩
        iapply ((runFirst c (grid1.coords t) (ms_0 t) (hs_0 t) (ms_1 t) (hs_1 t) (ms_2 t) (hs_2 t) (ms_3 t) (hs_3 t) (ms_4 t) (hs_4 t) scM (Memref.isWhole_whole _) scL (Memref.isWhole_whole _) scA (Memref.isWhole_whole _) ((isFirst_iff t).mpr h0) (fun h => h1 ((isLast_iff t).mp h)) (blk V c 0 t) (blk V c 1 t) (blk V c 2 t) (blk V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%e0, HS0⟩, ⟨%e1, HS1⟩, ⟨%e2, HS2⟩⟩
        isplitl [A0 A1 A2 A3 A4 A5 HS0 HS1 HS2 Hg]
        · isplitr [Hg]
          · isplitl [A0]; · iexact A0
            isplitl [A1]; · iexact A1
            isplitl [A2]; · iexact A2
            isplitl [A3]; · iexact A3
            isplitl [A4]; · iexact A4
            isplitl [A5]; · iexact A5
            isplitl [HS0]
            · unfold owns; iexists _; isplitr
              swap; · iexact HS0
              ipureintro; exact View.read_writes_of_cover _ _ _ _ _ (coverFirst_m c _ _ _ _ _ _ _ _ _ _ _ _ _ _ _ _ _ _ _ _ _ _ _)
            isplitl [HS1]
            · unfold owns; iexists _; isplitr
              swap; · iexact HS1
              ipureintro; exact View.read_writes_of_cover _ _ _ _ _ (coverFirst_l c _ _ _ _ _ _ _ _ _ _ _ _ _ _ _ _ _ _ _ _ _ _ _)
            unfold owns; iexists _; isplitr
            swap; · iexact HS2
            ipureintro; exact View.read_writes_of_cover _ _ _ _ _ (coverFirst_a c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 4 = 3
    · -- a run's last point: the output tile is stored
      rw [show (dat V c).leavesExact 0 t = owns (c : Thread nD τ) (ms_0 t) fullShare ((dat V c).after 0 t) from by
        unfold Dat.leavesExact; rw [live_in0 t], after_0]
      rw [show (dat V c).leavesExact 1 t = owns (c : Thread nD τ) (ms_1 t) fullShare ((dat V c).after 1 t) from by
        unfold Dat.leavesExact; rw [live_in1 t], after_1]
      rw [show (dat V c).leavesExact 2 t = owns (c : Thread nD τ) (ms_2 t) fullShare ((dat V c).after 2 t) from by
        unfold Dat.leavesExact; rw [live_in2 t], after_2]
      rw [show (dat V c).leavesExact 3 t = owns (c : Thread nD τ) (ms_3 t) fullShare ((dat V c).after 3 t) from by
        unfold Dat.leavesExact; rw [live_in3 t], after_3]
      rw [show (dat V c).leavesExact 4 t = owns (c : Thread nD τ) (ms_4 t) fullShare ((dat V c).after 4 t) from by
        unfold Dat.leavesExact; rw [out_live t h1], after_4]
      rw [leftAt_last V c t h0 h1]
      unfold leftLast; (try dsimp only)
      rw [PhiS_castSucc V c t, PhiS_pos V c _ _ hz]
      iintro ⟨⟨⟨A0, A1, A2, A3, A4, A5, HS0, HS1, HS2⟩, Hg⟩, Ho, ⟨%d0, H0⟩, ⟨%d1, H1⟩, ⟨%d2, H2⟩, ⟨%d3, H3⟩, ⟨%d4, H4⟩⟩
      iapply ((runLast c (grid1.coords t) (ms_0 t) (hs_0 t) (ms_1 t) (hs_1 t) (ms_2 t) (hs_2 t) (ms_3 t) (hs_3 t) (ms_4 t) (hs_4 t) scM (Memref.isWhole_whole _) scL (Memref.isWhole_whole _) scA (Memref.isWhole_whole _) (fun h => h0 ((isFirst_iff t).mp h)) ((isLast_iff t).mpr h1) (blk V c 0 t) (blk V c 1 t) (blk V c 2 t) (blk V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%e0, HS0⟩, ⟨%e1, HS1⟩, ⟨%e2, HS2⟩⟩
      isplitl [A0 A1 A2 A3 A4 A5 HS0 HS1 HS2 Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [HS0]
          · unfold owns; iexists _; isplitr
            swap; · iexact HS0
            ipureintro; exact View.read_writes_of_cover _ _ _ _ _ (coverLast_m c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverLast_l c _ _ _ _ _ _ _ _ _ _ _ _ _ _ _ _ _ _ _ _ _ _ _ _ _ _)
          unfold owns; iexists _; isplitr
          swap; · iexact HS2
          ipureintro; exact View.read_writes_of_cover _ _ _ _ _ (coverLast_a c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast_o c _ _ _ _ _ _ _ _ _ _ _ _ _ _ _ _ _ _ _ _ _ _ _ _ _ _)
    · -- a middle point
      rw [show (dat V c).leavesExact 0 t = owns (c : Thread nD τ) (ms_0 t) fullShare ((dat V c).after 0 t) from by
        unfold Dat.leavesExact; rw [live_in0 t], after_0]
      rw [show (dat V c).leavesExact 1 t = owns (c : Thread nD τ) (ms_1 t) fullShare ((dat V c).after 1 t) from by
        unfold Dat.leavesExact; rw [live_in1 t], after_1]
      rw [show (dat V c).leavesExact 2 t = owns (c : Thread nD τ) (ms_2 t) fullShare ((dat V c).after 2 t) from by
        unfold Dat.leavesExact; rw [live_in2 t], after_2]
      rw [show (dat V c).leavesExact 3 t = owns (c : Thread nD τ) (ms_3 t) fullShare ((dat V c).after 3 t) from by
        unfold Dat.leavesExact; rw [live_in3 t], after_3]
      rw [Dat.leavesExact_idle (dat V c) 4 t (out_idle t h1) (out_kept t h1)]
      rw [leftAt_mid V c t h0 h1]
      unfold leftMid; (try dsimp only)
      rw [PhiS_castSucc V c t, PhiS_pos V c _ _ hz]
      iintro ⟨⟨⟨A0, A1, A2, A3, A4, A5, HS0, HS1, HS2⟩, Hg⟩, Ho, ⟨%d0, H0⟩, ⟨%d1, H1⟩, ⟨%d2, H2⟩, ⟨%d3, H3⟩, ⟨%d4, H4⟩⟩
      iapply ((runMid c (grid1.coords t) (ms_0 t) (hs_0 t) (ms_1 t) (hs_1 t) (ms_2 t) (hs_2 t) (ms_3 t) (hs_3 t) (ms_4 t) (hs_4 t) scM (Memref.isWhole_whole _) scL (Memref.isWhole_whole _) scA (Memref.isWhole_whole _) (fun h => h0 ((isFirst_iff t).mp h)) (fun h => h1 ((isLast_iff t).mp h)) (blk V c 0 t) (blk V c 1 t) (blk V c 2 t) (blk V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [A0 A1 A2 A3 A4 A5 HS0 HS1 HS2 Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [HS0]
          · unfold owns; iexists _; isplitr
            swap; · iexact HS0
            ipureintro; exact View.read_writes_of_cover _ _ _ _ _ (coverMid_m c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverMid_l c _ _ _ _ _ _ _ _ _ _ _ _ _ _ _ _ _ _ _ _ _ _ _ _ _ _)
          unfold owns; iexists _; isplitr
          swap; · iexact HS2
          ipureintro; exact View.read_writes_of_cover _ _ _ _ _ (coverMid_a c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The body obligation of the pipeline, at every point. -/
theorem obligation (c : Dev nD) : BodyObligation (dat (F := F) V c) (defs₀ (F := F)) Variants.none () Set.univ := fun t => by
  rw [bigSep_W1, bigSep_W1]
  exact body_at V c t

/-- What the launch hands the region is the invariant before the first point. -/
theorem phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the statistics' contents are forgotten. -/
theorem phi_out (c : Dev nD) : (dat V c).Φ (Fin.last cfg1.N) ⊢ Pipeline.ΦA spec1 c := by
  have hne : (Fin.last cfg1.N).val ≠ 0 := by rw [Fin.val_last]; have : cfg1.N = 128 := N_1; omega
  rw [show (dat V c).Φ (Fin.last cfg1.N) = PhiS V c (Fin.last cfg1.N).val (Nat.le_of_lt_succ (Fin.last cfg1.N).isLt) from rfl, PhiS_pos V c _ _ hne, PhiA_eq]
  iintro ⟨⟨A0, A1, A2, A3, A4, A5, HS0, HS1, HS2⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [HS0]; · iexists _; iexact HS0
    isplitl [HS1]; · iexists _; iexact HS1
    iexists _; iexact HS2
  iexact Hg

end Cert.KernelIdeal.Attn

end
-- ==== Proof.AttnArraysIdeal.lean ====
/-
  The attention region's arrays at its entry and exit.  The region has five windows but four arrays: the query tile
  and the key slab are both windows onto the encoded array.  At entry that array, held whole, is split into two
  half shares, one per window; the decode weights, the decode bias and the result array are held whole.  At exit the
  two halves — both still at the entry contents, since neither window is written back — rejoin, and the result array
  holds what the write-backs left.  Every other unscoped buffer passes by.
-/
import proofs.«180303_j2181843387116_2_alg».proof.Proof.AttnDataIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The buffers behind the windows' arrays, listed: the encoded array once. -/
theorem arrBufs_list (c : Dev nD) (X : (b : Ref sig .tc) → Buf (Elt F) ((c : Thread nD τ).loc b)) :
    (Pipeline.arrBufs (Ix := Unit) (Name := ℕ) (U := Pipeline.UD sig nD τ) (Lvl := ℕ) spec1 c X : sProp 𝕄)
      = iprop((((c : Thread nD τ).loc main_v2) ↦{fullShare} X main_v2) ∗ (((c : Thread nD τ).loc main_arg3) ↦{fullShare} X main_arg3)
          ∗ (((c : Thread nD τ).loc main_arg4) ↦{fullShare} X main_arg4) ∗ (((c : Thread nD τ).loc main_v3) ↦{fullShare} X main_v3)) := by
  unfold Pipeline.arrBufs
  exact bigSep_eq_bigSepL_of_eq [main_v2, main_arg3, main_arg4, main_v3] (by decide) (by decide) _

/-- The pipeline's arrays, window by window, each at its share. -/
theorem arrays_list (c : Dev nD) (Fa : (w : Fin cfg1.W) → Buf (Elt F) ((cfg1.win w).arr.view.loc (c : Thread nD τ))) :
    ((dat V c).arrays Fa : sProp 𝕄)
      = iprop((((c : Thread nD τ).loc main_v2) ↦{fullShare.left} Fa 0) ∗ (((c : Thread nD τ).loc main_v2) ↦{fullShare.right} Fa 1)
          ∗ (((c : Thread nD τ).loc main_arg3) ↦{fullShare} Fa 2) ∗ (((c : Thread nD τ).loc main_arg4) ↦{fullShare} Fa 3)
          ∗ (((c : Thread nD τ).loc main_v3) ↦{fullShare} Fa 4)) := by
  unfold Dat.arrays
  rw [bigSep_W1]
  rw [show (cfg1.win 0).arr.view.set = Finset.univ from (arr_whole1 0).set_eq_univ, show (cfg1.win 2).arr.view.set = Finset.univ from (arr_whole1 2).set_eq_univ,
    show (cfg1.win 3).arr.view.set = Finset.univ from (arr_whole1 3).set_eq_univ, show (cfg1.win 4).arr.view.set = Finset.univ from (arr_whole1 4).set_eq_univ]
  rfl

/-- ENTRY: the core's unscoped buffers at the entry contents are the pipeline's arrays at their entry contents, the
    encoded array halved between its two windows, and the unscoped rest. -/
theorem arrays_in (c : Dev nD) :
    (unscopedBufs c (V c) : sProp 𝕄)
      ⊢ iprop((dat V c).arrays ((dat V c).arrAt · 0) ∗ Pipeline.unscopedRest (Ix := Unit) (Name := ℕ) (U := Pipeline.UD sig nD τ) (Lvl := ℕ) spec1 c (V c)) := by
  rw [Pipeline.unscopedBufs_split₀ cfgs 1 winFacts₀1.arr_unscoped c (V c)]
  show iprop(Pipeline.arrBufs spec1 c (V c) ∗ Pipeline.unscopedRest spec1 c (V c)) ⊢ _
  rw [arrBufs_list, arrays_list]
  iintro ⟨⟨Hv2, Ha3, Ha4, Hv3⟩, Hrest⟩
  ihave Hs := (pointsTo_share (PosShare.mem_left_op_right fullShare)).1 $$ Hv2
  icases Hs with ⟨Hl, Hr⟩
  isplitr [Hrest]
  · isplitl [Hl]; · iexact Hl
    isplitl [Hr]; · iexact Hr
    isplitl [Ha3]; · iexact Ha3
    isplitl [Ha4]; · iexact Ha4
    iexact Hv3
  iexact Hrest

/-- EXIT: the arrays at what the pipeline leaves and the unscoped rest are the core's unscoped buffers at any
    contents that have the result array at what the write-backs left and agree with the entry contents elsewhere. -/
theorem arrays_out (c : Dev nD) (X' : (b : Ref sig .tc) → Buf (Elt F) ((c : Thread nD τ).loc b))
    (h3 : X' main_v3 = (dat V c).arrAt 4 cfg1.N) (hrest : ∀ b, b ≠ main_v3 → X' b = V c b) :
    iprop((dat V c).arrays ((dat V c).arrAt · cfg1.N) ∗ Pipeline.unscopedRest (Ix := Unit) (Name := ℕ) (U := Pipeline.UD sig nD τ) (Lvl := ℕ) spec1 c (V c))
      ⊢ (unscopedBufs c X' : sProp 𝕄) := by
  rw [Pipeline.unscopedBufs_split₀ cfgs 1 winFacts₀1.arr_unscoped c X']
  show _ ⊢ iprop(Pipeline.arrBufs spec1 c X' ∗ Pipeline.unscopedRest spec1 c X')
  rw [arrBufs_list, arrays_list]
  rw [(dat V c).arrAt_in 0 rfl _, (dat V c).arrAt_in 1 rfl _, (dat V c).arrAt_in 2 rfl _, (dat V c).arrAt_in 3 rfl _]
  rw [hrest main_v2 (by decide), hrest main_arg3 (by decide), hrest main_arg4 (by decide), h3]
  iintro ⟨⟨Hl, Hr, Ha3, Ha4, Hv3⟩, Hrest⟩
  isplitr [Hrest]
  · isplitl [Hl Hr]
    · iapply (pointsTo_share (PosShare.mem_left_op_right fullShare)).2
      isplitl [Hl]; · iexact Hl
      iexact Hr
    isplitl [Ha3]; · iexact Ha3
    isplitl [Ha4]; · iexact Ha4
    iexact Hv3
  · unfold Pipeline.unscopedRest
    iapply (Entails.of_eq (bigSep_congr fun b hb => by
      rw [hrest b (fun e => (Finset.mem_sdiff.mp hb).2 (e ▸ Finset.mem_image.mpr ⟨4, Finset.mem_univ _, rfl⟩))]))
    iexact Hrest

end Cert.KernelIdeal.Attn

end
-- ==== Proof.MainRunIdeal.lean ====
/-
  The run of @main.  @main is: flatten the input to 16384 rows (a host reshape); the encode pallas_call; regroup the
  encoded rows by batch (a host reshape); the attention pallas_call.  The buffers' contents are followed through the
  four items: after a host stretch the stretch's operations applied; after the encode region its output array at what
  the write-backs left; after the attention region the result array at what its write-backs left, everything else
  as before.  Each region is a segment with its body obligation; the launch theorem for a list of segments gives the
  run, and the last contents are read against the final state: the result array at the attention region's final
  array, every argument as launched.  Generic in the float instance.
-/
import proofs.«180303_j2181843387116_2_alg».proof.Proof.EncodeStageIdeal
import proofs.«180303_j2181843387116_2_alg».proof.Proof.AttnBodyIdeal
import proofs.«180303_j2181843387116_2_alg».proof.Proof.AttnArraysIdeal
import proofs.«180303_j2181843387116_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first reshape (the encode region's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the encode region: its arrays at what the pipeline leaves, every other buffer as entered. -/
def W2 (c : Dev nD) : Valuation τ sig (Elt F) :=
  Pipeline.withArrays spec0 c (W1 m c) fun w => (Encode.dat (V1 m) c).arrAt w cfg0.N
theorem W2_arr (c : Dev nD) (w : Fin cfg0.W) :
    W2 m c (Proc.devRef .tc (Pipeline.arrRef spec0 w)) = (Encode.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Encode.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second reshape (the attention region's entry). -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
theorem W3_of (c : Dev nD) (r : Ref sig .tc) (h : r ∉ hostOps1_W) : W3 m c r = W2 m c r :=
  StableHlo.after_of_writes_sub hostOps1 _ hostOps1_writes h
/-- After the attention region: the result array at what the write-backs left, every other buffer as entered. -/
def W4 (c : Dev nD) : Valuation τ sig (Elt F) :=
  Function.update (W3 m c) main_v3 ((Attn.dat (V3 m) c).arrAt 4 cfg1.N : Buf (Elt F) ((c : Thread nD τ).loc main_v3))
abbrev V4 : (c : Dev nD) → (b : Ref sig .tc) → Buf (Elt F) ((c : Thread nD τ).loc b) := fun c b => W4 m c b
theorem W4_result (c : Dev nD) : W4 m c (Proc.devRef .tc main_v3) = (Attn.dat (V3 m) c).arrAt 4 cfg1.N := by
  unfold W4; exact Function.update_self ..
theorem W4_of_ne (c : Dev nD) (b : Ref sig .tc) (hb : b ≠ main_v3) : W4 m c (Proc.devRef .tc b) = W3 m c (Proc.devRef .tc b) := by
  unfold W4; exact Function.update_of_ne (StableHlo.devRef_ne_of_ne hb) ..

/-! ## The arguments end as launched -/

theorem W4_main_arg0 (c : Dev nD) : W4 m c (Proc.devRef .tc main_arg0) = m ((c : Thread nD τ).loc main_arg0) :=
  (W4_of_ne m c main_arg0 (by decide)).trans <| (W3_of m c main_arg0 (by decide)).trans <| (W2_of_ne m c main_arg0 (by decide)).trans <| (Gen.V1_of m c main_arg0 (by decide)).trans rfl
theorem W4_main_arg1 (c : Dev nD) : W4 m c (Proc.devRef .tc main_arg1) = m ((c : Thread nD τ).loc main_arg1) :=
  (W4_of_ne m c main_arg1 (by decide)).trans <| (W3_of m c main_arg1 (by decide)).trans <| ((W2_arr m c 1).trans (((Encode.dat (V1 m) c).arrAt_in 1 rfl _).trans (Encode.dat_A (V1 m) c 1))).trans <| (Gen.V1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <| ((W2_arr m c 2).trans (((Encode.dat (V1 m) c).arrAt_in 2 rfl _).trans (Encode.dat_A (V1 m) c 2))).trans <| (Gen.V1_of m c main_arg2 (by decide)).trans rfl
theorem W4_main_arg3 (c : Dev nD) : W4 m c (Proc.devRef .tc main_arg3) = m ((c : Thread nD τ).loc main_arg3) :=
  (W4_of_ne m c main_arg3 (by decide)).trans <| (W3_of m c main_arg3 (by decide)).trans <| (W2_of_ne m c main_arg3 (by decide)).trans <| (Gen.V1_of m c main_arg3 (by decide)).trans rfl
theorem W4_main_arg4 (c : Dev nD) : W4 m c (Proc.devRef .tc main_arg4) = m ((c : Thread nD τ).loc main_arg4) :=
  (W4_of_ne m c main_arg4 (by decide)).trans <| (W3_of m c main_arg4 (by decide)).trans <| (W2_of_ne m c main_arg4 (by decide)).trans <| (Gen.V1_of m c main_arg4 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => Encode.dat (V1 m) c
  | ⟨1, _⟩ => fun c => Attn.dat (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The encode region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Encode.obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`.  Its two windows onto the
    encoded array each take half of it at entry and give it back at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Attn.obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V3 m c)
  hentry c := by
    rw [Pipeline.ownSems0_none]
    have hsplit := Attn.arrays_in (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Attn.phi_out (V3 m) c).trans ?_
    unfold Pipeline.ΦA
    iintro ⟨Hr, Hp⟩
    isplitl [Hp]; · iexact Hp
    isplitr; · iempintro
    iexact Hr
  hexit c := by
    have hjoin := Attn.arrays_out (V3 m) c (V4 m c) (W4_result m c) (fun b hb => W4_of_ne m c b hb)
    rw [Pipeline.unscopedBufs_held] at hjoin
    iintro ⟨Ha, HO, HY, Hrest⟩
    imodintro
    isplitr [HO]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state has the result array at what the attention region's write-backs left and every argument
    array as launched. -/
theorem run : θ_run defs (onTc (τ := τ) (main (F := F))) ⟨m, fun _ => 0, ρ⟩ (fun r => ∀ c : Dev nD,
      r.2.mem ((c.tc : Thread nD τ).loc main_v3) = (Attn.dat (V3 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v3 (by decide))).trans (W4_result m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)

end Cert.KernelIdeal.Run

end
-- ==== Proof.FrameClaims.lean ====
/-
  The three frame conjuncts and the idealization conjunct.  Each kernel program's frame is its run with the result
  array's clause dropped: the run ends with every argument array as launched.  The reference has no kernel: its
  frame is its generated run with the result's clause dropped.  The ideal pass rewrote no operation of the kernel,
  so the idealized kernel is the kernel's own text read at the extended reals and the conjunct is trivial.
-/
import proofs.«180303_j2181843387116_2_alg».proof.Defs
import proofs.«180303_j2181843387116_2_alg».proof.Proof.MainRunBits
import proofs.«180303_j2181843387116_2_alg».proof.Proof.MainRunIdeal
import proofs.«180303_j2181843387116_2_alg».proof.Proof.Gen.ReferenceIdeal
import proofs.«180303_j2181843387116_2_alg».proof.Proof.Gen.ReferenceIdeal.Run
import proofs.«180303_j2181843387116_2_alg».proof.Proof.Gen.Pre_finite_inputs

noncomputable section

namespace Cert.Proof.Frames

open Idealize.ShloMosaic Idealize.ShloMosaic.TcCoe Idealize.SL.Sem

theorem frame_kernel : Cert.frame_Kernel := fun m ρ _ =>
  (θ_run Cert.Kernel.defs _ _).mono (fun _ h c => (h c).2) (Cert.Kernel.Run.run (F := Bits) m ρ)

theorem frame_kernel_ideal : Cert.frame_KernelIdeal := fun m ρ _ =>
  (θ_run Cert.KernelIdeal.defs _ _).mono (fun _ h c => (h c).2) (Cert.KernelIdeal.Run.run (F := Ideal) m ρ)

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

end Cert.Proof.Frames

end
-- ==== Proof.AttnFoldIdeal.lean ====
/-
  One step of the attention kernel as a pure function, and the steps composed.  The kernel keeps three running
  statistics per query row between key tiles: the running maximum m (512 x 1), the running denominator l (512 x 1)
  and the running numerator acc (512 x 512).  A step takes the query tile q and one key tile k (both 1 x 512 x 512) and
  maps (m, l, acc) to the next triple — m' = max(m, rowmax(q k^T)), a = exp(m - m'), p = exp(q k^T - m'),
  l' = a l + rowsum(p), acc' = a acc + p k — written here over the kernel body's own arithmetic (its payload terms),
  so that nothing is transcribed.  The first step starts from (-inf, 0, 0); after the last the output tile is
  (acc / l) W_dec + b_dec.  Generic in the float instance.
-/
import proofs.«180303_j2181843387116_2_alg».proof.Proof.Gen.KernelIdeal.Skeleton

noncomputable section

namespace Cert.KernelIdeal.Attn

open Cert.KernelIdeal Cert.KernelIdeal.Gen Idealize.ShloMosaic Idealize.SL.Sem

variable {F : FTy → Type} [FloatOps F]

/-- The running statistics: maximum, denominator, numerator. -/
abbrev Stats (F : FTy → Type) : Type := FVec F S512x1 .f32 × FVec F S512x1 .f32 × FVec F S512x512 .f32

/-- The statistics before the first key tile: -inf, 0, 0. -/
def stats0 : Stats F := (k1_pay4 (F := F), k1_pay5 (F := F), k1_pay6 (F := F))

/-- One key tile folded into the statistics. -/
def step (q k : Vec F S1x512x512 .bf16) (s : Stats F) : Stats F :=
  (k1_pay2 (k1_pay9 q k s.1),
   k1_pay12 q k s.1 s.1 s.2.1,
   k1_pay1 (k1_pay7 k) (k1_pay13 q k s.1 s.1 s.2.2) (k1_pay14 q k s.1))

/-- The output tile from the final statistics, the decode weights and bias. -/
def finish (s : Stats F) (wd : Vec F S512x256 .f32) (bd : Vec F S256 .f32) : FVec F S1x512x256 .f32 :=
  k1_pay3 s.2.2 s.2.1 wd bd

end Cert.KernelIdeal.Attn

end
-- ==== Proof.AttnPiecesIdeal.lean ====
/-
  What each control case of the attention body leaves, as values.  The symbolic runs found, per buffer, a list of
  stores; every list's last store covers its buffer, so the buffer holds that store's value; and the loads that feed
  it read either an input block, the statistics the point before left, or (at a run's first point) the reset values
  just stored.  Read back, the three statistics after a point are one `step` of the statistics before it (from the
  reset values at a run's first point), over the query tile and the key tile the point's key-tile coordinate selects
  from the resident key slab; and at a run's last point the output tile is `finish` of the new statistics.
-/
import proofs.«180303_j2181843387116_2_alg».proof.Proof.AttnDataIdeal
import proofs.«180303_j2181843387116_2_alg».proof.Proof.AttnFoldIdeal
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The key tile a point reads: 512 rows of the resident key slab, from the row its key-tile coordinate selects. -/
abbrev keyTile (i : grid1.Coords) (x1 : Vec F S1x2048x512 .bf16) : Vec F S1x512x512 .bf16 :=
  View.ld x1 (Rect.unit (s := S1x2048x512) (k1_off1 i) S1x512x512.size (k1_off1_inb i))

theorem first_m (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : isFirst i) (hc1 : ¬isLast i)
    (x0 : Vec F S1x512x512 .bf16) (x1 : Vec F S1x2048x512 .bf16) (x2 : Vec F S512x256 .f32) (x3 : Vec F S256 .f32) :
    (leftFirst c i arg3 harg3 arg4 harg4 arg5 harg5 arg6 harg6 arg7 harg7 arg8 harg8 arg9 harg9 arg10 harg10 hc0 hc1 x0 x1 x2 x3).2.1 = (step x0 (keyTile i x1) stats0).1 := by
  unfold leftFirst; dsimp only
  rw [View.read_writes_eq_canon _ _ _ (coverFirst_m c i arg3 harg3 arg4 harg4 arg5 harg5 arg6 harg6 arg7 harg7 arg8 harg8 arg9 harg9 arg10 harg10 hc0 hc1 x0 x1 x2 x3)]
  unfold runFirst
  dsimp only
  sl_unfold_words
  rw [View.canon_cons_unit_zero hz2]
  simp only [View.readCov_unit_zero (S := S512x1) _ hz2, View.readCov_unit_zero (S := S512x512) _ hz2, View.readAt_eq_ld, harg3.read_unread, harg4.read_unread, harg5.read_unread, harg6.read_unread, harg8.read_unread, harg9.read_unread, harg10.read_unread, View.ld_unit_zero (S := S1x512x512) hz3, View.ld_unit_zero (S := S512x1) hz2, View.ld_unit_zero (S := S512x512) hz2, View.ld_unit_zero (S := S512x256) hz2, View.ld_unit_zero (S := S256) hz1]
  rfl

theorem first_l (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : isFirst i) (hc1 : ¬isLast i)
    (x0 : Vec F S1x512x512 .bf16) (x1 : Vec F S1x2048x512 .bf16) (x2 : Vec F S512x256 .f32) (x3 : Vec F S256 .f32) :
    (leftFirst c i arg3 harg3 arg4 harg4 arg5 harg5 arg6 harg6 arg7 harg7 arg8 harg8 arg9 harg9 arg10 harg10 hc0 hc1 x0 x1 x2 x3).2.2.1 = (step x0 (keyTile i x1) stats0).2.1 := by
  unfold leftFirst; dsimp only
  rw [View.read_writes_eq_canon _ _ _ (coverFirst_l c i arg3 harg3 arg4 harg4 arg5 harg5 arg6 harg6 arg7 harg7 arg8 harg8 arg9 harg9 arg10 harg10 hc0 hc1 x0 x1 x2 x3)]
  unfold runFirst
  dsimp only
  sl_unfold_words
  rw [View.canon_cons_unit_zero hz2]
  simp only [View.readCov_unit_zero (S := S512x1) _ hz2, View.readCov_unit_zero (S := S512x512) _ hz2, View.readAt_eq_ld, harg3.read_unread, harg4.read_unread, harg5.read_unread, harg6.read_unread, harg8.read_unread, harg9.read_unread, harg10.read_unread, View.ld_unit_zero (S := S1x512x512) hz3, View.ld_unit_zero (S := S512x1) hz2, View.ld_unit_zero (S := S512x512) hz2, View.ld_unit_zero (S := S512x256) hz2, View.ld_unit_zero (S := S256) hz1]
  rfl

theorem first_a (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : isFirst i) (hc1 : ¬isLast i)
    (x0 : Vec F S1x512x512 .bf16) (x1 : Vec F S1x2048x512 .bf16) (x2 : Vec F S512x256 .f32) (x3 : Vec F S256 .f32) :
    (leftFirst c i arg3 harg3 arg4 harg4 arg5 harg5 arg6 harg6 arg7 harg7 arg8 harg8 arg9 harg9 arg10 harg10 hc0 hc1 x0 x1 x2 x3).2.2.2 = (step x0 (keyTile i x1) stats0).2.2 := by
  unfold leftFirst; dsimp only
  rw [View.read_writes_eq_canon _ _ _ (coverFirst_a c i arg3 harg3 arg4 harg4 arg5 harg5 arg6 harg6 arg7 harg7 arg8 harg8 arg9 harg9 arg10 harg10 hc0 hc1 x0 x1 x2 x3)]
  unfold runFirst
  dsimp only
  sl_unfold_words
  rw [View.canon_cons_unit_zero hz2]
  simp only [View.readCov_unit_zero (S := S512x1) _ hz2, View.readCov_unit_zero (S := S512x512) _ hz2, View.readAt_eq_ld, harg3.read_unread, harg4.read_unread, harg5.read_unread, harg6.read_unread, harg8.read_unread, harg9.read_unread, harg10.read_unread, View.ld_unit_zero (S := S1x512x512) hz3, View.ld_unit_zero (S := S512x1) hz2, View.ld_unit_zero (S := S512x512) hz2, View.ld_unit_zero (S := S512x256) hz2, View.ld_unit_zero (S := S256) hz1]
  rfl

theorem mid_m (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : ¬isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) :
    (leftMid c i arg3 harg3 arg4 harg4 arg5 harg5 arg6 harg6 arg7 harg7 arg8 harg8 arg9 harg9 arg10 harg10 hc0 hc1 x0 x1 x2 x3 xs0 xs1 xs2).2.1 = (step x0 (keyTile i x1) (xs0, xs1, xs2)).1 := by
  unfold leftMid; dsimp only
  rw [View.read_writes_eq_canon _ _ _ (coverMid_m c i arg3 harg3 arg4 harg4 arg5 harg5 arg6 harg6 arg7 harg7 arg8 harg8 arg9 harg9 arg10 harg10 hc0 hc1 x0 x1 x2 x3 xs0 xs1 xs2)]
  unfold runMid
  dsimp only
  sl_unfold_words
  rw [View.canon_unit_zero hz2]
  simp only [View.readCov_unit_zero (S := S512x1) _ hz2, View.readCov_unit_zero (S := S512x512) _ hz2, View.readAt_eq_ld, harg3.read_unread, harg4.read_unread, harg5.read_unread, harg6.read_unread, harg8.read_unread, harg9.read_unread, harg10.read_unread, View.ld_unit_zero (S := S1x512x512) hz3, View.ld_unit_zero (S := S512x1) hz2, View.ld_unit_zero (S := S512x512) hz2, View.ld_unit_zero (S := S512x256) hz2, View.ld_unit_zero (S := S256) hz1]
  rfl

theorem mid_l (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : ¬isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) :
    (leftMid c i arg3 harg3 arg4 harg4 arg5 harg5 arg6 harg6 arg7 harg7 arg8 harg8 arg9 harg9 arg10 harg10 hc0 hc1 x0 x1 x2 x3 xs0 xs1 xs2).2.2.1 = (step x0 (keyTile i x1) (xs0, xs1, xs2)).2.1 := by
  unfold leftMid; dsimp only
  rw [View.read_writes_eq_canon _ _ _ (coverMid_l c i arg3 harg3 arg4 harg4 arg5 harg5 arg6 harg6 arg7 harg7 arg8 harg8 arg9 harg9 arg10 harg10 hc0 hc1 x0 x1 x2 x3 xs0 xs1 xs2)]
  unfold runMid
  dsimp only
  sl_unfold_words
  rw [View.canon_unit_zero hz2]
  simp only [View.readCov_unit_zero (S := S512x1) _ hz2, View.readCov_unit_zero (S := S512x512) _ hz2, View.readAt_eq_ld, harg3.read_unread, harg4.read_unread, harg5.read_unread, harg6.read_unread, harg8.read_unread, harg9.read_unread, harg10.read_unread, View.ld_unit_zero (S := S1x512x512) hz3, View.ld_unit_zero (S := S512x1) hz2, View.ld_unit_zero (S := S512x512) hz2, View.ld_unit_zero (S := S512x256) hz2, View.ld_unit_zero (S := S256) hz1]
  rfl

theorem mid_a (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : ¬isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) :
    (leftMid c i arg3 harg3 arg4 harg4 arg5 harg5 arg6 harg6 arg7 harg7 arg8 harg8 arg9 harg9 arg10 harg10 hc0 hc1 x0 x1 x2 x3 xs0 xs1 xs2).2.2.2 = (step x0 (keyTile i x1) (xs0, xs1, xs2)).2.2 := by
  unfold leftMid; dsimp only
  rw [View.read_writes_eq_canon _ _ _ (coverMid_a c i arg3 harg3 arg4 harg4 arg5 harg5 arg6 harg6 arg7 harg7 arg8 harg8 arg9 harg9 arg10 harg10 hc0 hc1 x0 x1 x2 x3 xs0 xs1 xs2)]
  unfold runMid
  dsimp only
  sl_unfold_words
  rw [View.canon_unit_zero hz2]
  simp only [View.readCov_unit_zero (S := S512x1) _ hz2, View.readCov_unit_zero (S := S512x512) _ hz2, View.readAt_eq_ld, harg3.read_unread, harg4.read_unread, harg5.read_unread, harg6.read_unread, harg8.read_unread, harg9.read_unread, harg10.read_unread, View.ld_unit_zero (S := S1x512x512) hz3, View.ld_unit_zero (S := S512x1) hz2, View.ld_unit_zero (S := S512x512) hz2, View.ld_unit_zero (S := S512x256) hz2, View.ld_unit_zero (S := S256) hz1]
  rfl

theorem last_m (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) :
    (leftLast c i arg3 harg3 arg4 harg4 arg5 harg5 arg6 harg6 arg7 harg7 arg8 harg8 arg9 harg9 arg10 harg10 hc0 hc1 x0 x1 x2 x3 xs0 xs1 xs2).2.1 = (step x0 (keyTile i x1) (xs0, xs1, xs2)).1 := by
  unfold leftLast; dsimp only
  rw [View.read_writes_eq_canon _ _ _ (coverLast_m c i arg3 harg3 arg4 harg4 arg5 harg5 arg6 harg6 arg7 harg7 arg8 harg8 arg9 harg9 arg10 harg10 hc0 hc1 x0 x1 x2 x3 xs0 xs1 xs2)]
  unfold runLast
  dsimp only
  sl_unfold_words
  rw [View.canon_unit_zero hz2]
  simp only [View.readCov_unit_zero (S := S512x1) _ hz2, View.readCov_unit_zero (S := S512x512) _ hz2, View.readAt_eq_ld, harg3.read_unread, harg4.read_unread, harg5.read_unread, harg6.read_unread, harg8.read_unread, harg9.read_unread, harg10.read_unread, View.ld_unit_zero (S := S1x512x512) hz3, View.ld_unit_zero (S := S512x1) hz2, View.ld_unit_zero (S := S512x512) hz2, View.ld_unit_zero (S := S512x256) hz2, View.ld_unit_zero (S := S256) hz1]
  rfl

theorem last_l (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) :
    (leftLast c i arg3 harg3 arg4 harg4 arg5 harg5 arg6 harg6 arg7 harg7 arg8 harg8 arg9 harg9 arg10 harg10 hc0 hc1 x0 x1 x2 x3 xs0 xs1 xs2).2.2.1 = (step x0 (keyTile i x1) (xs0, xs1, xs2)).2.1 := by
  unfold leftLast; dsimp only
  rw [View.read_writes_eq_canon _ _ _ (coverLast_l c i arg3 harg3 arg4 harg4 arg5 harg5 arg6 harg6 arg7 harg7 arg8 harg8 arg9 harg9 arg10 harg10 hc0 hc1 x0 x1 x2 x3 xs0 xs1 xs2)]
  unfold runLast
  dsimp only
  sl_unfold_words
  rw [View.canon_unit_zero hz2]
  simp only [View.readCov_unit_zero (S := S512x1) _ hz2, View.readCov_unit_zero (S := S512x512) _ hz2, View.readAt_eq_ld, harg3.read_unread, harg4.read_unread, harg5.read_unread, harg6.read_unread, harg8.read_unread, harg9.read_unread, harg10.read_unread, View.ld_unit_zero (S := S1x512x512) hz3, View.ld_unit_zero (S := S512x1) hz2, View.ld_unit_zero (S := S512x512) hz2, View.ld_unit_zero (S := S512x256) hz2, View.ld_unit_zero (S := S256) hz1]
  rfl

theorem last_a (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) :
    (leftLast c i arg3 harg3 arg4 harg4 arg5 harg5 arg6 harg6 arg7 harg7 arg8 harg8 arg9 harg9 arg10 harg10 hc0 hc1 x0 x1 x2 x3 xs0 xs1 xs2).2.2.2 = (step x0 (keyTile i x1) (xs0, xs1, xs2)).2.2 := by
  unfold leftLast; dsimp only
  rw [View.read_writes_eq_canon _ _ _ (coverLast_a c i arg3 harg3 arg4 harg4 arg5 harg5 arg6 harg6 arg7 harg7 arg8 harg8 arg9 harg9 arg10 harg10 hc0 hc1 x0 x1 x2 x3 xs0 xs1 xs2)]
  unfold runLast
  dsimp only
  sl_unfold_words
  rw [View.canon_unit_zero hz2]
  simp only [View.readCov_unit_zero (S := S512x1) _ hz2, View.readCov_unit_zero (S := S512x512) _ hz2, View.readAt_eq_ld, harg3.read_unread, harg4.read_unread, harg5.read_unread, harg6.read_unread, harg8.read_unread, harg9.read_unread, harg10.read_unread, View.ld_unit_zero (S := S1x512x512) hz3, View.ld_unit_zero (S := S512x1) hz2, View.ld_unit_zero (S := S512x512) hz2, View.ld_unit_zero (S := S512x256) hz2, View.ld_unit_zero (S := S256) hz1]
  rfl

theorem last_o (c : Dev nD) (i : grid1.Coords) (arg3 : Memref sig .tc .vmem S1x512x512 .bf16) (harg3 : arg3.IsWhole) (arg4 : Memref sig .tc .vmem S1x2048x512 .bf16) (harg4 : arg4.IsWhole) (arg5 : Memref sig .tc .vmem S512x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole) (hc0 : ¬isFirst i) (hc1 : isLast i)
    (x0 : Vec F S1x512x512 .bf16) (x1 : Vec F S1x2048x512 .bf16) (x2 : Vec F S512x256 .f32) (x3 : Vec F S256 .f32) (xs0 : Vec F S512x1 .f32) (xs1 : Vec F S512x1 .f32) (xs2 : Vec F S512x512 .f32) :
    (leftLast c i arg3 harg3 arg4 harg4 arg5 harg5 arg6 harg6 arg7 harg7 arg8 harg8 arg9 harg9 arg10 harg10 hc0 hc1 x0 x1 x2 x3 xs0 xs1 xs2).1 = finish (step x0 (keyTile i x1) (xs0, xs1, xs2)) x2 x3 := by
  unfold leftLast; dsimp only
  rw [View.read_writes_eq_canon _ _ _ (coverLast_o c i arg3 harg3 arg4 harg4 arg5 harg5 arg6 harg6 arg7 harg7 arg8 harg8 arg9 harg9 arg10 harg10 hc0 hc1 x0 x1 x2 x3 xs0 xs1 xs2)]
  unfold runLast
  dsimp only
  sl_unfold_words
  rw [View.canon_unit_zero hz3]
  simp only [View.readCov_unit_zero (S := S512x1) _ hz2, View.readCov_unit_zero (S := S512x512) _ hz2, View.readAt_eq_ld, harg3.read_unread, harg4.read_unread, harg5.read_unread, harg6.read_unread, harg8.read_unread, harg9.read_unread, harg10.read_unread, View.ld_unit_zero (S := S1x512x512) hz3, View.ld_unit_zero (S := S512x1) hz2, View.ld_unit_zero (S := S512x512) hz2, View.ld_unit_zero (S := S512x256) hz2, View.ld_unit_zero (S := S256) hz1]
  rfl

end Cert.KernelIdeal.Attn

end
-- ==== Proof.AttnFoldAtIdeal.lean ====
/-
  The accumulation, through `step`.  After a run's first point the three statistics are one step from the reset
  values; after any other point, one step from what the point before left; and at a run's last point the output
  tile's buffer holds `finish` of the statistics.  Each step is over the point's query tile and the key tile its
  key-tile coordinate selects from the point's key slab.
-/
import proofs.«180303_j2181843387116_2_alg».proof.Proof.AttnPiecesIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The three statistics after point `n`. -/
def statsAt (c : Dev nD) (n : ℕ) (hn : n < cfg1.N) : Stats F :=
  ((leftAt V c n hn).2.1, (leftAt V c n hn).2.2.1, (leftAt V c n hn).2.2.2)

/-- The key tile point `t` reads. -/
abbrev keyAtPoint (c : Dev nD) (t : Fin cfg1.N) : Vec F S1x512x512 .bf16 := keyTile (grid1.coords t) (blk V c 1 t)

theorem stats_first (c : Dev nD) (t : Fin cfg1.N) (h0 : t.val % 4 = 0) :
    statsAt V c t.val t.isLt = step (blk V c 0 t) (keyAtPoint V c t) stats0 := by
  have h1 : ¬t.val % 4 = 3 := by omega
  unfold statsAt
  rw [leftAt_first V c t h0 h1, first_m, first_l, first_a]

theorem stats_next (c : Dev nD) (t : Fin cfg1.N) (h0 : ¬t.val % 4 = 0) :
    statsAt V c t.val t.isLt = step (blk V c 0 t) (keyAtPoint V c t) (statsAt V c (t.val - 1) (prevLt t)) := by
  unfold statsAt
  by_cases h1 : t.val % 4 = 3
  · rw [leftAt_last V c t h0 h1, last_m, last_l, last_a]
  · rw [leftAt_mid V c t h0 h1, mid_m, mid_l, mid_a]

theorem out_last (c : Dev nD) (t : Fin cfg1.N) (h1 : t.val % 4 = 3) :
    (leftAt V c t.val t.isLt).1 = finish (statsAt V c t.val t.isLt) (blk V c 2 t) (blk V c 3 t) := by
  have h0 : ¬t.val % 4 = 0 := by omega
  rw [stats_next V c t h0, leftAt_last V c t h0 h1, last_o]
  rfl

end Cert.KernelIdeal.Attn

end
-- ==== Proof.AttnSpec.lean ====
/-
  Single-head self-attention between two affine maps, on the extended reals, written index by index.

  For an input x : [8, 2048, 256], an encoder (We : [256, 512], be : [512]) and a decoder (Wd : [512, 256], bd : [256]):

    enc(b,s,d)   = (∑ h, x(b,s,h) · We(h,d)) + be(d)
    score(b,s,t) = ∑ d, enc(b,s,d) · enc(b,t,d)                 (no scaling, no mask)
    rowMax(b,s)  = the supremum over t of score(b,s,t)
    e(b,s,t)     = exp (score(b,s,t) − rowMax(b,s))
    Z(b,s)       = ∑ t, e(b,s,t)
    w(b,s,t)     = e(b,s,t) / Z(b,s)                            (the softmax over t of the scores of row (b,s))
    att(b,s,d)   = ∑ t, w(b,s,t) · enc(b,t,d)
    out(b,s,h)   = (∑ d, att(b,s,d) · Wd(d,h)) + bd(h)

  The arithmetic is the extended reals' (exp ⊥ = 0, the quotient is the ideal instance's division). No program is
  imported: the arrays are functions on the index sets of the literal shapes, read at indices built from coordinates.
-/
import Idealize.ShloMosaic.PureOps.Ideal
import Idealize.ShloMosaic.PureOps.Ideal.Laws
import Idealize.ShloMosaic.Lib.ValueIdx

noncomputable section

open scoped BigOperators

namespace Cert.AttnSpec

open Idealize.ShloMosaic Idealize.ShloMosaic.ValueIdx

/-- The f32 word of −∞ denotes the bottom of the extended reals. -/
theorem ofBits_neg_inf_f32 : Ideal.ofBits .f32 0xFF800000#32 = (⊥ : EReal) := by
  simp [Ideal.ofBits, Ideal.ieee]

section Spec

variable (x : (⟨3, ![8, 2048, 256]⟩ : Shape).Idx → EReal) (We : (⟨2, ![256, 512]⟩ : Shape).Idx → EReal)
  (be : (⟨1, ![512]⟩ : Shape).Idx → EReal) (Wd : (⟨2, ![512, 256]⟩ : Shape).Idx → EReal)
  (bd : (⟨1, ![256]⟩ : Shape).Idx → EReal)

/-- The encoder: row (b,s) of x times We, plus the bias. -/
def enc (b : Fin 8) (s : Fin 2048) (d : Fin 512) : EReal :=
  (∑ h : Fin 256, x (ix3 b s h) * We (ix2 h d)) + be (ix1 d)

/-- The attention scores: the inner product of the encoded rows s and t of batch b. -/
def score (b : Fin 8) (s t : Fin 2048) : EReal :=
  ∑ d : Fin 512, enc x We be b s d * enc x We be b t d

/-- The largest score of row (b,s): the supremum over t. -/
def rowMax (b : Fin 8) (s : Fin 2048) : EReal :=
  (Finset.univ : Finset (Fin 2048)).sup (fun t => score x We be b s t)

/-- The shifted exponentials of row (b,s). -/
def e (b : Fin 8) (s t : Fin 2048) : EReal :=
  Ideal.exp (score x We be b s t - rowMax x We be b s)

/-- The normaliser of row (b,s): the sum of its shifted exponentials. -/
def Z (b : Fin 8) (s : Fin 2048) : EReal :=
  ∑ t : Fin 2048, e x We be b s t

/-- The attention weights: the softmax over t of the scores of row (b,s). -/
def w (b : Fin 8) (s t : Fin 2048) : EReal :=
  Ideal.div (e x We be b s t) (Z x We be b s)

/-- The attended rows: the weights of row (b,s) times the encoded rows of batch b. -/
def att (b : Fin 8) (s : Fin 2048) (d : Fin 512) : EReal :=
  ∑ t : Fin 2048, w x We be b s t * enc x We be b t d

/-- The decoder: the attended row (b,s) times Wd, plus the bias. -/
def out (b : Fin 8) (s : Fin 2048) (h : Fin 256) : EReal :=
  (∑ d : Fin 512, att x We be b s d * Wd (ix2 d h)) + bd (ix1 h)

/-- The row maximum as a fold: the supremum over t is the fold of max over t starting from ⊥. -/
theorem rowMax_eq_fold (b : Fin 8) (s : Fin 2048) :
    rowMax x We be b s = (Finset.univ : Finset (Fin 2048)).fold max (⊥ : EReal) (fun t => score x We be b s t) := rfl

/-- Taking the maximum with ⊥ once more changes nothing. -/
theorem max_bot_rowMax (b : Fin 8) (s : Fin 2048) :
    max (⊥ : EReal) ((Finset.univ : Finset (Fin 2048)).fold max (⊥ : EReal) (fun t => score x We be b s t))
      = rowMax x We be b s := by
  rw [rowMax_eq_fold]; exact max_eq_right bot_le

/-- Every score of row (b,s) is at most the row maximum. -/
theorem score_le_rowMax (b : Fin 8) (s t : Fin 2048) : score x We be b s t ≤ rowMax x We be b s :=
  Finset.le_sup (f := fun t => score x We be b s t) (Finset.mem_univ t)

end Spec

end Cert.AttnSpec

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.AttnPayloadsIdeal.lean ====
/-
  The attention kernel's arithmetic read at an index, on the extended reals.

  Each pure value the kernel body computes between its memory operations (a payload of the generated skeleton) is
  read here at an index given by coordinates, as a function of the values it is computed from:

    the key tile with its leading unit axis dropped;
    the scores q kᵀ of a query tile against a key tile: entry (r, j) is ∑ d, q(0,r,d) · k(0,j,d);
    the new running maximum of row r: the old one against the maximum of the row of scores;
    the rescaling factor exp(m − m') and the shifted exponentials exp(score − m');
    the new denominator a · l + ∑ j, p(r,j), the rescaled numerator a · acc, and the new numerator acc + p k;
    the output tile (acc / l) W + b;
    the starting statistics −∞, 0, 0.

  A reduction over the columns is a sum, or a fold of max from ⊥, over the column coordinate; a product of matrices at
  (p, q) is the sum over the contracted coordinate; a column broadcast along its rows does not depend on the column.
-/
import proofs.«180303_j2181843387116_2_alg».proof.Proof.Gen.KernelIdeal.Skeleton
import proofs.«180303_j2181843387116_2_alg».proof.Proof.AttnSpec
import proofs.«180303_j2181843387116_2_alg».proof.Proof.LibKeepdims
import proofs.«180303_j2181843387116_2_alg».proof.Proof.LibColumnBroadcast
import proofs.«180303_j2181843387116_2_alg».proof.Proof.LibRowColDot
import Idealize.ShloMosaic.Lib.ValueLayout
import Idealize.ShloMosaic.PureOps.Ideal.Laws

noncomputable section

open scoped BigOperators

namespace Cert.KernelIdeal.AttnPay

open Cert.KernelIdeal Cert.KernelIdeal.Gen Idealize.ShloMosaic Idealize.SL.Sem Idealize.ShloMosaic.ValueIdx
open Cert.MemAttn.Layout Cert.WeightUpdate.Layout

/-! ## The two matrix products at an output index -/

/-- In the 512 × 512 by 512 × 512 product the left operand's row coordinate is the output's … -/
theorem dotSq_l0 (j : S512x512.Idx) (q : dot_S512x512_S512x512_S512x512_1_0_0_1_n_n.contr.Idx) :
    (dot_S512x512_S512x512_S512x512_1_0_0_1_n_n.lhsIdx j q 0).val = (j 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
/-- … and the right operand's column coordinate is the output's. -/
theorem dotSq_r1 (j : S512x512.Idx) (q : dot_S512x512_S512x512_S512x512_1_0_0_1_n_n.contr.Idx) :
    (dot_S512x512_S512x512_S512x512_1_0_0_1_n_n.rhsIdx j q 1).val = (j 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The 512 × 512 by 512 × 512 product into the zero accumulator, at (p, q): ∑ k, lhs(p,k) · rhs(k,q). -/
theorem matmulSq_apply {φ₁ φ₂ : FTy} (lhs : FVec Ideal S512x512 φ₁) (rhs : FVec Ideal S512x512 φ₂) (p q : Fin 512) :
    matmul dot_S512x512_S512x512_S512x512_1_0_0_1_n_n none lhs rhs (constant (F := Ideal) S512x512 .f32 0x00000000#32) (ix2 p q)
      = ∑ k : Fin 512, lhs (ix2 p k) * rhs (ix2 k q) :=
  Cert.RowColDot.matmul_rowcol dot_S512x512_S512x512_S512x512_1_0_0_1_n_n rfl rfl rfl rfl dotSq_l0 dotSq_r1 none lhs rhs (ix2 p q)

/-- In the 512 × 512 by 512 × 256 product the left operand's row coordinate is the output's … -/
theorem dotDec_l0 (j : S512x256.Idx) (q : dot_S512x512_S512x256_S512x256_1_0_0_1_n_n.contr.Idx) :
    (dot_S512x512_S512x256_S512x256_1_0_0_1_n_n.lhsIdx j q 0).val = (j 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
/-- … and the right operand's column coordinate is the output's. -/
theorem dotDec_r1 (j : S512x256.Idx) (q : dot_S512x512_S512x256_S512x256_1_0_0_1_n_n.contr.Idx) :
    (dot_S512x512_S512x256_S512x256_1_0_0_1_n_n.rhsIdx j q 1).val = (j 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- The 512 × 512 by 512 × 256 product into the zero accumulator, at (p, q): ∑ k, lhs(p,k) · rhs(k,q). -/
theorem matmulDec_apply {φ₁ φ₂ : FTy} (lhs : FVec Ideal S512x512 φ₁) (rhs : FVec Ideal S512x256 φ₂) (p : Fin 512) (q : Fin 256) :
    matmul dot_S512x512_S512x256_S512x256_1_0_0_1_n_n none lhs rhs (constant (F := Ideal) S512x256 .f32 0x00000000#32) (ix2 p q)
      = ∑ k : Fin 512, lhs (ix2 p k) * rhs (ix2 k q) :=
  Cert.RowColDot.matmul_rowcol dot_S512x512_S512x256_S512x256_1_0_0_1_n_n rfl rfl rfl rfl dotDec_l0 dotDec_r1 none lhs rhs (ix2 p q)

/-! ## The payloads of one step -/

section Step

variable (v3 v8 : Vec Ideal S1x512x512 .bf16) (v12 v16 v22 : Vec Ideal S512x1 .f32) (v30 : Vec Ideal S512x512 .f32)

/-- The key tile with its leading unit axis dropped: entry (j, d) is k(0, j, d). -/
theorem pay7_apply (j d : Fin 512) : k1_pay7 (F := Ideal) v8 (ix2 j d) = v8 (ix3 (0 : Fin 1) j d) := by
  unfold k1_pay7
  exact shapeCast_1ab_ab_apply v8 shapeCasts_S1x512x512_S512x512 j d

/-- The scores: the query tile times the TRANSPOSE of the key tile, entry (r, j) = ∑ d, q(0,r,d) · k(0,j,d). -/
theorem pay8_apply (r j : Fin 512) :
    k1_pay8 (F := Ideal) v3 v8 (ix2 r j) = ∑ d : Fin 512, v3 (ix3 (0 : Fin 1) r d) * v8 (ix3 (0 : Fin 1) j d) := by
  unfold k1_pay8
  refine (matmulSq_apply _ _ r j).trans (Finset.sum_congr rfl fun d _ => ?_)
  refine congrArg₂ (· * ·) (shapeCast_1ab_ab_apply v3 shapeCasts_S1x512x512_S512x512 r d) ?_
  exact (transpose_ix2_apply (k1_pay7 (F := Ideal) v8) transposes_S512x512_p1_0_S512x512 d j).trans (pay7_apply v8 j d)

/-- The new running maximum of row r: the old one against the maximum, from ⊥, of the row of scores. -/
theorem pay9_apply (r : Fin 512) :
    k1_pay9 (F := Ideal) v3 v8 v12 (ix2 r (0 : Fin 1))
      = max (v12 (ix2 r (0 : Fin 1))) ((Finset.univ : Finset (Fin 512)).fold max (⊥ : EReal) (fun j => k1_pay8 (F := Ideal) v3 v8 (ix2 r j))) := by
  unfold k1_pay9
  refine congrArg (max (v12 (ix2 r (0 : Fin 1)))) ?_
  refine (shapeCast_a_a1_apply _ shapeCasts_S512_S512x1 r (0 : Fin 1)).trans ?_
  refine (multiReduction_maximumf_row (k1_pay8 (F := Ideal) v3 v8) 0xFF800000#32 reduces_S512x512_S512 (.inl rfl) rfl r).trans ?_
  rw [Cert.AttnSpec.ofBits_neg_inf_f32]

/-- The rescaling factor of row r: exp of an old maximum less the new one. -/
theorem pay10_apply (r : Fin 512) :
    k1_pay10 (F := Ideal) v3 v8 v12 v16 (ix2 r (0 : Fin 1))
      = Ideal.exp (v16 (ix2 r (0 : Fin 1)) - k1_pay9 (F := Ideal) v3 v8 v12 (ix2 r (0 : Fin 1))) := rfl

/-- The shifted exponentials: exp of the score less the new maximum of its row. -/
theorem pay11_apply (r j : Fin 512) :
    k1_pay11 (F := Ideal) v3 v8 v12 (ix2 r j)
      = Ideal.exp (k1_pay8 (F := Ideal) v3 v8 (ix2 r j) - k1_pay9 (F := Ideal) v3 v8 v12 (ix2 r (0 : Fin 1))) := by
  unfold k1_pay11
  exact congrArg (fun z => Ideal.exp (k1_pay8 (F := Ideal) v3 v8 (ix2 r j) - z))
    (broadcastTo_a1_ab_apply (k1_pay9 (F := Ideal) v3 v8 v12) broadcasts_S512x1_S512x512 r j)

/-- The new denominator of row r: the rescaled old one plus the sum of the row's shifted exponentials. -/
theorem pay12_apply (r : Fin 512) :
    k1_pay12 (F := Ideal) v3 v8 v12 v16 v22 (ix2 r (0 : Fin 1))
      = k1_pay10 (F := Ideal) v3 v8 v12 v16 (ix2 r (0 : Fin 1)) * v22 (ix2 r (0 : Fin 1))
        + ∑ j : Fin 512, k1_pay11 (F := Ideal) v3 v8 v12 (ix2 r j) := by
  unfold k1_pay12
  refine (congrFun (shapeCast_self _ shapeCasts_S512x1_S512x1) (ix2 r (0 : Fin 1))).trans ?_
  refine congrArg (k1_pay10 (F := Ideal) v3 v8 v12 v16 (ix2 r (0 : Fin 1)) * v22 (ix2 r (0 : Fin 1)) + ·) ?_
  refine (shapeCast_a_a1_apply _ shapeCasts_S512_S512x1 r (0 : Fin 1)).trans ?_
  exact multiReduction_add_row (k1_pay11 (F := Ideal) v3 v8 v12) 0x00000000#32 reduces_S512x512_S512 (.inl rfl) rfl r

/-- The rescaled numerator: row r of the old one times the row's rescaling factor. -/
theorem pay13_apply (r d : Fin 512) :
    k1_pay13 (F := Ideal) v3 v8 v12 v16 v30 (ix2 r d)
      = k1_pay10 (F := Ideal) v3 v8 v12 v16 (ix2 r (0 : Fin 1)) * v30 (ix2 r d) := by
  unfold k1_pay13
  exact congrArg (· * v30 (ix2 r d))
    (broadcastTo_a1_ab_apply (k1_pay10 (F := Ideal) v3 v8 v12 v16) broadcasts_S512x1_S512x512 r d)

/-- The shifted exponentials handed to the second product: a format change is the identity on extended reals. -/
theorem pay14_apply (r j : Fin 512) :
    k1_pay14 (F := Ideal) v3 v8 v12 (ix2 r j) = k1_pay11 (F := Ideal) v3 v8 v12 (ix2 r j) := rfl

end Step

/-- The new numerator: the rescaled old one plus the shifted exponentials times the key tile. -/
theorem pay1_apply (v9 : FVec Ideal S512x512 .bf16) (v32 : FVec Ideal S512x512 .f32) (v33 : FVec Ideal S512x512 .bf16)
    (r d : Fin 512) :
    k1_pay1 (F := Ideal) v9 v32 v33 (ix2 r d) = v32 (ix2 r d) + ∑ j : Fin 512, v33 (ix2 r j) * v9 (ix2 j d) := by
  unfold k1_pay1
  refine (congrFun (shapeCast_self _ shapeCasts_S512x512_S512x512) (ix2 r d)).trans ?_
  exact congrArg (v32 (ix2 r d) + ·) (matmulSq_apply v33 v9 r d)

/-- The new running maximum is stored as it is. -/
theorem pay2_eq (v15 : FVec Ideal S512x1 .f32) : k1_pay2 (F := Ideal) v15 = v15 := by
  unfold k1_pay2
  exact shapeCast_self v15 shapeCasts_S512x1_S512x1

/-- The output tile: row r of the numerator over the row's denominator, times the decoder's matrix, plus its bias. -/
theorem pay3_apply (v45 : Vec Ideal S512x512 .f32) (v46 : Vec Ideal S512x1 .f32) (v50 : Vec Ideal S512x256 .f32)
    (v53 : Vec Ideal S256 .f32) (r : Fin 512) (h : Fin 256) :
    k1_pay3 (F := Ideal) v45 v46 v50 v53 (ix3 (0 : Fin 1) r h)
      = (∑ d : Fin 512, Ideal.div (v45 (ix2 r d)) (v46 (ix2 r (0 : Fin 1))) * v50 (ix2 d h)) + v53 (ix1 h) := by
  unfold k1_pay3
  refine (shapeCast_ab_1ab_apply _ shapeCasts_S512x256_S1x512x256 (0 : Fin 1) r h).trans ?_
  refine congrArg₂ (· + ·) ?_ ?_
  · refine (matmulDec_apply _ _ r h).trans (Finset.sum_congr rfl fun d _ => ?_)
    exact congrArg (fun z => Ideal.div (v45 (ix2 r d)) z * v50 (ix2 d h))
      (broadcastTo_a1_ab_apply v46 broadcasts_S512x1_S512x512 r d)
  · exact (broadcastTo_1b_ab_apply _ broadcasts_S1x256_S512x256 r h).trans
      (shapeCast_a_1a_apply v53 shapeCasts_S256_S1x256 (0 : Fin 1) h)

/-! ## The starting statistics -/

/-- The running maximum starts at −∞, which is ⊥. -/
theorem pay4_apply (r : Fin 512) : k1_pay4 (F := Ideal) (ix2 r (0 : Fin 1)) = (⊥ : EReal) := by
  unfold k1_pay4
  refine (congrFun (shapeCast_self _ shapeCasts_S512x1_S512x1) (ix2 r (0 : Fin 1))).trans ?_
  exact Cert.AttnSpec.ofBits_neg_inf_f32

/-- The denominator starts at 0. -/
theorem pay5_apply (r : Fin 512) : k1_pay5 (F := Ideal) (ix2 r (0 : Fin 1)) = (0 : EReal) := by
  unfold k1_pay5
  refine (congrFun (shapeCast_self _ shapeCasts_S512x1_S512x1) (ix2 r (0 : Fin 1))).trans ?_
  exact Ideal.ofBits_zero_f32

/-- The numerator starts at 0. -/
theorem pay6_apply (r d : Fin 512) : k1_pay6 (F := Ideal) (ix2 r d) = (0 : EReal) := by
  unfold k1_pay6
  refine (congrFun (shapeCast_self _ shapeCasts_S512x512_S512x512) (ix2 r d)).trans ?_
  exact Ideal.ofBits_zero_f32

end Cert.KernelIdeal.AttnPay

end
-- ==== Proof.LibOnlineSoftmax.lean ====
/-
  Online softmax over blocks equals the exact softmax, on the extended reals.

  Data (one query row, one output column; a caller with several output columns applies the
  theorems once per column): a block width `n` with `0 < n`, block scores `s : ℕ → Fin n → ℝ`
  (block `k`'s scores `s k j`) and block values `v : ℕ → Fin n → ℝ`. Everything the scores and
  values range over is REAL; the running state lives on the extended reals because it starts
  from `⊥`.

  The running state (`blockMax`, `runMax`, `rescale`, `weight`, `runSum`, `runAcc`):
    μ k     = Finset.univ.sup (fun j => (s k j : EReal))              (`blockMax s k`;
              `blockMax_eq_fold`: it is also `Finset.univ.fold max ⊥ (fun j => (s k j : EReal))`)
    m 0     = ⊥,      m (k+1)   = max (m k) (μ k)                                 (`runMax s`)
    a k     = Ideal.exp (m k - m (k+1))                                           (`rescale s k`)
    p k j   = Ideal.exp ((s k j : EReal) - m (k+1))                               (`weight s k j`)
    l 0     = 0,      l (k+1)   = a k * l k + (0 + ∑ j, p k j)                    (`runSum s`)
    acc 0   = 0,      acc (k+1) = a k * acc k + ∑ j, p k j * (v k j : EReal)      (`runAcc s v`)
  `eq_run`: any three sequences that start at `⊥, 0, 0` and satisfy these recurrences are
  `runMax s`, `runSum s`, `runAcc s v`.

  (1) The invariant (`invariant`; the parts `coe_realMax`, `runSum_succ_eq`, `runAcc_succ_eq`).
      With `realMax s k : ℝ` the real number `(runMax s k).toReal`, for `1 ≤ k`:
        runMax s k   = (realMax s k : EReal)
                     = the maximum over k' < k and j of (s k' j : EReal)   (`runMax_eq_sup`, every k),
        runSum s k   = ((∑ k' ∈ range k, ∑ j, Real.exp (s k' j - realMax s k) : ℝ) : EReal),
        runAcc s v k = ((∑ k' ∈ range k, ∑ j, Real.exp (s k' j - realMax s k) * v k' j : ℝ) : EReal).
      The first step multiplies the zero state by whatever `exp (⊥ - m 1)` is; a later step is
      `exp (M - M') * exp (x - M) = exp (x - M')` on the reals.

  (2) The closing law (`closing`, and `closing_sup` with the literal maximum), for `0 < K`:
        Ideal.div (runAcc s v K) (runSum s K)
          = ∑ k' ∈ range K, ∑ j, Ideal.div (Ideal.exp ((s k' j : EReal) - Mtot)) Ztot * (v k' j : EReal)
      where `Mtot = max ⊥ ((range K).sup fun k' => Finset.univ.sup fun j => (s k' j : EReal))` and
      `Ztot = 0 + ∑ k' ∈ range K, ∑ j, Ideal.exp ((s k' j : EReal) - Mtot)`: the blockwise
      accumulator over the blockwise normaliser is the sum over all keys of softmax weight times
      value. Both sides are one real number, `A / L` with `L > 0` (there is a key: `0 < K`, `0 < n`).

  (3) The flat key index (`sum_flat`, `sup_flat`, `runMax_eq_flat_sup`, `closing_flat`). A key
      `t : Fin (K * n)` lies in block `t / n` at position `t % n`. For any `F : ℕ → Fin n → M`:
        ∑ t : Fin (K * n), F (t / n) ⟨t % n, _⟩ = ∑ k' ∈ range K, ∑ j, F k' j,
        Finset.univ.sup (fun t : Fin (K * n) => F (t / n) ⟨t % n, _⟩)
          = (range K).sup fun k' => Finset.univ.sup (F k')                      (`M = EReal`),
      and `closing_flat` is the closing law with every sum and the maximum over the flat index:
      with `Mtot = max ⊥ (Finset.univ.sup fun t : Fin (K * n) => (s (t / n) ⟨t % n, _⟩ : EReal))`
      and `Ztot = 0 + ∑ t : Fin (K * n), Ideal.exp ((s (t / n) ⟨t % n, _⟩ : EReal) - Mtot)`,
        Ideal.div (runAcc s v K) (runSum s K)
          = ∑ t : Fin (K * n), Ideal.div (Ideal.exp ((s (t / n) ⟨t % n, _⟩ : EReal) - Mtot)) Ztot
                * (v (t / n) ⟨t % n, _⟩ : EReal).
-/
import Idealize.ShloMosaic.PureOps.Ideal
import Idealize.ShloMosaic.PureOps.Ideal.Laws

noncomputable section

namespace OnlineSoftmax

open Idealize.ShloMosaic
open scoped BigOperators

variable {n : ℕ}

/-! ### Coercion of a finite sum of reals -/

/-- The coercion of a finite sum of reals is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- `exp` of a difference of two reals, computed on the extended reals, is the real `exp`. -/
theorem exp_coe_sub_coe (x y : ℝ) :
    Ideal.exp ((x : EReal) - (y : EReal)) = ((Real.exp (x - y) : ℝ) : EReal) := by
  rw [← EReal.coe_sub, Ideal.exp_coe]

/-! ### The running state -/

/-- Block `k`'s maximum score, taken from `⊥`. -/
def blockMax (s : ℕ → Fin n → ℝ) (k : ℕ) : EReal :=
  Finset.univ.sup fun j => ((s k j : ℝ) : EReal)

/-- The running maximum: `⊥` before the first block. -/
def runMax (s : ℕ → Fin n → ℝ) : ℕ → EReal
  | 0 => ⊥
  | k + 1 => max (runMax s k) (blockMax s k)

/-- The factor that moves the old state to the new maximum. -/
def rescale (s : ℕ → Fin n → ℝ) (k : ℕ) : EReal :=
  Ideal.exp (runMax s k - runMax s (k + 1))

/-- Block `k`'s unnormalised weights against the new maximum. -/
def weight (s : ℕ → Fin n → ℝ) (k : ℕ) (j : Fin n) : EReal :=
  Ideal.exp (((s k j : ℝ) : EReal) - runMax s (k + 1))

/-- The running normaliser. -/
def runSum (s : ℕ → Fin n → ℝ) : ℕ → EReal
  | 0 => 0
  | k + 1 => rescale s k * runSum s k + (0 + ∑ j, weight s k j)

/-- The running accumulator of one output column. -/
def runAcc (s v : ℕ → Fin n → ℝ) : ℕ → EReal
  | 0 => 0
  | k + 1 => rescale s k * runAcc s v k + ∑ j, weight s k j * ((v k j : ℝ) : EReal)

theorem runMax_zero (s : ℕ → Fin n → ℝ) : runMax s 0 = ⊥ := rfl
theorem runMax_succ (s : ℕ → Fin n → ℝ) (k : ℕ) :
    runMax s (k + 1) = max (runMax s k) (blockMax s k) := rfl
theorem runSum_zero (s : ℕ → Fin n → ℝ) : runSum s 0 = 0 := rfl
theorem runSum_succ (s : ℕ → Fin n → ℝ) (k : ℕ) :
    runSum s (k + 1) = rescale s k * runSum s k + (0 + ∑ j, weight s k j) := rfl
theorem runAcc_zero (s v : ℕ → Fin n → ℝ) : runAcc s v 0 = 0 := rfl
theorem runAcc_succ (s v : ℕ → Fin n → ℝ) (k : ℕ) :
    runAcc s v (k + 1)
      = rescale s k * runAcc s v k + ∑ j, weight s k j * ((v k j : ℝ) : EReal) := rfl

/-- A block maximum read as a fold of `max` from the accumulator `⊥`. -/
theorem blockMax_eq_fold (s : ℕ → Fin n → ℝ) (k : ℕ) :
    Finset.univ.fold max ⊥ (fun j => ((s k j : ℝ) : EReal)) = blockMax s k := rfl

/-- Any three sequences that start at `⊥`, `0`, `0` and obey the recurrences are the running state. -/
theorem eq_run (s v : ℕ → Fin n → ℝ) (m l acc : ℕ → EReal)
    (hm0 : m 0 = ⊥) (hl0 : l 0 = 0) (ha0 : acc 0 = 0)
    (hm : ∀ k, m (k + 1) = max (m k) (Finset.univ.sup fun j => ((s k j : ℝ) : EReal)))
    (hl : ∀ k, l (k + 1) = Ideal.exp (m k - m (k + 1)) * l k
        + (0 + ∑ j, Ideal.exp (((s k j : ℝ) : EReal) - m (k + 1))))
    (hacc : ∀ k, acc (k + 1) = Ideal.exp (m k - m (k + 1)) * acc k
        + ∑ j, Ideal.exp (((s k j : ℝ) : EReal) - m (k + 1)) * ((v k j : ℝ) : EReal)) :
    ∀ k, m k = runMax s k ∧ l k = runSum s k ∧ acc k = runAcc s v k := by
  have hmk : ∀ k, m k = runMax s k := by
    intro k
    induction k with
    | zero => exact hm0
    | succ k ih => rw [hm, ih]; rfl
  intro k
  induction k with
  | zero => exact ⟨hm0, hl0, ha0⟩
  | succ k ih =>
    refine ⟨hmk _, ?_, ?_⟩
    · rw [hl, ih.2.1, hmk k, hmk (k + 1)]; rfl
    · rw [hacc, ih.2.2, hmk k, hmk (k + 1)]; rfl

/-! ### The running maximum is a real number after the first block -/

theorem le_blockMax (s : ℕ → Fin n → ℝ) (k : ℕ) (j : Fin n) :
    ((s k j : ℝ) : EReal) ≤ blockMax s k :=
  Finset.le_sup (f := fun j => ((s k j : ℝ) : EReal)) (Finset.mem_univ j)

theorem blockMax_ne_top (s : ℕ → Fin n → ℝ) (k : ℕ) : blockMax s k ≠ ⊤ := by
  have h : blockMax s k < ⊤ := by
    unfold blockMax
    rw [Finset.sup_lt_iff bot_lt_top]
    intro j _
    exact EReal.coe_lt_top _
  exact h.ne

theorem blockMax_ne_bot (hn : 0 < n) (s : ℕ → Fin n → ℝ) (k : ℕ) : blockMax s k ≠ ⊥ := by
  intro h
  have h1 := le_blockMax s k ⟨0, hn⟩
  rw [h] at h1
  exact absurd h1 (not_le.mpr (EReal.bot_lt_coe _))

theorem runMax_ne_top (s : ℕ → Fin n → ℝ) : ∀ k, runMax s k ≠ ⊤
  | 0 => bot_ne_top
  | k + 1 => by
    rw [runMax_succ]
    rcases max_choice (runMax s k) (blockMax s k) with h | h <;> rw [h]
    · exact runMax_ne_top s k
    · exact blockMax_ne_top s k

theorem runMax_succ_ne_bot (hn : 0 < n) (s : ℕ → Fin n → ℝ) (k : ℕ) : runMax s (k + 1) ≠ ⊥ := by
  intro h
  have h1 : blockMax s k ≤ runMax s (k + 1) := le_max_right _ _
  rw [h] at h1
  exact blockMax_ne_bot hn s k (le_bot_iff.mp h1)

/-- The running maximum is the maximum over the blocks so far of the block maxima. -/
theorem runMax_eq_sup (s : ℕ → Fin n → ℝ) (k : ℕ) :
    runMax s k = (Finset.range k).sup fun k' => Finset.univ.sup fun j => ((s k' j : ℝ) : EReal) := by
  induction k with
  | zero => rw [Finset.range_zero, Finset.sup_empty]; rfl
  | succ k ih => rw [Finset.range_add_one, Finset.sup_insert, ← ih, runMax_succ, max_comm]; rfl

/-- The running maximum as a real number. -/
def realMax (s : ℕ → Fin n → ℝ) (k : ℕ) : ℝ := (runMax s k).toReal

/-- After the first block the running maximum IS that real number. -/
theorem coe_realMax (hn : 0 < n) (s : ℕ → Fin n → ℝ) (k : ℕ) :
    ((realMax s (k + 1) : ℝ) : EReal) = runMax s (k + 1) :=
  EReal.coe_toReal (runMax_ne_top s _) (runMax_succ_ne_bot hn s k)

theorem weight_eq (hn : 0 < n) (s : ℕ → Fin n → ℝ) (k : ℕ) (j : Fin n) :
    weight s k j = ((Real.exp (s k j - realMax s (k + 1)) : ℝ) : EReal) := by
  unfold weight
  rw [← coe_realMax hn s k, exp_coe_sub_coe]

theorem rescale_succ_eq (hn : 0 < n) (s : ℕ → Fin n → ℝ) (k : ℕ) :
    rescale s (k + 1) = ((Real.exp (realMax s (k + 1) - realMax s (k + 2)) : ℝ) : EReal) := by
  unfold rescale
  rw [← coe_realMax hn s k, ← coe_realMax hn s (k + 1), exp_coe_sub_coe]

theorem block_term_eq (hn : 0 < n) (s v : ℕ → Fin n → ℝ) (k : ℕ) :
    ∑ j, weight s k j * ((v k j : ℝ) : EReal)
      = ((∑ j, Real.exp (s k j - realMax s (k + 1)) * v k j : ℝ) : EReal) := by
  rw [coe_sum]
  refine Finset.sum_congr rfl fun j _ => ?_
  rw [weight_eq hn, EReal.coe_mul]

/-! ### (1) The invariant -/

/-- The accumulator after `k + 1` blocks is the real sum of `exp (score - max) * value`. -/
theorem runAcc_succ_eq (hn : 0 < n) (s v : ℕ → Fin n → ℝ) (k : ℕ) :
    runAcc s v (k + 1)
      = ((∑ k' ∈ Finset.range (k + 1), ∑ j, Real.exp (s k' j - realMax s (k + 1)) * v k' j : ℝ) : EReal) := by
  induction k with
  | zero =>
    rw [runAcc_succ, runAcc_zero, mul_zero, zero_add, block_term_eq hn, Finset.sum_range_one]
  | succ k ih =>
    rw [runAcc_succ, ih, rescale_succ_eq hn, block_term_eq hn, ← EReal.coe_mul, ← EReal.coe_add]
    congr 1
    rw [Finset.sum_range_succ _ (k + 1), Finset.mul_sum]
    congr 1
    refine Finset.sum_congr rfl fun k' _ => ?_
    rw [Finset.mul_sum]
    refine Finset.sum_congr rfl fun j _ => ?_
    rw [← mul_assoc, ← Real.exp_add]
    congr 2
    ring

/-- The normaliser is the accumulator of the all-ones values. -/
theorem runSum_eq_runAcc_one (s : ℕ → Fin n → ℝ) (k : ℕ) :
    runSum s k = runAcc s (fun _ _ => 1) k := by
  induction k with
  | zero => rfl
  | succ k ih =>
    rw [runSum_succ, runAcc_succ, ih, zero_add]
    simp only [EReal.coe_one, mul_one]

/-- The normaliser after `k + 1` blocks is the real sum of `exp (score - max)`. -/
theorem runSum_succ_eq (hn : 0 < n) (s : ℕ → Fin n → ℝ) (k : ℕ) :
    runSum s (k + 1)
      = ((∑ k' ∈ Finset.range (k + 1), ∑ j, Real.exp (s k' j - realMax s (k + 1)) : ℝ) : EReal) := by
  rw [runSum_eq_runAcc_one, runAcc_succ_eq hn]
  simp only [mul_one]

/-- The invariant: after `k ≥ 1` blocks the maximum, the normaliser and the accumulator are
    the real maximum so far and the two real sums taken against it. -/
theorem invariant (hn : 0 < n) (s v : ℕ → Fin n → ℝ) {k : ℕ} (hk : 1 ≤ k) :
    runMax s k = ((realMax s k : ℝ) : EReal)
    ∧ runSum s k = ((∑ k' ∈ Finset.range k, ∑ j, Real.exp (s k' j - realMax s k) : ℝ) : EReal)
    ∧ runAcc s v k
        = ((∑ k' ∈ Finset.range k, ∑ j, Real.exp (s k' j - realMax s k) * v k' j : ℝ) : EReal) := by
  obtain ⟨k, rfl⟩ : ∃ k', k = k' + 1 := ⟨k - 1, by omega⟩
  exact ⟨(coe_realMax hn s k).symm, runSum_succ_eq hn s k, runAcc_succ_eq hn s v k⟩

/-! ### (2) The closing law -/

theorem realSum_pos (hn : 0 < n) (s : ℕ → Fin n → ℝ) (k : ℕ) (M : ℝ) :
    0 < ∑ k' ∈ Finset.range (k + 1), ∑ j, Real.exp (s k' j - M) := by
  haveI : Nonempty (Fin n) := ⟨⟨0, hn⟩⟩
  refine Finset.sum_pos (fun k' _ => Finset.sum_pos (fun j _ => Real.exp_pos _) Finset.univ_nonempty) ?_
  exact ⟨0, Finset.mem_range.mpr (Nat.succ_pos k)⟩

/-- The closing law, for any way of writing the total maximum and the total normaliser:
    the blockwise accumulator over the blockwise normaliser is the sum over all keys of the
    softmax weight times the value. -/
theorem closing (hn : 0 < n) (s v : ℕ → Fin n → ℝ) {K : ℕ} (hK : 0 < K) (Mtot Ztot : EReal)
    (hM : Mtot = runMax s K)
    (hZ : Ztot = 0 + ∑ k' ∈ Finset.range K, ∑ j, Ideal.exp (((s k' j : ℝ) : EReal) - Mtot)) :
    Ideal.div (runAcc s v K) (runSum s K)
      = ∑ k' ∈ Finset.range K, ∑ j,
          Ideal.div (Ideal.exp (((s k' j : ℝ) : EReal) - Mtot)) Ztot * ((v k' j : ℝ) : EReal) := by
  obtain ⟨k, rfl⟩ : ∃ k', K = k' + 1 := ⟨K - 1, by omega⟩
  have hL := realSum_pos hn s k (realMax s (k + 1))
  have hZ' : Ztot
      = ((∑ k' ∈ Finset.range (k + 1), ∑ j, Real.exp (s k' j - realMax s (k + 1)) : ℝ) : EReal) := by
    rw [hZ, hM, zero_add, coe_sum]
    refine Finset.sum_congr rfl fun k' _ => ?_
    rw [coe_sum]
    refine Finset.sum_congr rfl fun j _ => ?_
    rw [← coe_realMax hn s k, exp_coe_sub_coe]
  rw [runAcc_succ_eq hn, runSum_succ_eq hn, hZ', Ideal.div_coe hL.ne', ← EReal.coe_mul, hM]
  have hterm : ∀ k' (j : Fin n),
      Ideal.div (Ideal.exp (((s k' j : ℝ) : EReal) - runMax s (k + 1)))
          ((∑ k' ∈ Finset.range (k + 1), ∑ j, Real.exp (s k' j - realMax s (k + 1)) : ℝ) : EReal)
        * ((v k' j : ℝ) : EReal)
      = ((Real.exp (s k' j - realMax s (k + 1))
          * (1 / ∑ k' ∈ Finset.range (k + 1), ∑ j, Real.exp (s k' j - realMax s (k + 1)))
          * v k' j : ℝ) : EReal) := by
    intro k' j
    rw [Ideal.div_coe hL.ne', ← coe_realMax hn s k, exp_coe_sub_coe, ← EReal.coe_mul, ← EReal.coe_mul]
  simp only [hterm]
  simp only [← coe_sum]
  congr 1
  rw [Finset.sum_mul]
  refine Finset.sum_congr rfl fun k' _ => ?_
  rw [Finset.sum_mul]
  refine Finset.sum_congr rfl fun j _ => ?_
  ring

/-- The closing law with the total maximum written as `max ⊥` of the maximum over all keys, and
    the normaliser summed from the zero accumulator. -/
theorem closing_sup (hn : 0 < n) (s v : ℕ → Fin n → ℝ) {K : ℕ} (hK : 0 < K) :
    Ideal.div (runAcc s v K) (runSum s K)
      = ∑ k' ∈ Finset.range K, ∑ j,
          Ideal.div
            (Ideal.exp (((s k' j : ℝ) : EReal)
              - max ⊥ ((Finset.range K).sup fun k' => Finset.univ.sup fun j => ((s k' j : ℝ) : EReal))))
            (0 + ∑ k' ∈ Finset.range K, ∑ j,
              Ideal.exp (((s k' j : ℝ) : EReal)
                - max ⊥ ((Finset.range K).sup fun k' => Finset.univ.sup fun j => ((s k' j : ℝ) : EReal))))
          * ((v k' j : ℝ) : EReal) :=
  closing hn s v hK _ _ (by rw [max_bot_left, ← runMax_eq_sup]) rfl

/-! ### (3) The flat key index -/

/-- A sum over the flat key index is the sum over blocks of the sums over positions. -/
theorem sum_flat {M : Type*} [AddCommMonoid M] (hn : 0 < n) (K : ℕ) (F : ℕ → Fin n → M) :
    ∑ t : Fin (K * n), F ((t : ℕ) / n) ⟨(t : ℕ) % n, Nat.mod_lt _ hn⟩
      = ∑ k' ∈ Finset.range K, ∑ j, F k' j := by
  rw [Finset.sum_range, ← Fintype.sum_prod_type']
  exact Fintype.sum_equiv finProdFinEquiv.symm _ _ fun t => rfl

/-- A maximum over the flat key index is the maximum over blocks of the block maxima. -/
theorem sup_flat (hn : 0 < n) (K : ℕ) (F : ℕ → Fin n → EReal) :
    (Finset.univ.sup fun t : Fin (K * n) => F ((t : ℕ) / n) ⟨(t : ℕ) % n, Nat.mod_lt _ hn⟩)
      = (Finset.range K).sup fun k' => Finset.univ.sup (F k') := by
  apply le_antisymm
  · refine Finset.sup_le fun t _ => ?_
    have hlt : (t : ℕ) / n < K := Nat.div_lt_of_lt_mul (lt_of_lt_of_eq t.isLt (Nat.mul_comm K n))
    exact le_trans (Finset.le_sup (f := F ((t : ℕ) / n)) (Finset.mem_univ _))
      (Finset.le_sup (f := fun k' => Finset.univ.sup (F k')) (Finset.mem_range.mpr hlt))
  · refine Finset.sup_le fun k' hk' => Finset.sup_le fun j _ => ?_
    have hk : k' < K := Finset.mem_range.mp hk'
    have hlt : k' * n + j < K * n := by
      calc k' * n + j < k' * n + n := Nat.add_lt_add_left j.isLt _
        _ = (k' + 1) * n := (Nat.succ_mul k' n).symm
        _ ≤ K * n := Nat.mul_le_mul_right n hk
    have h1 : (k' * n + j) / n = k' := by
      rw [Nat.mul_comm, Nat.mul_add_div hn, Nat.div_eq_of_lt j.isLt, Nat.add_zero]
    have h2 : (k' * n + j) % n = j := by
      rw [Nat.mul_comm, Nat.mul_add_mod, Nat.mod_eq_of_lt j.isLt]
    have h3 : F k' j = F ((k' * n + j) / n) ⟨(k' * n + j) % n, Nat.mod_lt _ hn⟩ := by
      rw [h1]
      congr 1
      exact Fin.ext h2.symm
    rw [h3]
    exact Finset.le_sup
      (f := fun t : Fin (K * n) => F ((t : ℕ) / n) ⟨(t : ℕ) % n, Nat.mod_lt _ hn⟩)
      (Finset.mem_univ (⟨k' * n + j, hlt⟩ : Fin (K * n)))

/-- The running maximum after `K` blocks is the maximum over all `K * n` keys. -/
theorem runMax_eq_flat_sup (hn : 0 < n) (s : ℕ → Fin n → ℝ) (K : ℕ) :
    runMax s K
      = Finset.univ.sup fun t : Fin (K * n) =>
          ((s ((t : ℕ) / n) ⟨(t : ℕ) % n, Nat.mod_lt _ hn⟩ : ℝ) : EReal) := by
  rw [runMax_eq_sup, sup_flat hn K fun k' j => ((s k' j : ℝ) : EReal)]

/-- The closing law with every sum and the maximum taken over the flat key index. -/
theorem closing_flat (hn : 0 < n) (s v : ℕ → Fin n → ℝ) {K : ℕ} (hK : 0 < K) (Mtot Ztot : EReal)
    (hM : Mtot = max ⊥ (Finset.univ.sup fun t : Fin (K * n) =>
      ((s ((t : ℕ) / n) ⟨(t : ℕ) % n, Nat.mod_lt _ hn⟩ : ℝ) : EReal)))
    (hZ : Ztot = 0 + ∑ t : Fin (K * n),
      Ideal.exp (((s ((t : ℕ) / n) ⟨(t : ℕ) % n, Nat.mod_lt _ hn⟩ : ℝ) : EReal) - Mtot)) :
    Ideal.div (runAcc s v K) (runSum s K)
      = ∑ t : Fin (K * n),
          Ideal.div (Ideal.exp (((s ((t : ℕ) / n) ⟨(t : ℕ) % n, Nat.mod_lt _ hn⟩ : ℝ) : EReal) - Mtot)) Ztot
            * ((v ((t : ℕ) / n) ⟨(t : ℕ) % n, Nat.mod_lt _ hn⟩ : ℝ) : EReal) := by
  rw [sum_flat hn K fun k' j =>
    Ideal.div (Ideal.exp (((s k' j : ℝ) : EReal) - Mtot)) Ztot * ((v k' j : ℝ) : EReal)]
  refine closing hn s v hK Mtot Ztot ?_ ?_
  · rw [hM, max_bot_left, ← runMax_eq_flat_sup hn]
  · rw [hZ, sum_flat hn K fun k' j => Ideal.exp (((s k' j : ℝ) : EReal) - Mtot)]

end OnlineSoftmax

end
-- ==== Proof.AttnTileValueIdeal.lean ====
/-
  One query tile against four key tiles: the kernel's blockwise attention is the exact softmax attention.

  The kernel visits the key tiles one at a time and keeps, per query row, a running maximum, a running denominator
  and a running numerator; after the last tile it divides and applies the decoder. Read at an output index (0, r, h),
  with every entry of the query tile and of the key tiles a real number, the result is

    (∑ d, (∑ t, exp (sc t − M) / Z · key t d) · wd(d,h)) + bd(h)

  over the 2048 keys t of the four tiles laid end to end, where sc t = ∑ d, q(0,r,d) · key t d is the score of row r
  against key t, M is the supremum of the scores and Z = ∑ t, exp (sc t − M): the softmax weights of the row applied to
  the keys, then the decoder.

  Per query row r and output column d the three running statistics obey the recurrences of the online softmax, by
  the readings of the kernel's arithmetic at an index; so they are its running state, and the closing law of the
  online softmax turns the numerator over the denominator into the sum over all keys.
-/
import proofs.«180303_j2181843387116_2_alg».proof.Proof.AttnFoldIdeal
import proofs.«180303_j2181843387116_2_alg».proof.Proof.AttnPayloadsIdeal
import proofs.«180303_j2181843387116_2_alg».proof.Proof.LibOnlineSoftmax

noncomputable section

open scoped BigOperators

namespace Cert.KernelIdeal.AttnTile

open Cert.KernelIdeal Cert.KernelIdeal.Gen Idealize.ShloMosaic Idealize.SL.Sem Idealize.ShloMosaic.ValueIdx
open Cert.KernelIdeal.Attn Cert.KernelIdeal.AttnPay

theorem pos512 : 0 < 512 := by decide

/-! ## The result, over the keys laid end to end -/

/-- Key t of the tiles laid end to end, coordinate d: tile t / 512, row t % 512. -/
def keyAt (ks : ℕ → Vec Ideal S1x512x512 .bf16) (t : Fin 2048) (d : Fin 512) : EReal :=
  ks ((t : ℕ) / 512) (ix3 (0 : Fin 1) (⟨(t : ℕ) % 512, Nat.mod_lt _ pos512⟩ : Fin 512) d)

/-- The score of query row r against key t. -/
def scoreAt (q : Vec Ideal S1x512x512 .bf16) (ks : ℕ → Vec Ideal S1x512x512 .bf16) (r : Fin 512) (t : Fin 2048) : EReal :=
  ∑ d : Fin 512, q (ix3 (0 : Fin 1) r d) * keyAt ks t d

/-- The largest score of query row r: the supremum over the keys. -/
def rowMaxAt (q : Vec Ideal S1x512x512 .bf16) (ks : ℕ → Vec Ideal S1x512x512 .bf16) (r : Fin 512) : EReal :=
  (Finset.univ : Finset (Fin 2048)).sup (fun t => scoreAt q ks r t)

/-- The normaliser of query row r: the sum of the shifted exponentials of its scores. -/
def normAt (q : Vec Ideal S1x512x512 .bf16) (ks : ℕ → Vec Ideal S1x512x512 .bf16) (r : Fin 512) : EReal :=
  ∑ t : Fin 2048, Ideal.exp (scoreAt q ks r t - rowMaxAt q ks r)

/-- The attended entry (r, d): the softmax weights of row r applied to coordinate d of the keys. -/
def attAt (q : Vec Ideal S1x512x512 .bf16) (ks : ℕ → Vec Ideal S1x512x512 .bf16) (r d : Fin 512) : EReal :=
  ∑ t : Fin 2048, Ideal.div (Ideal.exp (scoreAt q ks r t - rowMaxAt q ks r)) (normAt q ks r) * keyAt ks t d

/-! ## The closing law of the online softmax at four blocks of 512, over `Fin 2048` -/

/-- Four blocks of 512 keys: the numerator over the denominator is the sum over the 2048 keys of softmax weight times
    value, the maximum and the normaliser given without the redundant `max ⊥` and `0 +`. -/
theorem closing_2048 (s v : ℕ → Fin 512 → ℝ) (Mtot Ztot : EReal)
    (hM : Mtot = (Finset.univ : Finset (Fin 2048)).sup fun t =>
      ((s ((t : ℕ) / 512) ⟨(t : ℕ) % 512, Nat.mod_lt _ pos512⟩ : ℝ) : EReal))
    (hZ : Ztot = ∑ t : Fin 2048,
      Ideal.exp (((s ((t : ℕ) / 512) ⟨(t : ℕ) % 512, Nat.mod_lt _ pos512⟩ : ℝ) : EReal) - Mtot)) :
    Ideal.div (OnlineSoftmax.runAcc s v 4) (OnlineSoftmax.runSum s 4)
      = ∑ t : Fin 2048,
          Ideal.div (Ideal.exp (((s ((t : ℕ) / 512) ⟨(t : ℕ) % 512, Nat.mod_lt _ pos512⟩ : ℝ) : EReal) - Mtot)) Ztot
            * ((v ((t : ℕ) / 512) ⟨(t : ℕ) % 512, Nat.mod_lt _ pos512⟩ : ℝ) : EReal) :=
  OnlineSoftmax.closing_flat (n := 512) pos512 s v (K := 4) (by decide) Mtot Ztot
    (by rw [max_bot_left]; exact hM) (by rw [zero_add]; exact hZ)

/-! ## The running statistics of one query row are the online softmax's -/

section Row

variable (q : Vec Ideal S1x512x512 .bf16) (ks : ℕ → Vec Ideal S1x512x512 .bf16)
  (qr : S1x512x512.Idx → ℝ) (kr : ℕ → S1x512x512.Idx → ℝ)

/-- The statistics after the first n key tiles. -/
def states : ℕ → Stats Ideal
  | 0 => stats0
  | n + 1 => step q (ks n) (states n)

/-- The real score of query row r against row j of key tile n. -/
def sreal (r : Fin 512) (n : ℕ) (j : Fin 512) : ℝ :=
  ∑ d : Fin 512, qr (ix3 (0 : Fin 1) r d) * kr n (ix3 (0 : Fin 1) j d)

/-- The real entry (j, d) of key tile n. -/
def vreal (d : Fin 512) (n : ℕ) (j : Fin 512) : ℝ := kr n (ix3 (0 : Fin 1) j d)

variable (hq : ∀ i, q i = ((qr i : ℝ) : EReal)) (hk : ∀ n i, ks n i = ((kr n i : ℝ) : EReal))
include hq hk

/-- A sum of products of real entries is the real sum of products. -/
theorem dot_coe (r : Fin 512) (n : ℕ) (j : Fin 512) :
    ∑ d : Fin 512, q (ix3 (0 : Fin 1) r d) * ks n (ix3 (0 : Fin 1) j d) = ((sreal qr kr r n j : ℝ) : EReal) :=
  (Finset.sum_congr rfl fun d _ =>
      (congrArg₂ (· * ·) (hq _) (hk n _)).trans (EReal.coe_mul _ _).symm).trans
    (OnlineSoftmax.coe_sum _ _).symm

/-- The kernel's score of row r against row j of key tile n is that real number. -/
theorem score_coe (r : Fin 512) (n : ℕ) (j : Fin 512) :
    k1_pay8 (F := Ideal) q (ks n) (ix2 r j) = ((sreal qr kr r n j : ℝ) : EReal) :=
  (pay8_apply q (ks n) r j).trans (dot_coe q ks qr kr hq hk r n j)

/-- The new running maximum of row r is the kernel's maximum payload there. -/
theorem max_succ (r : Fin 512) (n : ℕ) :
    (states q ks (n + 1)).1 (ix2 r (0 : Fin 1)) = k1_pay9 (F := Ideal) q (ks n) (states q ks n).1 (ix2 r (0 : Fin 1)) :=
  congrFun (pay2_eq (k1_pay9 (F := Ideal) q (ks n) (states q ks n).1)) (ix2 r (0 : Fin 1))

/-- The running maximum: the old one against the supremum of the tile's scores. -/
theorem max_step (r : Fin 512) (n : ℕ) :
    (states q ks (n + 1)).1 (ix2 r (0 : Fin 1))
      = max ((states q ks n).1 (ix2 r (0 : Fin 1)))
          ((Finset.univ : Finset (Fin 512)).sup fun j => ((sreal qr kr r n j : ℝ) : EReal)) := by
  refine (max_succ q ks qr kr hq hk r n).trans ((pay9_apply q (ks n) (states q ks n).1 r).trans ?_)
  refine congrArg (max ((states q ks n).1 (ix2 r (0 : Fin 1)))) ?_
  exact congrArg (fun f => (Finset.univ : Finset (Fin 512)).fold max (⊥ : EReal) f)
    (funext fun j => score_coe q ks qr kr hq hk r n j)

/-- The running denominator: the old one rescaled plus the sum of the tile's shifted exponentials. -/
theorem sum_step (r : Fin 512) (n : ℕ) :
    (states q ks (n + 1)).2.1 (ix2 r (0 : Fin 1))
      = Ideal.exp ((states q ks n).1 (ix2 r (0 : Fin 1)) - (states q ks (n + 1)).1 (ix2 r (0 : Fin 1)))
          * (states q ks n).2.1 (ix2 r (0 : Fin 1))
        + (0 + ∑ j : Fin 512, Ideal.exp (((sreal qr kr r n j : ℝ) : EReal) - (states q ks (n + 1)).1 (ix2 r (0 : Fin 1)))) := by
  rw [max_succ q ks qr kr hq hk r n, zero_add]
  refine (pay12_apply q (ks n) (states q ks n).1 (states q ks n).1 (states q ks n).2.1 r).trans ?_
  refine congrArg₂ (· + ·) rfl (Finset.sum_congr rfl fun j _ => ?_)
  rw [pay11_apply, score_coe q ks qr kr hq hk r n j]

/-- The running numerator: the old one rescaled plus the tile's shifted exponentials times its key entries. -/
theorem acc_step (r d : Fin 512) (n : ℕ) :
    (states q ks (n + 1)).2.2 (ix2 r d)
      = Ideal.exp ((states q ks n).1 (ix2 r (0 : Fin 1)) - (states q ks (n + 1)).1 (ix2 r (0 : Fin 1)))
          * (states q ks n).2.2 (ix2 r d)
        + ∑ j : Fin 512, Ideal.exp (((sreal qr kr r n j : ℝ) : EReal) - (states q ks (n + 1)).1 (ix2 r (0 : Fin 1)))
            * ((vreal kr d n j : ℝ) : EReal) := by
  rw [max_succ q ks qr kr hq hk r n]
  refine (pay1_apply (k1_pay7 (F := Ideal) (ks n))
    (k1_pay13 (F := Ideal) q (ks n) (states q ks n).1 (states q ks n).1 (states q ks n).2.2)
    (k1_pay14 (F := Ideal) q (ks n) (states q ks n).1) r d).trans ?_
  refine congrArg₂ (· + ·) (pay13_apply q (ks n) (states q ks n).1 (states q ks n).1 (states q ks n).2.2 r d)
    (Finset.sum_congr rfl fun j _ => ?_)
  rw [pay14_apply, pay11_apply, score_coe q ks qr kr hq hk r n j, pay7_apply, hk]
  rfl

/-- So the statistics of row r (and column d of the numerator) are the online softmax's running state. -/
theorem run_eq (r d : Fin 512) (n : ℕ) :
    (states q ks n).1 (ix2 r (0 : Fin 1)) = OnlineSoftmax.runMax (sreal qr kr r) n
      ∧ (states q ks n).2.1 (ix2 r (0 : Fin 1)) = OnlineSoftmax.runSum (sreal qr kr r) n
      ∧ (states q ks n).2.2 (ix2 r d) = OnlineSoftmax.runAcc (sreal qr kr r) (vreal kr d) n :=
  OnlineSoftmax.eq_run (sreal qr kr r) (vreal kr d)
    (fun n => (states q ks n).1 (ix2 r (0 : Fin 1))) (fun n => (states q ks n).2.1 (ix2 r (0 : Fin 1)))
    (fun n => (states q ks n).2.2 (ix2 r d))
    (pay4_apply r) (pay5_apply r) (pay6_apply r d)
    (max_step q ks qr kr hq hk r) (sum_step q ks qr kr hq hk r) (acc_step q ks qr kr hq hk r d) n

/-- The score of row r against key t of the tiles laid end to end is the real score of its tile and row. -/
theorem score_flat (r : Fin 512) (t : Fin 2048) :
    ((sreal qr kr r ((t : ℕ) / 512) ⟨(t : ℕ) % 512, Nat.mod_lt _ pos512⟩ : ℝ) : EReal) = scoreAt q ks r t :=
  (dot_coe q ks qr kr hq hk r _ _).symm

/-- The key entry likewise. -/
theorem key_flat (d : Fin 512) (t : Fin 2048) :
    ((vreal kr d ((t : ℕ) / 512) ⟨(t : ℕ) % 512, Nat.mod_lt _ pos512⟩ : ℝ) : EReal) = keyAt ks t d :=
  (hk _ _).symm

/-- After four tiles the numerator over the denominator is the attended entry. -/
theorem div_eq_att (r d : Fin 512) :
    Ideal.div ((states q ks 4).2.2 (ix2 r d)) ((states q ks 4).2.1 (ix2 r (0 : Fin 1))) = attAt q ks r d := by
  obtain ⟨-, hl, ha⟩ := run_eq q ks qr kr hq hk r d 4
  rw [ha, hl]
  refine (closing_2048 (sreal qr kr r) (vreal kr d) (rowMaxAt q ks r) (normAt q ks r) ?_ ?_).trans ?_
  · exact congrArg (fun f => (Finset.univ : Finset (Fin 2048)).sup f)
      (funext fun t => (score_flat q ks qr kr hq hk r t).symm)
  · exact Finset.sum_congr rfl fun t _ => by rw [score_flat q ks qr kr hq hk r t]
  · exact Finset.sum_congr rfl fun t _ => by
      rw [score_flat q ks qr kr hq hk r t, key_flat q ks qr kr hq hk d t]

/-- THE TILE'S VALUE: the output tile after four key tiles, at (0, r, h), is the decoder applied to the attended row. -/
theorem tile_value (wd : Vec Ideal S512x256 .f32) (bd : Vec Ideal S256 .f32) (r : Fin 512) (h : Fin 256) :
    finish (states q ks 4) wd bd (ix3 (0 : Fin 1) r h)
      = (∑ d : Fin 512, attAt q ks r d * wd (ix2 d h)) + bd (ix1 h) := by
  refine (pay3_apply (states q ks 4).2.2 (states q ks 4).2.1 wd bd r h).trans ?_
  refine congrArg₂ (· + ·) (Finset.sum_congr rfl fun d _ => ?_) rfl
  exact congrArg (· * wd (ix2 d h)) (div_eq_att q ks qr kr hq hk r d)

end Row

/-! ## Four named tiles -/

/-- Four things as a sequence: the first three, then the fourth for ever. -/
def tiles {α : Type} (a0 a1 a2 a3 : α) : ℕ → α
  | 0 => a0
  | 1 => a1
  | 2 => a2
  | _ => a3

/-- The four steps composed are the statistics after four tiles of that sequence. -/
theorem states_four (q k0 k1 k2 k3 : Vec Ideal S1x512x512 .bf16) :
    states q (tiles k0 k1 k2 k3) 4 = step q k3 (step q k2 (step q k1 (step q k0 stats0))) := rfl

/-- An extended real that is neither infinity is a real number. -/
theorem exists_real_of_ne {x : EReal} (h : x ≠ ⊤ ∧ x ≠ ⊥) : ∃ y : ℝ, x = ((y : ℝ) : EReal) :=
  ⟨x.toReal, (EReal.coe_toReal h.1 h.2).symm⟩

/-- THE TILE'S VALUE for a query tile and four key tiles all of whose entries are real numbers. -/
theorem tile_value_four (q k0 k1 k2 k3 : Vec Ideal S1x512x512 .bf16)
    (hq : ∀ i, ∃ y : ℝ, q i = ((y : ℝ) : EReal)) (h0 : ∀ i, ∃ y : ℝ, k0 i = ((y : ℝ) : EReal))
    (h1 : ∀ i, ∃ y : ℝ, k1 i = ((y : ℝ) : EReal)) (h2 : ∀ i, ∃ y : ℝ, k2 i = ((y : ℝ) : EReal))
    (h3 : ∀ i, ∃ y : ℝ, k3 i = ((y : ℝ) : EReal))
    (wd : Vec Ideal S512x256 .f32) (bd : Vec Ideal S256 .f32) (r : Fin 512) (h : Fin 256) :
    finish (step q k3 (step q k2 (step q k1 (step q k0 stats0)))) wd bd (ix3 (0 : Fin 1) r h)
      = (∑ d : Fin 512, attAt q (tiles k0 k1 k2 k3) r d * wd (ix2 d h)) + bd (ix1 h) := by
  choose qr hqr using hq
  choose r0 hr0 using h0
  choose r1 hr1 using h1
  choose r2 hr2 using h2
  choose r3 hr3 using h3
  have hk : ∀ n i, tiles k0 k1 k2 k3 n i = ((tiles r0 r1 r2 r3 n i : ℝ) : EReal) := by
    intro n i
    match n with
    | 0 => exact hr0 i
    | 1 => exact hr1 i
    | 2 => exact hr2 i
    | _ + 3 => exact hr3 i
  exact tile_value q (tiles k0 k1 k2 k3) qr (tiles r0 r1 r2 r3) hqr hk wd bd r h

end Cert.KernelIdeal.AttnTile

end
-- ==== Proof.FiniteInputs.lean ====
/-
  The precondition decoded: every entry of the five argument arrays is a real number.

  The precondition is the conjunction, over the five arrays, of "every entry `x` has `|x| < +∞`",
  computed as a one-bit word that the claim states to be `1`. On the extended reals `|x|` is
  `max x (-x)` and the word `0x7F800000` denotes `⊤`; `max x (-x) < ⊤` excludes `x = ⊤` and
  `x = ⊥`, so `x` is a real number.

  `IsReal x` says `x = (r : EReal)` for some real `r`; `isReal_iff` restates it as `x ≠ ⊤ ∧ x ≠ ⊥`,
  and `IsReal.coe_toReal` names the real. It is closed under `+`, `*` and finite sums
  (`IsReal.add`, `IsReal.mul`, `IsReal.sum`).

  `entries_real`: from the precondition's equation on five arrays of extended reals, each entry
  of each array is real (`entries_ne` states the same as `≠ ⊤ ∧ ≠ ⊥`).

  In the vocabulary of the index-by-index attention (`Cert.AttnSpec`): if the input, the encoder
  matrix and the encoder bias are entrywise real then every encoded entry and every score is real
  (`enc_isReal`, `score_isReal`), so a row of scores is the coercion of a real-valued function
  (`exists_real_scores`, `exists_real_enc`).
-/
import proofs.«180303_j2181843387116_2_alg».proof.Pre_finite_inputs
import proofs.«180303_j2181843387116_2_alg».proof.Proof.AttnSpec
import Idealize.ShloMosaic.Lib.ReduceAll
import Idealize.ShloMosaic.Lib.ValueIdx
import Idealize.ShloMosaic.PureOps.Ideal.Laws

noncomputable section

open scoped BigOperators

namespace Cert.FiniteInputs

open Idealize.ShloMosaic Cert.Pre_finite_inputs

/-! ### Real extended reals -/

/-- An extended real that is a real number. -/
def IsReal (x : EReal) : Prop := ∃ r : ℝ, x = (r : EReal)

theorem isReal_coe (r : ℝ) : IsReal (r : EReal) := ⟨r, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (ht : x ≠ ⊤) (hb : x ≠ ⊥) : IsReal x :=
  ⟨x.toReal, (EReal.coe_toReal ht hb).symm⟩

theorem isReal_iff (x : EReal) : IsReal x ↔ x ≠ ⊤ ∧ x ≠ ⊥ :=
  ⟨fun h => ⟨h.ne_top, h.ne_bot⟩, fun h => isReal_of_ne h.1 h.2⟩

theorem IsReal.coe_toReal {x : EReal} (h : IsReal x) : ((x.toReal : ℝ) : EReal) = x :=
  EReal.coe_toReal h.ne_top h.ne_bot

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sum {ι : Type*} (t : Finset ι) (f : ι → EReal) (h : ∀ i ∈ t, IsReal (f i)) :
    IsReal (∑ i ∈ t, f i) := by
  classical
  induction t using Finset.induction_on with
  | empty => exact ⟨0, by rw [Finset.sum_empty, EReal.coe_zero]⟩
  | insert a t ha ih =>
    rw [Finset.sum_insert ha]
    exact (h a (Finset.mem_insert_self a t)).add (ih fun i hi => h i (Finset.mem_insert_of_mem hi))

/-! ### One entry: `|x| < +∞` as a one-bit word -/

/-- The f32 word of `+∞` denotes the top of the extended reals. -/
theorem ofBits_pos_inf_f32 : Ideal.ofBits .f32 0x7F800000#32 = (⊤ : EReal) := by
  simp [Ideal.ofBits, Ideal.ieee]

/-- `|x| < ⊤` on the extended reals leaves only the real numbers. -/
theorem isReal_of_abs_lt_top (x : EReal) (h : max x (-x) < ⊤) : IsReal x := by
  induction x using EReal.rec with
  | bot => simp at h
  | top => simp at h
  | coe r => exact isReal_coe r

/-- The comparison word `|x| < +∞` being `1` says `x` is real. -/
theorem isReal_of_word (x : EReal)
    (h : Ideal.cmp .olt (max x (-x)) (Ideal.ofBits .f32 0x7F800000#32) = 1#1) : IsReal x := by
  rw [ofBits_pos_inf_f32] at h
  refine isReal_of_abs_lt_top x ?_
  by_contra hn
  have h0 : Ideal.cmp .olt (max x (-x)) ⊤ = 0#1 := by simp [Ideal.cmp, hn]
  rw [h0] at h
  exact absurd h (by decide)

/-! ### One array: `all (|x| < +∞)` -/

instance : Subsingleton S_.Idx := ⟨fun a b => funext fun d => d.elim0⟩

/-- An array whose `all (|x| < +∞)` word is `1` has only real entries. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) (i : s.Idx) : IsReal (x i) :=
  isReal_of_word (x i) (Host.reduce_andi_all _ _ hr hu _ e i)

/-! ### The precondition -/

/-- The precondition's equation on five arrays of extended reals: every entry of each is real. -/
theorem entries_real [Facts] (x0 : FVec Ideal S8x2048x256 .f32) (x1 : FVec Ideal S256x512 .f32)
    (x2 : FVec Ideal S512 .f32) (x3 : FVec Ideal S512x256 .f32) (x4 : FVec Ideal S256 .f32)
    (h : fn (F := Ideal) x0 x1 x2 x3 x4 = fun _ => 1#1) :
    (∀ i, IsReal (x0 i)) ∧ (∀ i, IsReal (x1 i)) ∧ (∀ i, IsReal (x2 i)) ∧ (∀ i, IsReal (x3 i))
      ∧ (∀ i, IsReal (x4 i)) := by
  have h0 := congrFun h ValueIdx.ix0
  dsimp only [fn, fn_part1, andi] at h0
  rw [IntOp.andi_eq_one, IntOp.andi_eq_one, IntOp.andi_eq_one, IntOp.andi_eq_one] at h0
  obtain ⟨⟨⟨⟨e0, e1⟩, e2⟩, e3⟩, e4⟩ := h0
  exact ⟨all_real x0 _ _ _ e0, all_real x1 _ _ _ e1, all_real x2 _ _ _ e2, all_real x3 _ _ _ e3,
    all_real x4 _ _ _ e4⟩

/-- The same, as "neither infinity". -/
theorem entries_ne [Facts] (x0 : FVec Ideal S8x2048x256 .f32) (x1 : FVec Ideal S256x512 .f32)
    (x2 : FVec Ideal S512 .f32) (x3 : FVec Ideal S512x256 .f32) (x4 : FVec Ideal S256 .f32)
    (h : fn (F := Ideal) x0 x1 x2 x3 x4 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥)
      ∧ (∀ i, x3 i ≠ ⊤ ∧ x3 i ≠ ⊥) ∧ (∀ i, x4 i ≠ ⊤ ∧ x4 i ≠ ⊥) := by
  obtain ⟨r0, r1, r2, r3, r4⟩ := entries_real x0 x1 x2 x3 x4 h
  exact ⟨fun i => (isReal_iff _).mp (r0 i), fun i => (isReal_iff _).mp (r1 i),
    fun i => (isReal_iff _).mp (r2 i), fun i => (isReal_iff _).mp (r3 i), fun i => (isReal_iff _).mp (r4 i)⟩

/-! ### The encoded rows and the scores are real -/

section Attn

variable (x : (⟨3, ![8, 2048, 256]⟩ : Shape).Idx → EReal) (We : (⟨2, ![256, 512]⟩ : Shape).Idx → EReal)
  (be : (⟨1, ![512]⟩ : Shape).Idx → EReal)

/-- Real input, encoder matrix and bias give real encoded entries. -/
theorem enc_isReal (hx : ∀ i, IsReal (x i)) (hW : ∀ i, IsReal (We i)) (hb : ∀ i, IsReal (be i))
    (b : Fin 8) (s : Fin 2048) (d : Fin 512) : IsReal (AttnSpec.enc x We be b s d) :=
  (IsReal.sum _ _ fun _ _ => (hx _).mul (hW _)).add (hb _)

/-- … and real scores. -/
theorem score_isReal (hx : ∀ i, IsReal (x i)) (hW : ∀ i, IsReal (We i)) (hb : ∀ i, IsReal (be i))
    (b : Fin 8) (s t : Fin 2048) : IsReal (AttnSpec.score x We be b s t) :=
  IsReal.sum _ _ fun _ _ => (enc_isReal x We be hx hW hb b s _).mul (enc_isReal x We be hx hW hb b t _)

/-- The encoded array is the coercion of a real-valued one. -/
theorem exists_real_enc (hx : ∀ i, IsReal (x i)) (hW : ∀ i, IsReal (We i)) (hb : ∀ i, IsReal (be i)) :
    ∃ E : Fin 8 → Fin 2048 → Fin 512 → ℝ, ∀ b s d, AttnSpec.enc x We be b s d = ((E b s d : ℝ) : EReal) :=
  ⟨fun b s d => (AttnSpec.enc x We be b s d).toReal,
    fun b s d => (enc_isReal x We be hx hW hb b s d).coe_toReal.symm⟩

/-- The scores are the coercion of a real-valued array. -/
theorem exists_real_scores (hx : ∀ i, IsReal (x i)) (hW : ∀ i, IsReal (We i)) (hb : ∀ i, IsReal (be i)) :
    ∃ S : Fin 8 → Fin 2048 → Fin 2048 → ℝ, ∀ b s t, AttnSpec.score x We be b s t = ((S b s t : ℝ) : EReal) :=
  ⟨fun b s t => (AttnSpec.score x We be b s t).toReal,
    fun b s t => (score_isReal x We be hx hW hb b s t).coe_toReal.symm⟩

end Attn

end Cert.FiniteInputs

end
-- ==== Proof.AttnTileSpecIdeal.lean ====
/-
  The tile's result against the specification.

  When the rows of the query tile are encoded rows of batch b and the keys of the four key tiles laid end to end are the
  2048 encoded rows of the same batch, the scores, their supremum, the shifted exponentials, the normaliser and the
  attended entry computed from the tiles are those of the attention specification, and so the output tile of the
  blockwise kernel, at (0, r, h), is the specification's output at the query row of r. The tiles' entries are then real
  numbers because encoded entries of real inputs are: an encoded entry is a finite sum of products of reals plus a real.
-/
import proofs.«180303_j2181843387116_2_alg».proof.Proof.AttnTileValueIdeal
import proofs.«180303_j2181843387116_2_alg».proof.Proof.AttnSpec
import proofs.«180303_j2181843387116_2_alg».proof.Proof.FiniteInputs

noncomputable section

open scoped BigOperators

namespace Cert.KernelIdeal.AttnTileSpec

open Cert.KernelIdeal Cert.KernelIdeal.Gen Idealize.ShloMosaic Idealize.ShloMosaic.ValueIdx
open Cert.KernelIdeal.Attn Cert.KernelIdeal.AttnTile

/-! ## The tiles' quantities are the specification's -/

section Bridge

variable (x : (⟨3, ![8, 2048, 256]⟩ : Shape).Idx → EReal) (We : (⟨2, ![256, 512]⟩ : Shape).Idx → EReal)
  (be : (⟨1, ![512]⟩ : Shape).Idx → EReal)
  (q : Vec Ideal S1x512x512 .bf16) (ks : ℕ → Vec Ideal S1x512x512 .bf16) (b : Fin 8) (s : Fin 2048) (r : Fin 512)
  (hq : ∀ d, q (ix3 (0 : Fin 1) r d) = Cert.AttnSpec.enc x We be b s d)
  (hk : ∀ t d, keyAt ks t d = Cert.AttnSpec.enc x We be b t d)
include hq hk

/-- With row r of the query tile the encoded row (b, s) and the keys the encoded rows of batch b, the scores are the
    specification's. -/
theorem scoreAt_eq_score (t : Fin 2048) : scoreAt q ks r t = Cert.AttnSpec.score x We be b s t :=
  Finset.sum_congr rfl fun d _ => congrArg₂ (· * ·) (hq d) (hk t d)

/-- So is the row maximum … -/
theorem rowMaxAt_eq_rowMax : rowMaxAt q ks r = Cert.AttnSpec.rowMax x We be b s :=
  congrArg (fun f => (Finset.univ : Finset (Fin 2048)).sup f)
    (funext fun t => scoreAt_eq_score x We be q ks b s r hq hk t)

/-- … the shifted exponentials … -/
theorem exp_eq_e (t : Fin 2048) :
    Ideal.exp (scoreAt q ks r t - rowMaxAt q ks r) = Cert.AttnSpec.e x We be b s t := by
  rw [scoreAt_eq_score x We be q ks b s r hq hk t, rowMaxAt_eq_rowMax x We be q ks b s r hq hk]
  rfl

/-- … the normaliser … -/
theorem normAt_eq_Z : normAt q ks r = Cert.AttnSpec.Z x We be b s :=
  Finset.sum_congr rfl fun t _ => exp_eq_e x We be q ks b s r hq hk t

/-- … and the attended entry: the tile's result is the specification's attended row. -/
theorem attAt_eq_att (d : Fin 512) : attAt q ks r d = Cert.AttnSpec.att x We be b s d := by
  refine Finset.sum_congr rfl fun t _ => ?_
  rw [exp_eq_e x We be q ks b s r hq hk t, normAt_eq_Z x We be q ks b s r hq hk, hk t d]
  rfl

/-- The decoder applied to the tile's attended row is the specification's output entry. -/
theorem out_eq (Wd : Vec Ideal S512x256 .f32) (bd : Vec Ideal S256 .f32) (h : Fin 256) :
    (∑ d : Fin 512, attAt q ks r d * Wd (ix2 d h)) + bd (ix1 h) = Cert.AttnSpec.out x We be Wd bd b s h := by
  unfold Cert.AttnSpec.out
  refine congrArg (· + bd (ix1 h)) (Finset.sum_congr rfl fun d _ => ?_)
  rw [attAt_eq_att x We be q ks b s r hq hk d]

end Bridge

/-! ## The tiles' entries are real -/

/-- Row j of key tile n is key n · 512 + j of the tiles laid end to end. -/
theorem ks_eq_keyAt (ks : ℕ → Vec Ideal S1x512x512 .bf16) (n : ℕ) (hn : n < 4) (j d : Fin 512) :
    ks n (ix3 (0 : Fin 1) j d) = keyAt ks (⟨n * 512 + (j : ℕ), by have := j.isLt; omega⟩ : Fin 2048) d := by
  have h1 : n = (n * 512 + (j : ℕ)) / 512 := by have := j.isLt; omega
  have h2 : (j : ℕ) = (n * 512 + (j : ℕ)) % 512 := by have := j.isLt; omega
  have key : ∀ (n' : ℕ) (j' : Fin 512), n = n' → j = j' →
      ks n (ix3 (0 : Fin 1) j d) = ks n' (ix3 (0 : Fin 1) j' d) := by
    intro n' j' e1 e2; subst e1; subst e2; rfl
  exact key _ _ h1 (Fin.ext h2)

section Real

variable (x : (⟨3, ![8, 2048, 256]⟩ : Shape).Idx → EReal) (We : (⟨2, ![256, 512]⟩ : Shape).Idx → EReal)
  (be : (⟨1, ![512]⟩ : Shape).Idx → EReal)
  (hx : ∀ i, Cert.FiniteInputs.IsReal (x i)) (hW : ∀ i, Cert.FiniteInputs.IsReal (We i))
  (hb : ∀ i, Cert.FiniteInputs.IsReal (be i))
include hx hW hb

/-- A query tile whose rows are encoded rows of real inputs has real entries. -/
theorem query_real (q : Vec Ideal S1x512x512 .bf16) (b : Fin 8) (srow : Fin 512 → Fin 2048)
    (hq : ∀ r d, q (ix3 (0 : Fin 1) r d) = Cert.AttnSpec.enc x We be b (srow r) d) :
    ∀ i, ∃ y : ℝ, q i = ((y : ℝ) : EReal) := by
  intro i
  obtain ⟨u, r, d, rfl⟩ : ∃ (u : Fin 1) (r d : Fin 512), i = ix3 u r d := ⟨i 0, i 1, i 2, eq_ix3 i⟩
  obtain rfl : u = 0 := Subsingleton.elim _ _
  rw [hq r d]
  exact Cert.FiniteInputs.enc_isReal x We be hx hW hb b (srow r) d

/-- Each of the four key tiles whose rows, laid end to end, are the encoded rows of real inputs has real entries. -/
theorem key_real (ks : ℕ → Vec Ideal S1x512x512 .bf16) (b : Fin 8)
    (hk : ∀ t d, keyAt ks t d = Cert.AttnSpec.enc x We be b t d) (n : ℕ) (hn : n < 4) :
    ∀ i, ∃ y : ℝ, ks n i = ((y : ℝ) : EReal) := by
  intro i
  obtain ⟨u, j, d, rfl⟩ : ∃ (u : Fin 1) (j d : Fin 512), i = ix3 u j d := ⟨i 0, i 1, i 2, eq_ix3 i⟩
  obtain rfl : u = 0 := Subsingleton.elim _ _
  rw [ks_eq_keyAt ks n hn j d, hk]
  exact Cert.FiniteInputs.enc_isReal x We be hx hW hb b _ d

/-- THE TILE IS THE SPECIFICATION, one row given: with every entry of the query tile real, its row r the encoded row
    (b, s), and the keys of the four tiles the encoded rows of batch b, the kernel's output tile at (0, r, h) is the
    specification's output at (b, s, h). -/
theorem tile_is_spec_row (q k0 k1 k2 k3 : Vec Ideal S1x512x512 .bf16) (b : Fin 8) (s : Fin 2048) (r : Fin 512)
    (hqreal : ∀ i, ∃ y : ℝ, q i = ((y : ℝ) : EReal))
    (hq : ∀ d, q (ix3 (0 : Fin 1) r d) = Cert.AttnSpec.enc x We be b s d)
    (hk : ∀ t d, keyAt (tiles k0 k1 k2 k3) t d = Cert.AttnSpec.enc x We be b t d)
    (Wd : Vec Ideal S512x256 .f32) (bd : Vec Ideal S256 .f32) (h : Fin 256) :
    finish (step q k3 (step q k2 (step q k1 (step q k0 stats0)))) Wd bd (ix3 (0 : Fin 1) r h)
      = Cert.AttnSpec.out x We be Wd bd b s h :=
  (tile_value_four q k0 k1 k2 k3 hqreal
      (key_real x We be hx hW hb (tiles k0 k1 k2 k3) b hk 0 (by decide))
      (key_real x We be hx hW hb (tiles k0 k1 k2 k3) b hk 1 (by decide))
      (key_real x We be hx hW hb (tiles k0 k1 k2 k3) b hk 2 (by decide))
      (key_real x We be hx hW hb (tiles k0 k1 k2 k3) b hk 3 (by decide)) Wd bd r h).trans
    (out_eq x We be q (tiles k0 k1 k2 k3) b s r hq hk Wd bd h)

/-- THE TILE IS THE SPECIFICATION: with the rows of the query tile the encoded rows (b, srow r) and the keys of the four
    tiles the encoded rows of batch b, all of real inputs, the kernel's output tile at (0, r, h) is the specification's
    output at (b, srow r, h). -/
theorem tile_is_spec (q k0 k1 k2 k3 : Vec Ideal S1x512x512 .bf16) (b : Fin 8) (srow : Fin 512 → Fin 2048)
    (hq : ∀ r d, q (ix3 (0 : Fin 1) r d) = Cert.AttnSpec.enc x We be b (srow r) d)
    (hk : ∀ t d, keyAt (tiles k0 k1 k2 k3) t d = Cert.AttnSpec.enc x We be b t d)
    (Wd : Vec Ideal S512x256 .f32) (bd : Vec Ideal S256 .f32) (r : Fin 512) (h : Fin 256) :
    finish (step q k3 (step q k2 (step q k1 (step q k0 stats0)))) Wd bd (ix3 (0 : Fin 1) r h)
      = Cert.AttnSpec.out x We be Wd bd b (srow r) h :=
  tile_is_spec_row x We be hx hW hb q k0 k1 k2 k3 b (srow r) r (query_real x We be hx hW hb q b srow hq)
    (hq r) hk Wd bd h

end Real

end Cert.KernelIdeal.AttnTileSpec

end
-- ==== Proof.AttnBlocksIdeal.lean ====
/-
  The attention region's input blocks, read at an index.

  The grid's 128 points are (batch, query tile, key tile), the key tile fastest: point t has batch t / 16, query tile
  (t / 4) % 4 and key tile t % 4. At point t the query window holds rows (t / 4) % 4 · 512 … + 511 of batch t / 16 of the
  encoded array, the key window holds all 2048 rows of that batch, and the key tile the body reads from it is rows
  t % 4 · 512 … + 511; the decoder's matrix and bias windows hold their whole arrays. So the four points of a run
  (same t / 4) see the same query tile, key slab, matrix and bias. Generic in the float instance.
-/
import proofs.«180303_j2181843387116_2_alg».proof.Proof.AttnDataIdeal
import Idealize.ShloMosaic.Lib.Pipeline.Value
import Idealize.ShloMosaic.Lib.ValueIdx

set_option maxRecDepth 16384

noncomputable section

namespace Cert.KernelIdeal.AttnBlocks

open Cert.KernelIdeal Cert.KernelIdeal.Gen Cert.KernelIdeal.Attn
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## The points' coordinates -/

theorem lt128 (t : Fin cfg1.N) : t.val < 128 := lt_of_lt_of_eq t.isLt (show cfg1.N = 128 from N_1)

/-- The batch of point t. -/
def batchOf (t : Fin cfg1.N) : Fin 8 := ⟨t.val / 16, by have := lt128 t; omega⟩
/-- Row r of point t's query tile, as a row of the batch. -/
def qrow (t : Fin cfg1.N) (r : Fin 512) : Fin 2048 := ⟨t.val / 4 % 4 * 512 + r.val, by have := r.isLt; omega⟩
/-- Row j of point t's key tile, as a row of the batch. -/
def krow (t : Fin cfg1.N) (j : Fin 512) : Fin 2048 := ⟨t.val % 4 * 512 + j.val, by have := j.isLt; omega⟩

/-! ## The printed index maps, decided over the grid -/

theorem idx0 : ∀ t : Fin cfg1.N, win1_0.index t (0 : Fin 3) = t.val / 16 ∧ win1_0.index t (1 : Fin 3) = t.val / 4 % 4
    ∧ win1_0.index t (2 : Fin 3) = 0 :=
  (by decide +kernel : ∀ t : Fin grid1.N, _)
theorem idx1 : ∀ t : Fin cfg1.N, win1_1.index t (0 : Fin 3) = t.val / 16 ∧ win1_1.index t (1 : Fin 3) = 0
    ∧ win1_1.index t (2 : Fin 3) = 0 :=
  (by decide +kernel : ∀ t : Fin grid1.N, _)
theorem idx2 : ∀ t : Fin cfg1.N, win1_2.index t (0 : Fin 2) = 0 ∧ win1_2.index t (1 : Fin 2) = 0 :=
  (by decide +kernel : ∀ t : Fin grid1.N, _)
theorem idx3 : ∀ t : Fin cfg1.N, win1_3.index t (0 : Fin 1) = 0 :=
  (by decide +kernel : ∀ t : Fin grid1.N, _)
theorem idx4 : ∀ t : Fin cfg1.N, win1_4.index t (0 : Fin 3) = t.val / 16 ∧ win1_4.index t (1 : Fin 3) = t.val / 4 % 4
    ∧ win1_4.index t (2 : Fin 3) = 0 :=
  (by decide +kernel : ∀ t : Fin grid1.N, _)

/-! ## The blocks at an index -/

section Blocks

variable (V : (c : Dev nD) → (b : Ref sig .tc) → Buf (Elt F) ((c : Thread nD τ).loc b))

/-- The query tile at point t: entry (0, r, d) is the encoded array at (batch, query row, d). -/
theorem blk0_apply (c : Dev nD) (t : Fin cfg1.N) (r d : Fin 512) :
    (blk V c 0 t : Vec F S1x512x512 .bf16) (ix3 (0 : Fin 1) r d)
      = (V c main_v2 : S8x2048x512.Idx → Elt F .bf16) (ix3 (batchOf t) (qrow t r) d) := by
  obtain ⟨e0, e1, e2⟩ := idx0 t
  unfold blk
  rw [View.read_apply]
  show V c main_v2 _ = V c main_v2 _
  congr 1
  funext a
  apply Fin.ext
  match a with
  | ⟨0, _⟩ => show win1_0.index t (0 : Fin 3) * 1 + 1 * 0 = t.val / 16; omega
  | ⟨1, _⟩ => show win1_0.index t (1 : Fin 3) * 512 + 1 * r.val = t.val / 4 % 4 * 512 + r.val; omega
  | ⟨2, _⟩ => show win1_0.index t (2 : Fin 3) * 512 + 1 * d.val = d.val; omega

/-- The key slab at point t: entry (0, k, d) is the encoded array at (batch, k, d). -/
theorem blk1_apply (c : Dev nD) (t : Fin cfg1.N) (k : Fin 2048) (d : Fin 512) :
    (blk V c 1 t : Vec F S1x2048x512 .bf16) (ix3 (0 : Fin 1) k d)
      = (V c main_v2 : S8x2048x512.Idx → Elt F .bf16) (ix3 (batchOf t) k d) := by
  obtain ⟨e0, e1, e2⟩ := idx1 t
  unfold blk
  rw [View.read_apply]
  show V c main_v2 _ = V c main_v2 _
  congr 1
  funext a
  apply Fin.ext
  match a with
  | ⟨0, _⟩ => show win1_1.index t (0 : Fin 3) * 1 + 1 * 0 = t.val / 16; omega
  | ⟨1, _⟩ => show win1_1.index t (1 : Fin 3) * 2048 + 1 * k.val = k.val; omega
  | ⟨2, _⟩ => show win1_1.index t (2 : Fin 3) * 512 + 1 * d.val = d.val; omega

/-- The key tile the body reads at point t (512 rows of the slab from the row its key-tile coordinate selects):
    entry (0, j, d) is the encoded array at (batch, key row, d). -/
theorem keyTile_apply (c : Dev nD) (t : Fin cfg1.N) (j d : Fin 512) :
    (View.ld (blk V c 1 t : Vec F S1x2048x512 .bf16)
        (Rect.unit (s := S1x2048x512) (k1_off1 (grid1.coords t)) S1x512x512.size (k1_off1_inb (grid1.coords t)))
      : Vec F S1x512x512 .bf16) (ix3 (0 : Fin 1) j d)
      = (V c main_v2 : S8x2048x512.Idx → Elt F .bf16) (ix3 (batchOf t) (krow t j) d) := by
  have hk := key_offset t
  have e : (Rect.unit (s := S1x2048x512) (k1_off1 (grid1.coords t)) S1x512x512.size (k1_off1_inb (grid1.coords t))).idx
      (ix3 (0 : Fin 1) j d) = ix3 (0 : Fin 1) (krow t j) d := by
    funext a
    apply Fin.ext
    match a with
    | ⟨0, _⟩ => show k1_off1 (grid1.coords t) 0 + 1 * 0 = 0; rw [hk]; rfl
    | ⟨1, _⟩ => show k1_off1 (grid1.coords t) 1 + 1 * j.val = t.val % 4 * 512 + j.val; rw [hk]
                show 512 * (t.val % 4) + 1 * j.val = t.val % 4 * 512 + j.val; omega
    | ⟨2, _⟩ => show k1_off1 (grid1.coords t) 2 + 1 * d.val = d.val; rw [hk]
                show 0 + 1 * d.val = d.val; omega
  show (blk V c 1 t : Vec F S1x2048x512 .bf16) ((Rect.unit (s := S1x2048x512) (k1_off1 (grid1.coords t)) S1x512x512.size
    (k1_off1_inb (grid1.coords t))).idx (ix3 (0 : Fin 1) j d)) = _
  rw [e]
  exact blk1_apply V c t (krow t j) d

/-- The decoder's matrix window holds the whole matrix. -/
theorem blk2_eq (c : Dev nD) (t : Fin cfg1.N) :
    (blk V c 2 t : Vec F S512x256 .f32) = (V c main_arg3 : S512x256.Idx → Elt F .f32) := by
  obtain ⟨e0, e1⟩ := idx2 t
  funext y
  unfold blk
  rw [View.read_apply]
  show V c main_arg3 _ = V c main_arg3 y
  congr 1
  funext a
  apply Fin.ext
  match a with
  | ⟨0, _⟩ => show win1_2.index t (0 : Fin 2) * 512 + 1 * (y 0).val = (y 0).val; omega
  | ⟨1, _⟩ => show win1_2.index t (1 : Fin 2) * 256 + 1 * (y 1).val = (y 1).val; omega

/-- The decoder's bias window holds the whole bias. -/
theorem blk3_eq (c : Dev nD) (t : Fin cfg1.N) :
    (blk V c 3 t : Vec F S256 .f32) = (V c main_arg4 : S256.Idx → Elt F .f32) := by
  have e0 := idx3 t
  funext y
  unfold blk
  rw [View.read_apply]
  show V c main_arg4 _ = V c main_arg4 y
  congr 1
  funext a
  apply Fin.ext
  match a with
  | ⟨0, _⟩ => show win1_3.index t (0 : Fin 1) * 256 + 1 * (y 0).val = (y 0).val; omega

/-! ## The points of a run see the same blocks -/

/-- Two points of one run read the same query tile … -/
theorem blk0_congr (c : Dev nD) (t t' : Fin cfg1.N) (h : t.val / 4 = t'.val / 4) :
    (blk V c 0 t : Vec F S1x512x512 .bf16) = (blk V c 0 t' : Vec F S1x512x512 .bf16) := by
  funext y
  obtain ⟨u, r, d, rfl⟩ : ∃ (u : Fin 1) (r d : Fin 512), y = ix3 u r d := ⟨y 0, y 1, y 2, eq_ix3 y⟩
  obtain rfl : u = 0 := Subsingleton.elim _ _
  rw [blk0_apply V c t r d, blk0_apply V c t' r d]
  have hb : batchOf t = batchOf t' := Fin.ext (by show t.val / 16 = t'.val / 16; omega)
  have hr : qrow t r = qrow t' r := Fin.ext (by show t.val / 4 % 4 * 512 + r.val = t'.val / 4 % 4 * 512 + r.val; rw [h])
  rw [hb, hr]

/-- … and the same key slab, … -/
theorem blk1_congr (c : Dev nD) (t t' : Fin cfg1.N) (h : t.val / 4 = t'.val / 4) :
    (blk V c 1 t : Vec F S1x2048x512 .bf16) = (blk V c 1 t' : Vec F S1x2048x512 .bf16) := by
  funext y
  obtain ⟨u, k, d, rfl⟩ : ∃ (u : Fin 1) (k : Fin 2048) (d : Fin 512), y = ix3 u k d := ⟨y 0, y 1, y 2, eq_ix3 y⟩
  obtain rfl : u = 0 := Subsingleton.elim _ _
  rw [blk1_apply V c t k d, blk1_apply V c t' k d]
  have hb : batchOf t = batchOf t' := Fin.ext (by show t.val / 16 = t'.val / 16; omega)
  rw [hb]

/-- … the same matrix and the same bias (as every point does). -/
theorem blk2_congr (c : Dev nD) (t t' : Fin cfg1.N) :
    (blk V c 2 t : Vec F S512x256 .f32) = (blk V c 2 t' : Vec F S512x256 .f32) :=
  (blk2_eq V c t).trans (blk2_eq V c t').symm
theorem blk3_congr (c : Dev nD) (t t' : Fin cfg1.N) :
    (blk V c 3 t : Vec F S256 .f32) = (blk V c 3 t' : Vec F S256 .f32) :=
  (blk3_eq V c t).trans (blk3_eq V c t').symm

end Blocks

end Cert.KernelIdeal.AttnBlocks

end
-- ==== Proof.AttnResultIdeal.lean ====
/-
  The attention region's result in closed form.

  A run of four grid points shares a query tile and visits the four key tiles of its batch in order; at the run's last
  point the statistics are four steps from the reset values, and the output tile written back is the decoder applied to
  them. With the encoded array holding the specification's encoder output (of real inputs), the tile written back at
  the last point of the run of batch b and query tile i is the specification's output on rows 512 i … 512 i + 511 of
  batch b; the 32 runs' blocks tile the output array, so it ends holding the specification's output at every index.
-/
import proofs.«180303_j2181843387116_2_alg».proof.Proof.AttnFoldAtIdeal
import proofs.«180303_j2181843387116_2_alg».proof.Proof.AttnTileSpecIdeal
import proofs.«180303_j2181843387116_2_alg».proof.Proof.AttnBlocksIdeal
import Idealize.ShloMosaic.Lib.Pipeline.Value

set_option maxRecDepth 16384

noncomputable section

open scoped BigOperators

namespace Cert.KernelIdeal.AttnResult

open Cert.KernelIdeal Cert.KernelIdeal.Gen Cert.KernelIdeal.Attn Cert.KernelIdeal.AttnBlocks
open Cert.KernelIdeal.AttnTile Cert.KernelIdeal.AttnTileSpec
open Idealize.ShloMosaic Idealize.ShloMosaic.TcCoe Idealize.ShloMosaic.ValueIdx
open Idealize.SL Idealize.SL.Sem
open Idealize.ShloMosaic.Pipeline (Dat Cfg Window)

/-! ## A run of four points, unrolled -/

/-- The point j steps before t. -/
def back (t : Fin cfg1.N) (j : ℕ) : Fin cfg1.N := ⟨t.val - j, Nat.lt_of_le_of_lt (Nat.sub_le _ _) t.isLt⟩

section Run

variable {F : FTy → Type} [FloatOps F]
variable (V : (c : Dev nD) → (b : Ref sig .tc) → Buf (Elt F) ((c : Thread nD τ).loc b))

/-- The statistics after a point depend on the point's number only. -/
theorem statsAt_congr (c : Dev nD) (n n' : ℕ) (h : n = n') (hn : n < cfg1.N) (hn' : n' < cfg1.N) :
    statsAt V c n hn = statsAt V c n' hn' := by
  subst h; rfl

/-- At a run's last point the statistics are four steps from the reset values: over the run's query tile and the key
    tiles of the run's four points in order. -/
theorem stats_run (c : Dev nD) (t : Fin cfg1.N) (h3 : t.val % 4 = 3) :
    statsAt V c t.val t.isLt
      = step (blk V c 0 t) (keyAtPoint V c t)
          (step (blk V c 0 t) (keyAtPoint V c (back t 1))
            (step (blk V c 0 t) (keyAtPoint V c (back t 2))
              (step (blk V c 0 t) (keyAtPoint V c (back t 3)) stats0))) := by
  have hlt := lt128 t
  have n1 : ¬t.val % 4 = 0 := by omega
  have n2 : ¬(back t 1).val % 4 = 0 := by show ¬(t.val - 1) % 4 = 0; omega
  have n3 : ¬(back t 2).val % 4 = 0 := by show ¬(t.val - 2) % 4 = 0; omega
  have n4 : (back t 3).val % 4 = 0 := by show (t.val - 3) % 4 = 0; omega
  have c1 : statsAt V c (t.val - 1) (prevLt t) = statsAt V c (back t 1).val (back t 1).isLt := rfl
  have c2 : statsAt V c ((back t 1).val - 1) (prevLt (back t 1)) = statsAt V c (back t 2).val (back t 2).isLt :=
    statsAt_congr V c _ _ (by show t.val - 1 - 1 = t.val - 2; omega) _ _
  have c3 : statsAt V c ((back t 2).val - 1) (prevLt (back t 2)) = statsAt V c (back t 3).val (back t 3).isLt :=
    statsAt_congr V c _ _ (by show t.val - 2 - 1 = t.val - 3; omega) _ _
  rw [stats_next V c t n1, c1, stats_next V c (back t 1) n2, c2, stats_next V c (back t 2) n3, c3,
    stats_first V c (back t 3) n4,
    blk0_congr V c (back t 1) t (by show (t.val - 1) / 4 = t.val / 4; omega),
    blk0_congr V c (back t 2) t (by show (t.val - 2) / 4 = t.val / 4; omega),
    blk0_congr V c (back t 3) t (by show (t.val - 3) / 4 = t.val / 4; omega)]

end Run

/-! ## The output window's blocks -/

/-- An element of the output block at point t sits at (batch, query row, column). -/
theorem blk4_emb (t : Fin cfg1.N) (r : Fin 512) (h : Fin 256) :
    ((cfg1.win 4).blk t).view.emb (ix3 (0 : Fin 1) r h) = (ix3 (batchOf t) (qrow t r) h : S8x2048x256.Idx) := by
  obtain ⟨e0, e1, e2⟩ := idx4 t
  funext a
  apply Fin.ext
  match a with
  | ⟨0, _⟩ => show win1_4.index t (0 : Fin 3) * 1 + 1 * 0 = t.val / 16; omega
  | ⟨1, _⟩ => show win1_4.index t (1 : Fin 3) * 512 + 1 * r.val = t.val / 4 % 4 * 512 + r.val; omega
  | ⟨2, _⟩ => show win1_4.index t (2 : Fin 3) * 256 + 1 * h.val = h.val; omega

/-- An index of the output array is in point t's block iff each coordinate is in the block's range on its axis. -/
theorem mem_blk4 (t : Fin cfg1.N) (i : S8x2048x256.Idx) :
    i ∈ ((cfg1.win 4).blk t).view.set ↔ ∀ a : Fin 3, win1_4.index t a * S1x512x256.size a ≤ (i a).val
      ∧ (i a).val < win1_4.index t a * S1x512x256.size a + S1x512x256.size a := by
  show i ∈ ((View.whole main_v3).slice (win1_4.rect t)).set ↔ _
  rw [View.set_slice_whole, Rect.mem_set_unit]
  exact Iff.rfl

/-- Every index of the output array is in the block of a point that writes back: (b, s, h) is in the block of the last
    point of the run of batch b and query tile s / 512. -/
theorem cover4 (i : S8x2048x256.Idx) :
    ∃ t : Fin cfg1.N, (cfg1.win 4).flush t = true ∧ i ∈ ((cfg1.win 4).blk t).view.set := by
  have h0 : (i 0).val < 8 := (i 0).isLt
  have h1 : (i 1).val < 2048 := (i 1).isLt
  have h2 : (i 2).val < 256 := (i 2).isLt
  have hN : cfg1.N = 128 := N_1
  let t : Fin cfg1.N := ⟨(i 0).val * 16 + (i 1).val / 512 * 4 + 3, by rw [hN]; omega⟩
  have ht : t.val = (i 0).val * 16 + (i 1).val / 512 * 4 + 3 := rfl
  refine ⟨t, (flush1_4 t).mpr (by rw [ht]; omega), ?_⟩
  obtain ⟨e0, e1, e2⟩ := idx4 t
  rw [mem_blk4]
  intro a
  match a with
  | ⟨0, _⟩ => show win1_4.index t (0 : Fin 3) * 1 ≤ (i 0).val ∧ (i 0).val < win1_4.index t (0 : Fin 3) * 1 + 1
              rw [e0, ht]; omega
  | ⟨1, _⟩ => show win1_4.index t (1 : Fin 3) * 512 ≤ (i 1).val ∧ (i 1).val < win1_4.index t (1 : Fin 3) * 512 + 512
              rw [e1, ht]; omega
  | ⟨2, _⟩ => show win1_4.index t (2 : Fin 3) * 256 ≤ (i 2).val ∧ (i 2).val < win1_4.index t (2 : Fin 3) * 256 + 256
              rw [e2]; omega

/-! ## The closed form -/

section Closed

variable (V : (c : Dev nD) → (b : Ref sig .tc) → Buf (Elt Ideal) ((c : Thread nD τ).loc b)) (c : Dev nD)
  (x : (⟨3, ![8, 2048, 256]⟩ : Shape).Idx → EReal) (We : (⟨2, ![256, 512]⟩ : Shape).Idx → EReal)
  (be : (⟨1, ![512]⟩ : Shape).Idx → EReal) (Wd : (⟨2, ![512, 256]⟩ : Shape).Idx → EReal)
  (bd : (⟨1, ![256]⟩ : Shape).Idx → EReal)
  (hx : ∀ i, Cert.FiniteInputs.IsReal (x i)) (hW : ∀ i, Cert.FiniteInputs.IsReal (We i))
  (hb : ∀ i, Cert.FiniteInputs.IsReal (be i))
  (hE : ∀ (b : Fin 8) (s : Fin 2048) (d : Fin 512),
    (V c main_v2 : S8x2048x512.Idx → EReal) (ix3 b s d) = Cert.AttnSpec.enc x We be b s d)
  (hWd : (V c main_arg3 : S512x256.Idx → EReal) = Wd) (hbd : (V c main_arg4 : S256.Idx → EReal) = bd)
include hx hW hb hE hWd hbd

/-- The keys of a run's four key tiles laid end to end are the encoded rows of the run's batch. -/
theorem run_keys (t : Fin cfg1.N) (h3 : t.val % 4 = 3) (t' : Fin 2048) (d : Fin 512) :
    keyAt (tiles (keyAtPoint V c (back t 3)) (keyAtPoint V c (back t 2)) (keyAtPoint V c (back t 1)) (keyAtPoint V c t)) t' d
      = Cert.AttnSpec.enc x We be (batchOf t) t' d := by
  have hlt := lt128 t
  have ht' : t'.val < 2048 := t'.isLt
  have key : ∀ (p : Fin cfg1.N) (n : ℕ), p.val / 16 = t.val / 16 → p.val % 4 = n → t'.val / 512 = n →
      keyAtPoint V c p (ix3 (0 : Fin 1) (⟨t'.val % 512, Nat.mod_lt _ pos512⟩ : Fin 512) d)
        = Cert.AttnSpec.enc x We be (batchOf t) t' d := by
    intro p n hb hp hn
    refine (keyTile_apply V c p (⟨t'.val % 512, Nat.mod_lt _ pos512⟩ : Fin 512) d).trans ?_
    rw [hE]
    have e1 : batchOf p = batchOf t := Fin.ext hb
    have e2 : krow p (⟨t'.val % 512, Nat.mod_lt _ pos512⟩ : Fin 512) = t' :=
      Fin.ext (by show p.val % 4 * 512 + t'.val % 512 = t'.val; omega)
    rw [e1, e2]
  have hcases : t'.val / 512 = 0 ∨ t'.val / 512 = 1 ∨ t'.val / 512 = 2 ∨ t'.val / 512 = 3 := by omega
  unfold keyAt
  rcases hcases with h | h | h | h
  · rw [h]; exact key (back t 3) 0 (by show (t.val - 3) / 16 = t.val / 16; omega) (by show (t.val - 3) % 4 = 0; omega) h
  · rw [h]; exact key (back t 2) 1 (by show (t.val - 2) / 16 = t.val / 16; omega) (by show (t.val - 2) % 4 = 1; omega) h
  · rw [h]; exact key (back t 1) 2 (by show (t.val - 1) / 16 = t.val / 16; omega) (by show (t.val - 1) % 4 = 2; omega) h
  · rw [h]; exact key t 3 rfl h3 h

/-- WHAT A RUN'S LAST POINT WRITES BACK is its block of the specification's output. -/
theorem flushed_eq (t : Fin cfg1.N) (hf : (cfg1.win 4).flush t = true) :
    (dat (F := Ideal) V c).flushed 4 t = ((cfg1.win 4).blk t).view.read (Elt Ideal)
      (fun i : S8x2048x256.Idx => Cert.AttnSpec.out x We be Wd bd (i 0) (i 1) (i 2)) := by
  have h3 : t.val % 4 = 3 := (flush1_4 t).mp hf
  show (cfg1.win 4).cut (grid1.coords t) ((dat (F := Ideal) V c).after 4 t) = _
  rw [after_4, out_last V c t h3, stats_run V c t h3, blk2_eq V c t, blk3_eq V c t, hWd, hbd]
  funext y
  obtain ⟨u, r, h, rfl⟩ : ∃ (u : Fin 1) (r : Fin 512) (h : Fin 256), y = ix3 u r h := ⟨y 0, y 1, y 2, eq_ix3 y⟩
  obtain rfl : u = 0 := Subsingleton.elim _ _
  rw [View.read_apply, blk4_emb t r h]
  show finish (F := Ideal) _ Wd bd (ix3 (0 : Fin 1) r h) = Cert.AttnSpec.out x We be Wd bd (batchOf t) (qrow t r) h
  exact tile_is_spec x We be hx hW hb (blk V c 0 t) (keyAtPoint V c (back t 3)) (keyAtPoint V c (back t 2))
    (keyAtPoint V c (back t 1)) (keyAtPoint V c t) (batchOf t) (qrow t)
    (fun r d => (blk0_apply V c t r d).trans (hE _ _ _))
    (run_keys V c x We be Wd bd hx hW hb hE hWd hbd t h3) Wd bd r h

/-- THE ATTENTION REGION'S RESULT: the output array ends holding the specification's output, index by index. -/
theorem attn_result :
    (dat (F := Ideal) V c).arrAt 4 cfg1.N
      = fun i : S8x2048x256.Idx => Cert.AttnSpec.out x We be Wd bd (i 0) (i 1) (i 2) :=
  (dat (F := Ideal) V c).arrAt_eq_of_cover 4 _
    (fun t hf => flushed_eq V c x We be Wd bd hx hW hb hE hWd hbd t hf) cover4

end Closed

end Cert.KernelIdeal.AttnResult

end
-- ==== Proof.HostGlueIdeal.lean ====
/-
  The host operations around the two regions, read at an index.  The first reshape flattens the input
  [8,2048,256] to [16384,256]: row p of the flat array is row p mod 2048 of batch p / 2048.  The second regroups the
  encoded rows [16384,512] into [8,2048,512]: row s of batch b is flat row 2048 b + s.  The weights, biases and every
  other argument reach each region as launched.
-/
import proofs.«180303_j2181843387116_2_alg».proof.Proof.MainRunIdeal
import Idealize.ShloMosaic.Lib.Pipeline.Value
import Idealize.ShloMosaic.Lib.ValueIdx
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

/-- The flattened input the encode region finds. -/
theorem flat_input (c : Dev nD) (p : Fin 16384) (h : Fin 256) :
    (V1 m c main_v0 : S16384x256.Idx → Elt F .f32) (ix2 p h)
      = (m ((c : Thread nD τ).loc main_arg0) : S8x2048x256.Idx → Elt F .f32) (ix3 (⟨p.val / 2048, by have := p.isLt; omega⟩ : Fin 8) (⟨p.val % 2048, Nat.mod_lt _ (by norm_num)⟩ : Fin 2048) h) := by
  have e : (V1 m c main_v0 : S16384x256.Idx → Elt F .f32)
      = shapeCast S16384x256 (m ((c : Thread nD τ).loc main_arg0) : S8x2048x256.Idx → Elt F .f32) shapeCasts_S8x2048x256_S16384x256 := by
    show StableHlo.after hostOps0 (W0 m c) (Proc.devRef .tc main_v0) = _
    after_results; rfl
  rw [e]
  refine shapeCast_apply _ _ _ _ ?_
  show (S8x2048x256.rowMajor (ix3 _ _ h)).val = (S16384x256.rowMajor (ix2 p h)).val
  rw [Shape.rowMajor_val_three, Shape.rowMajor_val_two]
  show ((p.val / 2048) * 2048 + p.val % 2048) * 256 + h.val = p.val * 256 + h.val
  have := Nat.div_add_mod p.val 2048
  omega

theorem enc_weights (c : Dev nD) : V1 m c main_arg1 = m ((c : Thread nD τ).loc main_arg1) := Gen.V1_of m c main_arg1 (by decide)
theorem enc_bias (c : Dev nD) : V1 m c main_arg2 = m ((c : Thread nD τ).loc main_arg2) := Gen.V1_of m c main_arg2 (by decide)

/-- The regrouped encoded rows the attention region finds, from the encode region's output array. -/
theorem grouped_encoded (c : Dev nD) (b : Fin 8) (s : Fin 2048) (d : Fin 512) :
    (V3 m c main_v2 : S8x2048x512.Idx → Elt F .bf16) (ix3 b s d)
      = ((Encode.dat (V1 m) c).arrAt 3 cfg0.N : S16384x512.Idx → Elt F .bf16) (ix2 (⟨b.val * 2048 + s.val, by have := b.isLt; have := s.isLt; omega⟩ : Fin 16384) d) := by
  have e : (V3 m c main_v2 : S8x2048x512.Idx → Elt F .bf16)
      = shapeCast S8x2048x512 (W2 m c main_v1 : S16384x512.Idx → Elt F .bf16) shapeCasts_S16384x512_S8x2048x512 := by
    show StableHlo.after hostOps1 (W2 m c) (Proc.devRef .tc main_v2) = _
    after_results; rfl
  rw [e, show (W2 m c main_v1 : S16384x512.Idx → Elt F .bf16) = (Encode.dat (V1 m) c).arrAt 3 cfg0.N from W2_arr m c 3]
  refine shapeCast_apply _ _ _ _ ?_
  show (S16384x512.rowMajor (ix2 _ d)).val = (S8x2048x512.rowMajor (ix3 b s d)).val
  rw [Shape.rowMajor_val_three, Shape.rowMajor_val_two]
  rfl

theorem dec_weights (c : Dev nD) : V3 m c main_arg3 = m ((c : Thread nD τ).loc main_arg3) :=
  (W3_of m c main_arg3 (by decide)).trans <| (W2_of_ne m c main_arg3 (by decide)).trans <| (Gen.V1_of m c main_arg3 (by decide)).trans rfl
theorem dec_bias (c : Dev nD) : V3 m c main_arg4 = m ((c : Thread nD τ).loc main_arg4) :=
  (W3_of m c main_arg4 (by decide)).trans <| (W2_of_ne m c main_arg4 (by decide)).trans <| (Gen.V1_of m c main_arg4 (by decide)).trans rfl

end Cert.KernelIdeal.Run

end
-- ==== Proof.EncodePayloadIdeal.lean ====
/-
  The encode stage's stored value at an index, at the ideal values.

  The stage multiplies a `[1024, 256]` block `x` by the `[256, 512]` matrix `w` into the zero
  accumulator, adds the bias `b` (a `[512]` vector laid out as one row and repeated down the rows)
  and narrows the format. At the ideal values the two narrowings before the product and the one
  after the sum are the identity, so the stored entry `(p, d)` is
      (∑ h : Fin 256, x (p, h) * w (h, d)) + b d                         (`k0_pay1_apply`).
  The steps: the product into the zero accumulator read at `(p, d)` is the sum over the one
  contracted coordinate of the operands' products (`matmul_apply_ix2`: the operand indices at the
  output index `(p, d)` and contraction coordinate `h` are `(p, h)` and `(h, d)`,
  `lhsIdx_eq` / `rhsIdx_eq`); the bias row read at `(p, d)` is `b d`.
-/
import proofs.«180303_j2181843387116_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EncPay

open Cert.KernelIdeal Cert.KernelIdeal.Gen Idealize.ShloMosaic Idealize.ShloMosaic.ValueIdx
open scoped BigOperators

/-- The product's dimension numbers: axis 1 of the left operand against axis 0 of the right. -/
abbrev encDot : DotDims S1024x256 S256x512 S1024x512 := dot_S1024x256_S256x512_S1024x512_1_0_0_1_n_n

theorem lhs_0 (j : S1024x512.Idx) (q : encDot.contr.Idx) : (encDot.lhsIdx j q 0).val = (j 0).val := by
  unfold DotDims.lhsIdx
  rw [dif_neg (show ¬(0 : Fin S1024x256.rank) ∈ encDot.lhsBatch by decide),
    dif_pos (show (0 : Fin S1024x256.rank) ∈ encDot.lhsNonContracting by decide)]
  rfl

theorem lhs_1 (j : S1024x512.Idx) (q : encDot.contr.Idx) :
    (encDot.lhsIdx j q 1).val = (q ⟨0, by decide⟩).val :=
  encDot.lhsIdx_val_of_single rfl j q

theorem rhs_0 (j : S1024x512.Idx) (q : encDot.contr.Idx) :
    (encDot.rhsIdx j q 0).val = (q ⟨0, by decide⟩).val :=
  encDot.rhsIdx_val_of_single rfl j q

theorem rhs_1 (j : S1024x512.Idx) (q : encDot.contr.Idx) : (encDot.rhsIdx j q 1).val = (j 1).val := by
  unfold DotDims.rhsIdx
  rw [dif_neg (show ¬(1 : Fin S256x512.rank) ∈ encDot.rhsBatch by decide),
    dif_pos (show (1 : Fin S256x512.rank) ∈ encDot.rhsNonContracting by decide)]
  rfl

/-- The left operand's index at output `(p, d)` and contraction coordinate `h` is `(p, h)`. -/
theorem lhsIdx_eq (p : Fin 1024) (d : Fin 512) (h : Fin 256) :
    encDot.lhsIdx (ix2 p d) ((contrEquiv1 encDot 256 rfl rfl).symm h) = ix2 p h :=
  funext fun a => Fin.ext (by
    match a with
    | ⟨0, _⟩ => exact lhs_0 _ _
    | ⟨1, _⟩ => exact (lhs_1 _ _).trans (contrEquiv1_symm_val encDot 256 rfl rfl h))

/-- The right operand's index at output `(p, d)` and contraction coordinate `h` is `(h, d)`. -/
theorem rhsIdx_eq (p : Fin 1024) (d : Fin 512) (h : Fin 256) :
    encDot.rhsIdx (ix2 p d) ((contrEquiv1 encDot 256 rfl rfl).symm h) = ix2 h d :=
  funext fun a => Fin.ext (by
    match a with
    | ⟨0, _⟩ => exact (rhs_0 _ _).trans (contrEquiv1_symm_val encDot 256 rfl rfl h)
    | ⟨1, _⟩ => exact rhs_1 _ _)

/-- The product into the zero accumulator at `(p, d)`: the sum over `h` of `l (p, h) * r (h, d)`. -/
theorem matmul_apply_ix2 (l : FVec Ideal S1024x256 .bf16) (r : FVec Ideal S256x512 .bf16)
    (p : Fin 1024) (d : Fin 512) :
    matmul encDot none l r (constant (F := Ideal) S1024x512 .f32 0x00000000#32) (ix2 p d)
      = ∑ h : Fin 256, l (ix2 p h) * r (ix2 h d) := by
  show FloatOps.matmul encDot none l r (constant (F := Ideal) S1024x512 .f32 0x00000000#32) (ix2 p d) = _
  rw [Ideal.matmul_constant_zero_apply, ← Equiv.sum_comp (contrEquiv1 encDot 256 rfl rfl).symm]
  refine Finset.sum_congr rfl fun h _ => ?_
  rw [lhsIdx_eq p d h, rhsIdx_eq p d h]

/-- The encode stage's stored value at `(p, d)`: the row of `x` against the column of `w`, plus the bias. -/
theorem k0_pay1_apply (x : Vec Ideal S1024x256 .f32) (w : Vec Ideal S256x512 .f32) (b : Vec Ideal S512 .f32)
    (p : Fin 1024) (d : Fin 512) :
    k0_pay1 (F := Ideal) x w b (ix2 p d)
      = (∑ h : Fin 256, x (ix2 p h) * w (ix2 h d)) + b (ix1 d) := by
  unfold k0_pay1
  rw [truncf_apply, addf_apply, matmul_apply_ix2, broadcastTo_1b_ab_apply, shapeCast_a_1a_apply,
    shapeCast_self]
  rfl

end Cert.KernelIdeal.EncPay

end
-- ==== Proof.EncodedArrayIdeal.lean ====
/-
  The encode region's output array in closed form, at the ideal values.

  The region tiles the 16384 rows of its input `X : [16384, 256]` into 16 blocks of 1024 rows; at
  grid point `t` it reads rows `1024 t … 1024 t + 1023` of `X`, the whole matrix `W : [256, 512]`
  and the whole bias `b : [512]`, and writes rows `1024 t … 1024 t + 1023` of the output. Each
  written entry is the row of `X` against the column of `W` plus the bias, and the 16 row blocks
  tile the output, so the array after the region is, at every index `(r, d)`,
      encoded X W b (r, d) = (∑ h : Fin 256, X (r, h) * W (h, d)) + b d        (`encoded_array`).

  The steps: the printed index maps decided once over the 16 points (`idx_facts`: the input block
  moves with the output block along the rows, every other block index is zero, the output's row
  block index is the point's number); what point `t` writes back is block `t` of `encoded`
  (`flushed_eq`: the stored value at an index of the block, each input block read at the array
  index the output's block names); an index lies in point `t`'s block iff its coordinates are in
  the block's ranges (`mem_blk`); row `r` lies in the block of point `r / 1024` (`cover`).
-/
import proofs.«180303_j2181843387116_2_alg».proof.Proof.EncodeStageIdeal
import proofs.«180303_j2181843387116_2_alg».proof.Proof.EncodePayloadIdeal
import Idealize.ShloMosaic.Lib.Pipeline.Value
import Idealize.ShloMosaic.Lib.ValueIdx

noncomputable section

namespace Cert.KernelIdeal.EncArr

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

-- the buffers' contents when the region is entered
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The encoded array as one function of the input, the matrix and the bias, index by index. -/
def encoded (A0 : S16384x256.Idx → EReal) (A1 : S256x512.Idx → EReal) (A2 : S512.Idx → EReal) :
    S16384x512.Idx → EReal :=
  fun i => (∑ h : Fin 256, A0 (ix2 (i 0) h) * A1 (ix2 h (i 1))) + A2 (ix1 (i 1))

theorem encoded_apply (A0 : S16384x256.Idx → EReal) (A1 : S256x512.Idx → EReal) (A2 : S512.Idx → EReal)
    (i : S16384x512.Idx) :
    encoded A0 A1 A2 i = (∑ h : Fin 256, A0 (ix2 (i 0) h) * A1 (ix2 h (i 1))) + A2 (ix1 (i 1)) := rfl

/-- The stored value at an index of the block, over the three loaded blocks. -/
theorem pay_at (x : Vec Ideal S1024x256 .f32) (w : Vec Ideal S256x512 .f32) (b : Vec Ideal S512 .f32)
    (y : S1024x512.Idx) :
    k0_pay1 (F := Ideal) x w b y = (∑ h : Fin 256, x (ix2 (y 0) h) * w (ix2 h (y 1))) + b (ix1 (y 1)) := by
  obtain ⟨p, d, rfl⟩ : ∃ (p : Fin 1024) (d : Fin 512), y = ix2 p d := ⟨y 0, y 1, eq_ix2 y⟩
  exact EncPay.k0_pay1_apply x w b p d

/-- The printed index maps, decided over the grid: the input's row block is the output's, the point's
    number; every other block index is zero. -/
theorem idx_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

/-- WHAT POINT `t` WRITES BACK is block `t` of `encoded` of the arrays as the region finds them. -/
theorem flushed_eq (c : Dev nD) (t : Fin cfg0.N) :
    (Encode.dat (F := Ideal) V c).flushed 3 t
      = ((cfg0.win 3).blk t).view.read (Elt Ideal) (encoded (V c main_v0) (V c main_arg1) (V c main_arg2)) := by
  show (cfg0.win 3).cut (grid0.coords t) ((Encode.dat (F := Ideal) V c).after 3 t) = _
  rw [Encode.after_3]
  unfold Encode.stored
  rw [View.canon_unit_zero hz2]
  simp only [View.ld_unit_zero (S := S1024x256) hz2, View.ld_unit_zero (S := S256x512) hz2,
    View.ld_unit_zero (S := S512) hz1]
  obtain ⟨e0, e1, e2, e3, e4, e5, e6⟩ := idx_facts t
  funext y
  show k0_pay1 (F := Ideal) (Encode.blk V c 0 t) (Encode.blk V c 1 t) (Encode.blk V c 2 t) y
    = encoded (V c main_v0) (V c main_arg1) (V c main_arg2) (((cfg0.win 3).blk t).view.emb y)
  refine (pay_at _ _ _ y).trans ?_
  have h0 : ∀ h : Fin 256, (Encode.blk V c 0 t : Vec Ideal S1024x256 .f32) (ix2 (y 0) h)
      = (V c main_v0 : S16384x256.Idx → EReal) (ix2 ((((cfg0.win 3).blk t).view.emb y) 0) h) := by
    intro h
    show (V c main_v0 : S16384x256.Idx → EReal) (((cfg0.win 0).blk t).view.emb (ix2 (y 0) h)) = _
    refine congrArg _ (funext fun a => Fin.ext ?_)
    match a with
    | ⟨0, _⟩ =>
      show win0_0.index t (0 : Fin 2) * 1024 + 1 * (y 0).val = win0_3.index t (0 : Fin 2) * 1024 + 1 * (y 0).val
      omega
    | ⟨1, _⟩ =>
      show win0_0.index t (1 : Fin 2) * 256 + 1 * h.val = h.val
      omega
  have h1 : ∀ h : Fin 256, (Encode.blk V c 1 t : Vec Ideal S256x512 .f32) (ix2 h (y 1))
      = (V c main_arg1 : S256x512.Idx → EReal) (ix2 h ((((cfg0.win 3).blk t).view.emb y) 1)) := by
    intro h
    show (V c main_arg1 : S256x512.Idx → EReal) (((cfg0.win 1).blk t).view.emb (ix2 h (y 1))) = _
    refine congrArg _ (funext fun a => Fin.ext ?_)
    match a with
    | ⟨0, _⟩ =>
      show win0_1.index t (0 : Fin 2) * 256 + 1 * h.val = h.val
      omega
    | ⟨1, _⟩ =>
      show win0_1.index t (1 : Fin 2) * 512 + 1 * (y 1).val = win0_3.index t (1 : Fin 2) * 512 + 1 * (y 1).val
      omega
  have h2 : (Encode.blk V c 2 t : Vec Ideal S512 .f32) (ix1 (y 1))
      = (V c main_arg2 : S512.Idx → EReal) (ix1 ((((cfg0.win 3).blk t).view.emb y) 1)) := by
    show (V c main_arg2 : S512.Idx → EReal) (((cfg0.win 2).blk t).view.emb (ix1 (y 1))) = _
    refine congrArg _ (funext fun a => Fin.ext ?_)
    match a with
    | ⟨0, _⟩ =>
      show win0_2.index t (0 : Fin 1) * 512 + 1 * (y 1).val = win0_3.index t (1 : Fin 2) * 512 + 1 * (y 1).val
      omega
  exact congrArg₂ (· + ·) (Finset.sum_congr rfl fun h _ => congrArg₂ (· * ·) (h0 h) (h1 h)) h2

/-- An index of the array is in point `t`'s block iff each coordinate is in the block's range on its axis. -/
theorem mem_blk (t : Fin cfg0.N) (i : S16384x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v1).slice (win0_3.rect t)).set ↔ _
  rw [View.set_slice_whole, Rect.mem_set_unit]
  exact Iff.rfl

/-- The 16 row blocks tile the array: row `r` lies in the block of point `r / 1024`. -/
theorem cover (i : S16384x512.Idx) :
    ∃ t : Fin cfg0.N, (cfg0.win 3).flush t = true ∧ i ∈ ((cfg0.win 3).blk t).view.set := by
  have hN : cfg0.N = 16 := N_0
  have hi0 : (i 0).val < 16384 := (i 0).isLt
  have hi1 : (i 1).val < 512 := (i 1).isLt
  obtain ⟨t, ht⟩ : ∃ t : Fin cfg0.N, t.val = (i 0).val / 1024 :=
    ⟨⟨(i 0).val / 1024, by rw [hN]; omega⟩, rfl⟩
  obtain ⟨e0, e1, e2, e3, e4, e5, e6⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

/-- THE ARRAY after the region: `encoded` of the input, the matrix and the bias as the region finds them. -/
theorem encoded_array (c : Dev nD) :
    (Encode.dat (F := Ideal) V c).arrAt 3 cfg0.N = encoded (V c main_v0) (V c main_arg1) (V c main_arg2) :=
  (Encode.dat (F := Ideal) V c).arrAt_eq_of_cover 3 _ (fun t _ => flushed_eq V c t) cover

/-- The same at an index; `encoded_apply` then writes the function out. -/
theorem encoded_array_apply (c : Dev nD) (i : S16384x512.Idx) :
    ((Encode.dat (F := Ideal) V c).arrAt 3 cfg0.N : S16384x512.Idx → EReal) i
      = encoded (V c main_v0) (V c main_arg1) (V c main_arg2) i :=
  congrFun (encoded_array V c) i

end Cert.KernelIdeal.EncArr

end
-- ==== Proof.EncodedIsSpecIdeal.lean ====
/-
  The encoded rows the attention region finds are the encoder of the index-by-index attention.

  The encode region leaves, at flat row `r` and column `d`, the row `r` of the flattened input
  against column `d` of the encoder matrix plus the bias. The first host reshape flattens the input
  `[8, 2048, 256]` to `[16384, 256]` (flat row `2048 b + s` is row `s` of batch `b`) and the second
  regroups the encoded rows `[16384, 512]` to `[8, 2048, 512]` the same way; the matrix and the bias
  reach the region as launched. So the regrouped array at `(b, s, d)` is
      (∑ h, x (b, s, h) * We (h, d)) + be d = enc x We be b s d             (`encoded_is_spec`),
  with `x`, `We`, `be` the launch contents of the first three arguments:
  `(2048 b + s) / 2048 = b` and `(2048 b + s) % 2048 = s` for `s < 2048`.
-/
import proofs.«180303_j2181843387116_2_alg».proof.Proof.HostGlueIdeal
import proofs.«180303_j2181843387116_2_alg».proof.Proof.EncodedArrayIdeal
import proofs.«180303_j2181843387116_2_alg».proof.Proof.AttnSpec

noncomputable section

namespace Cert.KernelIdeal.EncSpec

open Cert.KernelIdeal Cert.KernelIdeal.Gen Idealize.ShloMosaic Idealize.ShloMosaic.TcCoe Idealize.SL.Sem
open Idealize.ShloMosaic.ValueIdx
open scoped BigOperators

/-- Two rank-3 indices with equal leading coordinates and the same last one are equal. -/
theorem ix3_congr {n0 n1 n2 : ℕ} {a a' : Fin n0} {b b' : Fin n1} (c : Fin n2) (ha : a = a') (hb : b = b') :
    ix3 a b c = ix3 a' b' c := by
  subst ha; subst hb; rfl

/-- The regrouped encoded array at `(b, s, d)` is the encoder of the launch contents at `(b, s, d)`. -/
theorem encoded_is_spec (m : (ℓ : Loc nD τ sig) → Buf (Elt Ideal) ℓ) (c : Dev nD)
    (b : Fin 8) (s : Fin 2048) (d : Fin 512) :
    (Run.V3 m c main_v2 : S8x2048x512.Idx → EReal) (ix3 b s d)
      = AttnSpec.enc (m ((c : Thread nD τ).loc main_arg0)) (m ((c : Thread nD τ).loc main_arg1))
          (m ((c : Thread nD τ).loc main_arg2)) b s d := by
  have hs : s.val < 2048 := s.isLt
  have hb : b.val < 8 := b.isLt
  refine (Run.grouped_encoded m c b s d).trans ?_
  refine (EncArr.encoded_array_apply (Run.V1 m) c _).trans ?_
  rw [EncArr.encoded_apply]
  unfold AttnSpec.enc
  refine congrArg₂ (· + ·) (Finset.sum_congr rfl fun h _ => congrArg₂ (· * ·) ?_ ?_) ?_
  · refine (Run.flat_input m c ⟨b.val * 2048 + s.val, by omega⟩ h).trans ?_
    exact congrArg _ (ix3_congr h (Fin.ext (by show (b.val * 2048 + s.val) / 2048 = b.val; omega))
      (Fin.ext (by show (b.val * 2048 + s.val) % 2048 = s.val; omega)))
  · exact congrFun (Run.enc_weights m c) _
  · exact congrFun (Run.enc_bias m c) _

end Cert.KernelIdeal.EncSpec

end
-- ==== Proof.KernelValueIdeal.lean ====
/-
  The kernel's result array, as a function of the launch memory.  The encode region leaves x W_enc + b_enc of the
  flattened input; regrouped by batch these are the specification's encoded rows; the attention region's final array
  over them, the decode weights and the decode bias is the specification's output; and finite inputs make every
  encoded row real, which is what the attention region's value needs.
-/
import proofs.«180303_j2181843387116_2_alg».proof.Proof.AttnResultIdeal
import proofs.«180303_j2181843387116_2_alg».proof.Proof.EncodedIsSpecIdeal
import proofs.«180303_j2181843387116_2_alg».proof.Proof.FiniteInputs
import proofs.«180303_j2181843387116_2_alg».proof.Proof.HostGlueIdeal
import proofs.«180303_j2181843387116_2_alg».proof.Proof.Gen.Pre_finite_inputs

noncomputable section

namespace Cert.KernelIdeal.Run

open Cert.KernelIdeal Cert.KernelIdeal.Gen
open Idealize.ShloMosaic Idealize.ShloMosaic.TcCoe Idealize.SL.Sem

variable (m : (ℓ : Loc nD τ sig) → Buf (Elt Ideal) ℓ)

/-- The specification's output array over the launch memory's argument arrays. -/
def specOut (c : Dev nD) : Buf (Elt Ideal) ((c.tc : Thread nD τ).loc main_v3) :=
  fun i : S8x2048x256.Idx => Cert.AttnSpec.out (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (i 0) (i 1) (i 2)

/-- Under the precondition (every input entry finite) the attention region's final array is the specification's
    output array. -/
theorem kernel_value (c : Dev nD)
    (h : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    (Attn.dat (F := Ideal) (V3 m) c).arrAt 4 cfg1.N = specOut m c := by
  obtain ⟨hx, hW, hb, -, -⟩ := Cert.FiniteInputs.entries_real _ _ _ _ _ h
  exact Cert.KernelIdeal.AttnResult.attn_result (V3 m) c _ _ _ _ _ hx hW hb
    (fun b s d => Cert.KernelIdeal.EncSpec.encoded_is_spec m c b s d) (dec_weights m c) (dec_bias m c)

end Cert.KernelIdeal.Run

end
-- ==== Proof.LibLastAxisMax3.lean ====
/-
  A host reduction with a maximum body over the LAST axis of a rank-3 array, read at an index given by coordinates,
  on the extended reals. Independent of any program, generic in the three extents.

  * `lift_last` — the reduced index `(p, q)` with the last coordinate `k` put back is the index `(p, q, k)`.
  * `hostReduce_max_last` — the reduction's entry `(p, q)` is the fold of `max`, from the initial value's one
    element, over `k : Fin n` of the operand's entries `(p, q, k)`: the maximum of the last-axis fibre through
    `(p, q)`, taken from the initial value (a softmax's row maximum over a batch of matrices).
-/
import Idealize.ShloMosaic.PureOps
import Idealize.ShloMosaic.PureOps.Ideal.Laws
import Idealize.ShloMosaic.Lib.ValueIdx

noncomputable section

namespace Cert.LastAxisMax3

open Idealize.ShloMosaic Idealize.ShloMosaic.ValueIdx

/-- The reduced index (p, q) with the last coordinate k put back is (p, q, k). -/
theorem lift_last {a b n : ℕ} (h : (⟨3, ![a, b, n]⟩ : Shape).Reduces [2] (⟨2, ![a, b]⟩ : Shape)) (p : Fin a) (q : Fin b)
    (k : Fin ((⟨3, ![a, b, n]⟩ : Shape).size 2)) :
    h.lift (ix2 p q) k = ix3 p q (⟨k.val, k.isLt⟩ : Fin n) := by
  funext d; apply Fin.ext
  fin_cases d <;> rfl

/-- A host reduction with a maximum body over the last axis of an [a, b, n] array of extended reals, read at (p, q):
    the fold of max from the initial value over the n entries (p, q, k). -/
theorem hostReduce_max_last {a b n : ℕ} {u : Shape} (x : FVec Ideal ⟨3, ![a, b, n]⟩ .f32) (init : u.Idx → Ideal .f32)
    (h' : (⟨3, ![a, b, n]⟩ : Shape).ReducesTo [2] (⟨2, ![a, b]⟩ : Shape))
    (h : (⟨3, ![a, b, n]⟩ : Shape).Reduces [2] (⟨2, ![a, b]⟩ : Shape)) (hu : 0 < u.numel) (p : Fin a) (q : Fin b) :
    Host.reduce FloatOps.maximumf x init h' hu (ix2 p q)
      = (Finset.univ : Finset (Fin n)).fold max (init (Shape.Idx.first hu)) (fun k => x (ix3 p q k)) := by
  rw [Host.reduce_eq_fold_single FloatOps.maximumf x init h' h hu]
  exact congrArg (fun f => Finset.fold max (init (Shape.Idx.first hu)) f (Finset.univ : Finset (Fin n)))
    (funext fun k => congrArg x (lift_last h p q k))

end Cert.LastAxisMax3

end
-- ==== Proof.RefIsSpec.lean ====
/-
  The reference program computes the attention specification.

  The generated module reads each operation of the reference at an index from its operands; here those readings are
  chained, stage by stage, into the functions of the specification: the encoder, the scores, the row maximum, the
  shifted exponentials, their sum, the weights, the attended rows and the decoder. Each stage is one lemma at an index
  given by coordinates; the index functions of the generated module are identified with the coordinate constructors
  once, at the top. The row maximum is the one stage read by hand: a maximum reduction over the last axis is the fold of
  max over that axis from −∞, which is ⊥, so it is the supremum of the row, and the further maximum with −∞ is absorbed.
  The sum of exponentials starts from the zero word, which is 0.
-/
import proofs.«180303_j2181843387116_2_alg».proof.Proof.Gen.ReferenceIdeal.Read
import proofs.«180303_j2181843387116_2_alg».proof.Proof.AttnSpec
import proofs.«180303_j2181843387116_2_alg».proof.Proof.LibLastAxisMax3

noncomputable section

open scoped BigOperators

namespace Cert.RefIsSpec

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.AttnSpec

/-! ## The generated index functions at coordinates -/

/-- The encoder's product reads x at (b, s, k) … -/
theorem lidx0 (b : Fin 8) (s : Fin 2048) (d : Fin 512) (k : Fin 256) : lidx_main_v0 (ix3 b s d) k = ix3 b s k :=
  funext fun a => Fin.ext (by match a with | ⟨0, _⟩ => rfl | ⟨1, _⟩ => rfl | ⟨2, _⟩ => rfl)
/-- … and the encoder's matrix at (k, d). -/
theorem ridx0 (b : Fin 8) (s : Fin 2048) (d : Fin 512) (k : Fin 256) : ridx_main_v0 (ix3 b s d) k = ix2 k d :=
  funext fun a => Fin.ext (by match a with | ⟨0, _⟩ => rfl | ⟨1, _⟩ => rfl)
/-- The encoder's bias, broadcast twice, is read at d. -/
theorem idx12 (b : Fin 8) (s : Fin 2048) (d : Fin 512) : idx_main_v1 (idx_main_v2 (ix3 b s d)) = ix1 d :=
  funext fun a => Fin.ext (by match a with | ⟨0, _⟩ => rfl)
/-- The scores' product reads the encoded row (b, s, k) … -/
theorem lidx4 (b : Fin 8) (s t : Fin 2048) (k : Fin 512) : lidx_main_v4 (ix3 b s t) k = ix3 b s k :=
  funext fun a => Fin.ext (by match a with | ⟨0, _⟩ => rfl | ⟨1, _⟩ => rfl | ⟨2, _⟩ => rfl)
/-- … against the encoded row (b, t, k). -/
theorem ridx4 (b : Fin 8) (s t : Fin 2048) (k : Fin 512) : ridx_main_v4 (ix3 b s t) k = ix3 b t k :=
  funext fun a => Fin.ext (by match a with | ⟨0, _⟩ => rfl | ⟨1, _⟩ => rfl | ⟨2, _⟩ => rfl)
/-- The row maximum, broadcast back along t, is read at (b, s). -/
theorem idx89 (b : Fin 8) (s t : Fin 2048) : idx_main_v8 (idx_main_v9 (ix3 b s t)) = ix2 b s :=
  funext fun a => Fin.ext (by match a with | ⟨0, _⟩ => rfl | ⟨1, _⟩ => rfl)
/-- The sum of exponentials of row (b, s) runs over the entries (b, s, k). -/
theorem idx12s (b : Fin 8) (s : Fin 2048) (k : Fin 2048) : idx_main_v12 (ix2 b s) k = ix3 b s k :=
  funext fun a => Fin.ext (by match a with | ⟨0, _⟩ => rfl | ⟨1, _⟩ => rfl | ⟨2, _⟩ => rfl)
/-- The normaliser, broadcast back along t, is read at (b, s). -/
theorem idx1314 (b : Fin 8) (s t : Fin 2048) : idx_main_v13 (idx_main_v14 (ix3 b s t)) = ix2 b s :=
  funext fun a => Fin.ext (by match a with | ⟨0, _⟩ => rfl | ⟨1, _⟩ => rfl)
/-- The attended rows' product reads the weight (b, s, k) … -/
theorem lidx16 (b : Fin 8) (s : Fin 2048) (d : Fin 512) (k : Fin 2048) : lidx_main_v16 (ix3 b s d) k = ix3 b s k :=
  funext fun a => Fin.ext (by match a with | ⟨0, _⟩ => rfl | ⟨1, _⟩ => rfl | ⟨2, _⟩ => rfl)
/-- … against the encoded entry (b, k, d). -/
theorem ridx16 (b : Fin 8) (s : Fin 2048) (d : Fin 512) (k : Fin 2048) : ridx_main_v16 (ix3 b s d) k = ix3 b k d :=
  funext fun a => Fin.ext (by match a with | ⟨0, _⟩ => rfl | ⟨1, _⟩ => rfl | ⟨2, _⟩ => rfl)
/-- The decoder's product reads the attended entry (b, s, k) … -/
theorem lidx17 (b : Fin 8) (s : Fin 2048) (h : Fin 256) (k : Fin 512) : lidx_main_v17 (ix3 b s h) k = ix3 b s k :=
  funext fun a => Fin.ext (by match a with | ⟨0, _⟩ => rfl | ⟨1, _⟩ => rfl | ⟨2, _⟩ => rfl)
/-- … and the decoder's matrix at (k, h). -/
theorem ridx17 (b : Fin 8) (s : Fin 2048) (h : Fin 256) (k : Fin 512) : ridx_main_v17 (ix3 b s h) k = ix2 k h :=
  funext fun a => Fin.ext (by match a with | ⟨0, _⟩ => rfl | ⟨1, _⟩ => rfl)
/-- The decoder's bias, broadcast twice, is read at h. -/
theorem idx1819 (b : Fin 8) (s : Fin 2048) (h : Fin 256) : idx_main_v18 (idx_main_v19 (ix3 b s h)) = ix1 h :=
  funext fun a => Fin.ext (by match a with | ⟨0, _⟩ => rfl)

/-! ## The stages -/

section Stages

variable (x0 : (⟨S8x2048x256, .f32⟩ : BufTy).Contents (Elt Ideal)) (x1 : (⟨S256x512, .f32⟩ : BufTy).Contents (Elt Ideal))
  (x2 : (⟨S512, .f32⟩ : BufTy).Contents (Elt Ideal)) (x3 : (⟨S512x256, .f32⟩ : BufTy).Contents (Elt Ideal))
  (x4 : (⟨S256, .f32⟩ : BufTy).Contents (Elt Ideal))

/-- The encoded array is the encoder of the specification. -/
theorem enc_eq (b : Fin 8) (s : Fin 2048) (d : Fin 512) :
    val_main_v3 (F := Ideal) x0 x1 x2 (ix3 b s d) = enc x0 x1 x2 b s d := by
  rw [val_main_v3_apply, val_main_v0_apply, val_main_v2_apply, val_main_v1_apply, idx12, Ideal.addf_def]
  unfold enc
  refine congrArg (· + _) (Finset.sum_congr rfl fun k _ => ?_)
  rw [lidx0, ridx0]

/-- The batched product of the encoded array with itself is the scores. -/
theorem score_eq (b : Fin 8) (s t : Fin 2048) :
    val_main_v4 (F := Ideal) x0 x1 x2 (ix3 b s t) = score x0 x1 x2 b s t := by
  rw [val_main_v4_apply]
  unfold score
  refine Finset.sum_congr rfl fun k _ => ?_
  rw [lidx4, ridx4, enc_eq, enc_eq]

/-- The maximum reduction over the last axis, from −∞, is the fold of max from ⊥ over the scores of the row. -/
theorem reduceMax_eq (b : Fin 8) (s : Fin 2048) :
    val_main_v5 (F := Ideal) x0 x1 x2 (ix2 b s)
      = (Finset.univ : Finset (Fin 2048)).fold max (⊥ : EReal) (fun t => score x0 x1 x2 b s t) := by
  unfold val_main_v5
  rw [Cert.LastAxisMax3.hostReduce_max_last (val_main_v4 (F := Ideal) x0 x1 x2) (val_main_cst (F := Ideal))
    reducesTo_S8x2048x2048_S8x2048_d2 (by decide) h_S_ b s, val_main_cst_apply, Ideal.ofBits_def, ofBits_neg_inf_f32]
  exact congrArg (fun f => Finset.fold max (⊥ : EReal) f (Finset.univ : Finset (Fin 2048)))
    (funext fun t => score_eq x0 x1 x2 b s t)

/-- The maximum of −∞ with that reduction is the row maximum of the specification. -/
theorem rowMax_eq (b : Fin 8) (s : Fin 2048) :
    val_main_v7 (F := Ideal) x0 x1 x2 (ix2 b s) = rowMax x0 x1 x2 b s := by
  rw [val_main_v7_apply, val_main_v6_apply, val_main_cst_0_apply, reduceMax_eq, Ideal.ofBits_def, ofBits_neg_inf_f32,
    Ideal.maximumf_def]
  exact max_bot_rowMax x0 x1 x2 b s

/-- The exponential of the scores less the broadcast row maximum is the shifted exponentials. -/
theorem e_eq (b : Fin 8) (s t : Fin 2048) :
    val_main_v11 (F := Ideal) x0 x1 x2 (ix3 b s t) = e x0 x1 x2 b s t := by
  rw [val_main_v11_apply, val_main_v10_apply, val_main_v9_apply, val_main_v8_apply, idx89, rowMax_eq, score_eq,
    Ideal.hostUnary_exp_def, Ideal.subf_def]
  rfl

/-- The sum reduction over the last axis, from the zero word, is the normaliser. -/
theorem Z_eq (b : Fin 8) (s : Fin 2048) :
    val_main_v12 (F := Ideal) x0 x1 x2 (ix2 b s) = Z x0 x1 x2 b s := by
  rw [val_main_v12_apply, val_main_cst_1_apply, Ideal.ofBits_def, Ideal.ofBits_zero_f32, zero_add]
  unfold Z
  refine Finset.sum_congr rfl fun k _ => ?_
  rw [idx12s, e_eq]

/-- The quotient by the broadcast normaliser is the weights. -/
theorem w_eq (b : Fin 8) (s t : Fin 2048) :
    val_main_v15 (F := Ideal) x0 x1 x2 (ix3 b s t) = w x0 x1 x2 b s t := by
  rw [val_main_v15_apply, val_main_v14_apply, val_main_v13_apply, idx1314, Z_eq, e_eq, Ideal.hostDivf_def]
  rfl

/-- The batched product of the weights with the encoded array is the attended rows. -/
theorem att_eq (b : Fin 8) (s : Fin 2048) (d : Fin 512) :
    val_main_v16 (F := Ideal) x0 x1 x2 (ix3 b s d) = att x0 x1 x2 b s d := by
  rw [val_main_v16_apply]
  unfold att
  refine Finset.sum_congr rfl fun k _ => ?_
  rw [lidx16, ridx16, w_eq, enc_eq]

/-- THE REFERENCE IS THE SPECIFICATION, at coordinates: the product of the attended rows with the decoder's matrix plus
    its bias is the output of the specification. -/
theorem ref_is_spec (b : Fin 8) (s : Fin 2048) (h : Fin 256) :
    val_main_v20 (F := Ideal) x0 x1 x2 x3 x4 (ix3 b s h) = out x0 x1 x2 x3 x4 b s h := by
  rw [val_main_v20_apply, val_main_v17_apply, val_main_v19_apply, val_main_v18_apply, idx1819, Ideal.addf_def]
  unfold out
  refine congrArg (· + _) (Finset.sum_congr rfl fun k _ => ?_)
  rw [lidx17, ridx17, att_eq]

/-- The same at any index, through its coordinates. -/
theorem ref_is_spec_idx (i : S8x2048x256.Idx) :
    val_main_v20 (F := Ideal) x0 x1 x2 x3 x4 i = out x0 x1 x2 x3 x4 (i 0) (i 1) (i 2) := by
  obtain ⟨b, s, h, rfl⟩ : ∃ (b : Fin 8) (s : Fin 2048) (h : Fin 256), i = ix3 b s h := ⟨i 0, i 1, i 2, eq_ix3 i⟩
  exact ref_is_spec x0 x1 x2 x3 x4 b s h

end Stages

end Cert.RefIsSpec

end
-- ==== Proof.lean ====
/-
  The certificate of the fused encode / self-attention / decode kernel against its jnp reference.

  Both programs compute, for inputs x [8,2048,256], W_enc [256,512], b_enc [512], W_dec [512,256], b_dec [256]:
  enc = x W_enc + b_enc; scores(b,s,t) = enc(b,s,:) . enc(b,t,:); weights = softmax of the scores over t; attended =
  weights enc; out = attended W_dec + b_dec.  The reference does this in one pass with the exact softmax
  exp(s - max) / sum exp(s - max).  The kernel is two pallas_calls: an encode stage over 16 row blocks, and a fused
  flash-attention stage over (batch, query tile, key tile) = 8 x 4 x 4 that keeps, per query row, a running maximum,
  a running denominator and a running numerator across the four key tiles of 512 keys, rescaling the latter two by
  exp(old maximum - new maximum) at every tile, and divides and decodes at the last tile.

  At the extended reals, with finite inputs, every score is a real number; the running maximum after the last tile is
  the maximum over all 2048 keys, the denominator is the sum of exp(score - maximum) and the numerator the same sum
  weighted by the keys' rows (the law exp(a - b) exp(c - a) = exp(c - b) on the reals, by induction on the tile), so
  the quotient is the reference's sum of weight times row; changes of float format are the identity there.

  The frames: each kernel program's run of @main is followed segment by segment (reshape, encode region, reshape,
  attention region), each region's body run symbolically in each of its control cases; the two attention windows onto
  the one encoded array each hold half of it.  The idealization conjunct is trivial: the ideal pass rewrote nothing.
-/
import proofs.«180303_j2181843387116_2_alg».proof.Defs
import proofs.«180303_j2181843387116_2_alg».proof.Proof.Gen.Kernel
import proofs.«180303_j2181843387116_2_alg».proof.Proof.Gen.Kernel.Skeleton
import proofs.«180303_j2181843387116_2_alg».proof.Proof.Gen.Kernel.Launch
import proofs.«180303_j2181843387116_2_alg».proof.Proof.Gen.Kernel.Regions
import proofs.«180303_j2181843387116_2_alg».proof.Proof.Gen.Kernel.Points
import proofs.«180303_j2181843387116_2_alg».proof.Proof.Gen.KernelIdeal
import proofs.«180303_j2181843387116_2_alg».proof.Proof.Gen.KernelIdeal.Skeleton
import proofs.«180303_j2181843387116_2_alg».proof.Proof.Gen.KernelIdeal.Launch
import proofs.«180303_j2181843387116_2_alg».proof.Proof.Gen.KernelIdeal.Regions
import proofs.«180303_j2181843387116_2_alg».proof.Proof.Gen.KernelIdeal.Points
import proofs.«180303_j2181843387116_2_alg».proof.Proof.Gen.ReferenceIdeal
import proofs.«180303_j2181843387116_2_alg».proof.Proof.Gen.Pre_finite_inputs
import proofs.«180303_j2181843387116_2_alg».proof.Proof.Gen.ReferenceIdeal.Run
import proofs.«180303_j2181843387116_2_alg».proof.Proof.Gen.ReferenceIdeal.Read
import proofs.«180303_j2181843387116_2_alg».proof.Proof.FrameClaims
import proofs.«180303_j2181843387116_2_alg».proof.Proof.KernelValueIdeal
import proofs.«180303_j2181843387116_2_alg».proof.Proof.RefIsSpec
import Idealize.ShloMosaic.Adequacy
import Idealize.ShloMosaic.Init

noncomputable section

namespace Cert.Proof

open Idealize.ShloMosaic Idealize.ShloMosaic.TcCoe Idealize.SL.Sem

/-- At the extended reals both programs end with the specification's output array: the kernel by its run and the
    value of the attention region's final array, the reference by its generated run read one operation at a time. -/
theorem algebraic : Cert.algebraic_KernelIdeal_ReferenceIdeal := by
  intro m ρ m' ρ' hpre hagree
  refine ⟨fun c => Cert.KernelIdeal.Run.specOut m c, ?_, ?_⟩
  · exact (θ_run Cert.KernelIdeal.defs _ _).mono
      (fun _ h c => ⟨(h c).1.trans (Cert.KernelIdeal.Run.kernel_value m c (hpre c)), (h c).2⟩)
      (Cert.KernelIdeal.Run.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v20_eq, (hagree c).1, (hagree c).2.1, (hagree c).2.2.1, (hagree c).2.2.2.1, (hagree c).2.2.2.2]
    funext i
    exact Cert.RefIsSpec.ref_is_spec_idx _ _ _ _ _ i

theorem claim : Cert.Claim :=
  ⟨Cert.Kernel.Gen.facts, Cert.KernelIdeal.Gen.facts, Cert.ReferenceIdeal.Gen.facts, Cert.Pre_finite_inputs.Gen.facts,
    Frames.frame_kernel, Frames.frame_kernel_ideal, Frames.frame_reference, Frames.preserves, algebraic⟩

end Cert.Proof

end
